-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : FVec F S8x4096x2 .f32) (main_arg1 : FVec F S8x4096x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  main_v8
-- ==== Kernel.lean ====
abbrev S8x4096x2 : Shape := ⟨3, ![8, 4096, 2]⟩
abbrev S8x4096 : Shape := ⟨2, ![8, 4096]⟩
abbrev S4x8x4096 : Shape := ⟨3, ![4, 8, 4096]⟩
abbrev S8x1024x2 : Shape := ⟨3, ![8, 1024, 2]⟩
abbrev S8x1024 : Shape := ⟨2, ![8, 1024]⟩
abbrev S1x8x4096 : Shape := ⟨3, ![1, 8, 4096]⟩
abbrev S8x1024x1 : Shape := ⟨3, ![8, 1024, 1]⟩
abbrev S8x128x1 : Shape := ⟨3, ![8, 128, 1]⟩
abbrev S8x128 : Shape := ⟨2, ![8, 128]⟩
abbrev S8x1x128 : Shape := ⟨3, ![8, 1, 128]⟩
abbrev S8x1024x128 : Shape := ⟨3, ![8, 1024, 128]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096, .f32⟩
  | .hbm, ⟨3, _⟩ => ⟨S4x8x4096, .f32⟩
  | .hbm, ⟨4, _⟩ => ⟨S_, .f32⟩
  | .hbm, ⟨5, _⟩ => ⟨S8x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8x1024x2, .f32⟩
  | .local _ .vmem, ⟨1, _⟩ => ⟨S8x1024x2, .f32⟩
  | .local _ .vmem, ⟨2, _⟩ => ⟨S8x1024x2, .f32⟩
  | .local _ .vmem, ⟨3, _⟩ => ⟨S8x1024x2, .f32⟩
  | .local _ .vmem, ⟨4, _⟩ => ⟨S8x1024, .f32⟩
  | .local _ .vmem, ⟨5, _⟩ => ⟨S8x1024, .f32⟩
  | .local _ .vmem, ⟨6, _⟩ => ⟨S1x8x4096, .f32⟩
  | .local _ .vmem, ⟨7, _⟩ => ⟨S1x8x4096, .f32⟩
  | .local _ .vmem, ⟨8, _⟩ => ⟨S8x1024, .f32⟩
  | .local _ .vmem, ⟨9, _⟩ => ⟨S8x4096, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v7 : BitVec 32 := Scalar.muli arg1 c1024_i32
  v7
def k0_mult2 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c0_i32_11 : BitVec 32 := 0#32
  let v31 : BitVec 32 := Scalar.addi v8 c0_i32_11
  v31
def k0_off1 (i : grid0.Coords) (c0_i32_11 : BitVec 32) : Fin 2 → Nat :=
  let c0_12 : Index := 0#32
  let arg1 : BitVec 32 := BitVec.ofNat 32 (i 1).val
  let c1024_i32 : BitVec 32 := 1024#32
  let v7 : BitVec 32 := Scalar.muli arg1 c1024_i32
  let v8 : BitVec 32 := v7
  let v31 : BitVec 32 := Scalar.addi v8 c0_i32_11
  let v32 : BitVec 32 := v31
  let v33 : Index := Scalar.indexCast v32
  ![0, v33.toNat]
def k0_mult3 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c128_i32 : BitVec 32 := 128#32
  let v62 : BitVec 32 := Scalar.addi v8 c128_i32
  v62
def k0_mult4 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c256_i32 : BitVec 32 := 256#32
  let v93 : BitVec 32 := Scalar.addi v8 c256_i32
  v93
def k0_mult5 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c384_i32 : BitVec 32 := 384#32
  let v124 : BitVec 32 := Scalar.addi v8 c384_i32
  v124
def k0_mult6 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c512_i32 : BitVec 32 := 512#32
  let v155 : BitVec 32 := Scalar.addi v8 c512_i32
  v155
def k0_mult7 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c640_i32 : BitVec 32 := 640#32
  let v186 : BitVec 32 := Scalar.addi v8 c640_i32
  v186
def k0_mult8 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c768_i32 : BitVec 32 := 768#32
  let v217 : BitVec 32 := Scalar.addi v8 c768_i32
  v217
def k0_mult9 (i : grid0.Coords) : BitVec 32 :=
  let arg1 : BitVec 32 := BitVec.ofNat 32 (i 1).val
  let c1024_i32 : BitVec 32 := 1024#32
  let v7 : BitVec 32 := Scalar.muli arg1 c1024_i32
  let v8 : BitVec 32 := v7
  let c896_i32 : BitVec 32 := 896#32
  let v248 : BitVec 32 := Scalar.addi v8 c896_i32
  v248
def k0_cond2 (i : grid0.Coords) : BitVec 1 :=
  let arg1 : BitVec 32 := BitVec.ofNat 32 (i 1).val
  let c3_i32 : BitVec 32 := 3#32
  let v257 : BitVec 1 := Scalar.cmpi .eq arg1 c3_i32
  let v258 : BitVec 32 := Scalar.extui v257
  let c0_i32_70 : BitVec 32 := 0#32
  let v259 : BitVec 1 := Scalar.cmpi .ne v258 c0_i32_70
  v259

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x1024x2_S8x1024x2_0_0_0 : ∀ a, (![0, 0, 0] : Fin 3 → Nat) a + S8x1024x2.size a ≤ S8x1024x2.size a
  h_S8x1024x2 : 0 < S8x1024x2.numel
  slices_S8x1024x2_o0_0_0_S8x1024x1 : S8x1024x2.Slices ![0, 0, 0] S8x1024x1
  slices_S8x1024x2_o0_0_1_S8x1024x1 : S8x1024x2.Slices ![0, 0, 1] S8x1024x1
  slices_S8x1024x2_o0_0_0_S8x128x1 : S8x1024x2.Slices ![0, 0, 0] S8x128x1
  shapeCasts_S8x128x1_S8x128 : S8x128x1.ShapeCasts S8x128
  shapeCasts_S8x128_S8x1x128 : S8x128.ShapeCasts S8x1x128
  slices_S8x1024x2_o0_0_1_S8x128x1 : S8x1024x2.Slices ![0, 0, 1] S8x128x1
  broadcasts_S8x1024x1_S8x1024x128 : S8x1024x1.Broadcasts S8x1024x128
  broadcasts_S8x1x128_S8x1024x128 : S8x1x128.Broadcasts S8x1024x128
  reduces_S8x1024x128_S8x1024 : S8x1024x128.Reduces [2] S8x1024
  reduces_S8x1024x128_S8x128 : S8x1024x128.Reduces [1] S8x128
  h_S8x128 : 0 < S8x128.numel
  shapeCasts_S8x128_S8x128 : S8x128.ShapeCasts S8x128
  slices_S8x1024x2_o0_128_0_S8x128x1 : S8x1024x2.Slices ![0, 128, 0] S8x128x1
  slices_S8x1024x2_o0_128_1_S8x128x1 : S8x1024x2.Slices ![0, 128, 1] S8x128x1
  slices_S8x1024x2_o0_256_0_S8x128x1 : S8x1024x2.Slices ![0, 256, 0] S8x128x1
  slices_S8x1024x2_o0_256_1_S8x128x1 : S8x1024x2.Slices ![0, 256, 1] S8x128x1
  slices_S8x1024x2_o0_384_0_S8x128x1 : S8x1024x2.Slices ![0, 384, 0] S8x128x1
  slices_S8x1024x2_o0_384_1_S8x128x1 : S8x1024x2.Slices ![0, 384, 1] S8x128x1
  slices_S8x1024x2_o0_512_0_S8x128x1 : S8x1024x2.Slices ![0, 512, 0] S8x128x1
  slices_S8x1024x2_o0_512_1_S8x128x1 : S8x1024x2.Slices ![0, 512, 1] S8x128x1
  slices_S8x1024x2_o0_640_0_S8x128x1 : S8x1024x2.Slices ![0, 640, 0] S8x128x1
  slices_S8x1024x2_o0_640_1_S8x128x1 : S8x1024x2.Slices ![0, 640, 1] S8x128x1
  slices_S8x1024x2_o0_768_0_S8x128x1 : S8x1024x2.Slices ![0, 768, 0] S8x128x1
  slices_S8x1024x2_o0_768_1_S8x128x1 : S8x1024x2.Slices ![0, 768, 1] S8x128x1
  slices_S8x1024x2_o0_896_0_S8x128x1 : S8x1024x2.Slices ![0, 896, 0] S8x128x1
  slices_S8x1024x2_o0_896_1_S8x128x1 : S8x1024x2.Slices ![0, 896, 1] S8x128x1
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  reducesTo_S4x8x4096_S8x4096_d0 : S4x8x4096.ReducesTo [0] S8x4096
  h_S_ : 0 < S_.numel
  reducesTo_S8x4096_S_d0_1 : S8x4096.ReducesTo [0, 1] S_
  hrank0 : 0 < grid0.rank
  k0_mult1_dvd : ∀ i : grid0.Coords, 1024 ∣ (k0_mult1 i).toNat
  k0_mult2_dvd : ∀ i : grid0.Coords, 128 ∣ (k0_mult2 i).toNat
  k0_off1_inb : ∀ i : grid0.Coords, ∀ (r : Fin 8), ∀ a, (k0_off1 i (BitVec.ofNat 32 (128 * r.val))) a + S8x128.size a ≤ S8x4096.size a
  k0_mult3_dvd : ∀ i : grid0.Coords, 128 ∣ (k0_mult3 i).toNat
  k0_mult4_dvd : ∀ i : grid0.Coords, 128 ∣ (k0_mult4 i).toNat
  k0_mult5_dvd : ∀ i : grid0.Coords, 128 ∣ (k0_mult5 i).toNat
  k0_mult6_dvd : ∀ i : grid0.Coords, 128 ∣ (k0_mult6 i).toNat
  k0_mult7_dvd : ∀ i : grid0.Coords, 128 ∣ (k0_mult7 i).toNat
  k0_mult8_dvd : ∀ i : grid0.Coords, 128 ∣ (k0_mult8 i).toNat
  k0_mult9_dvd : ∀ i : grid0.Coords, 128 ∣ (k0_mult9 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x2.size a ≤ S8x4096x2.size a
  hwx0_0 : ∀ i : grid0.Coords, EltTy.bits .f32 = 32 ∨ (Rect.block (s := S8x4096x2) S8x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x2.size a ≤ S8x4096x2.size a
  hwx0_1 : ∀ i : grid0.Coords, EltTy.bits .f32 = 32 ∨ (Rect.block (s := S8x4096x2) S8x1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x4096.size a
  hwx0_2 : ∀ i : grid0.Coords, EltTy.bits .f32 = 32 ∨ (Rect.block (s := S8x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S4x8x4096.size a
  hwx0_3 : ∀ i : grid0.Coords, EltTy.bits .f32 = 32 ∨ (Rect.block (s := S4x8x4096) S1x8x4096.size (cc0_transform_3 i) (hinb0_3 i)).WholeWords (EltTy.packing .f32)

variable [Facts₀]

abbrev win0_0 : Pipeline.Window sig grid0 :=
  Pipeline.Window.ofSpec (Memref.whole main_arg0) S8x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x2 : Shape := ⟨3, ![8, 4096, 2]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x2, .f32⟩
  | .hbm, ⟨3, _⟩ => ⟨S_, .f32⟩
  | .hbm, ⟨4, _⟩ => ⟨S8x4096, .f32⟩
  | .hbm, ⟨5, _⟩ => ⟨S8x4096x2, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S8x4096x2_S8x4096_d2 : S8x4096x2.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  reducesTo_S8x4096_S_d0_1 : S8x4096.ReducesTo [0, 1] S_
  dot_S8x4096x2_S8x4096x2_S8x4096x4096_2_2_1_1_0_0_wf : DotDims.WF S8x4096x2 S8x4096x2 S8x4096x4096 [2] [2] [1] [1] [0] [0]

variable [Facts₀]

def dot_S8x4096x2_S8x4096x2_S8x4096x4096_2_2_1_1_0_0 : DotDims S8x4096x2 S8x4096x2 S8x4096x4096 where
  lhsContracting := [2]
  rhsContracting := [2]
  lhsNonContracting := [1]
  rhsNonContracting := [1]
  lhsBatch := [0]
  rhsBatch := [0]
  wf := dot_S8x4096x2_S8x4096x2_S8x4096x4096_2_2_1_1_0_0_wf

class Facts : Prop extends Facts₀ where

variable [Facts]
-- ==== Proof.BitsShared.lean ====
/-
  The grid is 4 × 4, point t = 4·i + j (i the tile of query rows, j the tile of target rows). The body keeps two
  running minima in scratch: per query row over the target rows seen so far, and per target row over the query rows of
  tile i. Both are reset to +∞ where j = 0 and written out (after a square root) where j = 3. This module decides
  the two branch conditions over the grid, records where the two output windows are idle, and opens the region's
  invariant on the two scratch buffers.
-/
import proofs.«151873_j40888088658143_2_alg».proof.Proof.Gen.Kernel.Frame
import proofs.«151873_j40888088658143_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- The reset branch's condition: the inner coordinate j is 0. -/
abbrev condFirst (i : grid0.Coords) : Prop :=
  (Scalar.cmpi .ne (Scalar.extui (Scalar.cmpi .eq (BitVec.ofNat 32 (i 1).val) 0#32)) 0#32) = 1#1
/-- It holds exactly at the points t ≡ 0 (mod 4). -/
theorem condFirst_iff : ∀ t : Fin cfg0.N, condFirst (grid0.coords t) ↔ t.val % 4 = 0 :=
  (by decide +kernel : ∀ t : Fin grid0.N, condFirst (grid0.coords t) ↔ t.val % 4 = 0)

/-- The write-out branch's condition: the inner coordinate j is 3. -/
abbrev condLast (i : grid0.Coords) : Prop := k0_cond2 i = 1#1
/-- It holds exactly at the points t ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from j = 3 the two outputs are idle and not written back. -/
theorem idle2 : ∀ t : Fin cfg0.N, ¬condLast (grid0.coords t) → cfg0.idle 2 (grid0.coords t) = true := by decide +kernel
theorem idle3 : ∀ t : Fin cfg0.N, ¬condLast (grid0.coords t) → cfg0.idle 3 (grid0.coords t) = true := by decide +kernel
theorem noFlush2 : ∀ t : Fin cfg0.N, ¬condLast (grid0.coords t) → (cfg0.win 2).flush t = false := by decide +kernel
theorem noFlush3 : ∀ t : Fin cfg0.N, ¬condLast (grid0.coords t) → (cfg0.win 3).flush t = false := by decide +kernel
/-- At j = 3 they are live. -/
theorem live2 : ∀ t : Fin cfg0.N, condLast (grid0.coords t) → cfg0.idle 2 (grid0.coords t) = false := by decide +kernel
theorem live3 : ∀ t : Fin cfg0.N, condLast (grid0.coords t) → cfg0.idle 3 (grid0.coords t) = false := by decide +kernel

/-! ## The memrefs the body is called with -/

abbrev ms0 (t : Fin cfg0.N) : Memref sig .tc .vmem S8x1024x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x4096 .f32 := win0_3.stage (cfg0.slots t 3)
abbrev hs3 (t : Fin cfg0.N) : (ms3 t).IsWhole := hstage0_3 ((cfg0.slots t 3).cast nbuf0_3)
/-- The two scratch buffers: the running minimum per query row, and per target row. -/
abbrev scX : Memref sig .tc .vmem S8x1024 .f32 := Memref.whole cc0_scratch0
abbrev scT : Memref sig .tc .vmem S8x4096 .f32 := Memref.whole cc0_scratch1

/-- The region's invariant, with the two scratch buffers as whole memrefs owned at some contents. -/
theorem PhiA_eq (c : Dev nD) :
    (Pipeline.ΦA spec0 c : sProp 𝕄)
      = iprop(iprop((∃ d, owns (c : Thread nD τ) scX fullShare d) ∗ (∃ d, owns (c : Thread nD τ) scT fullShare d)) ∗ (∃ r, prngReg c r)) := by
  unfold Pipeline.ΦA; rw [scopedRest0_eq]; simp only [scX, scT, owns_whole]; try rfl

end Cert.Kernel.Hand

end
-- ==== Proof.BitsRunFirst.lean ====
/-
  The body at a point with j = 0. It first overwrites both scratch buffers with +∞ (what they held before is read
  once and discarded), then does the eight blocks' work as at every point. Nothing is written out.
-/
import proofs.«151873_j40888088658143_2_alg».proof.Proof.BitsShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run where only the reset branch is taken: whatever the scratch buffers held, each ends with the listed
    stores written; inputs and (idle) outputs are handed back as they were. -/
noncomputable def runFirst (c : Dev nD) (i : grid0.Coords) (arg2 : Memref sig .tc .vmem S8x1024x2 .f32) (harg2 : arg2.IsWhole) (arg3 : Memref sig .tc .vmem S8x1024x2 .f32) (harg3 : arg3.IsWhole) (arg4 : Memref sig .tc .vmem S8x1024 .f32) (harg4 : arg4.IsWhole) (arg5 : Memref sig .tc .vmem S1x8x4096 .f32) (harg5 : arg5.IsWhole) (arg6 : Memref sig .tc .vmem S8x1024 .f32) (harg6 : arg6.IsWhole) (arg7 : Memref sig .tc .vmem S8x4096 .f32) (harg7 : arg7.IsWhole) (hc0 : condFirst i) (hc1 : ¬condLast i)
    (x0 x1 : Vec F S8x1024x2 .f32) :
    Σ' (LS0 : List (View.Piece (Elt F) S8x1024 .f32)), { LS1 : List (View.Piece (Elt F) S8x4096 .f32) //
      ∀ (xi2 : Vec F S8x1024 .f32) (xi3 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ arg7.view.loc (c : Thread nD τ) ↦[arg7.view.set]{fullShare} arg7.view.writes (Elt F) arg7.view.junk LS1) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi2 xi3 E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.Kernel.Hand

end
-- ==== Proof.BitsRunMid.lean ====
/-
  The body at a point with 0 < j < 3: no reset, no write-out. Eight times over (once per block of 128 target rows)
  it forms the squared distances of the tile's query rows to the block's target rows, lowers the per-query-row
  running minimum by the block's row minima, and lowers the block's slice of the per-target-row running minimum by
  the block's column minima. What the two scratch buffers end with is found as the list of the body's stores.
-/
import proofs.«151873_j40888088658143_2_alg».proof.Proof.BitsShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run where neither branch is taken: the two inputs and the two (idle) outputs are handed back as they
    were, and each scratch buffer ends with the listed stores written over what it held. -/
noncomputable def runMid (c : Dev nD) (i : grid0.Coords) (arg2 : Memref sig .tc .vmem S8x1024x2 .f32) (harg2 : arg2.IsWhole) (arg3 : Memref sig .tc .vmem S8x1024x2 .f32) (harg3 : arg3.IsWhole) (arg4 : Memref sig .tc .vmem S8x1024 .f32) (harg4 : arg4.IsWhole) (arg5 : Memref sig .tc .vmem S1x8x4096 .f32) (harg5 : arg5.IsWhole) (arg6 : Memref sig .tc .vmem S8x1024 .f32) (harg6 : arg6.IsWhole) (arg7 : Memref sig .tc .vmem S8x4096 .f32) (harg7 : arg7.IsWhole) (hc0 : ¬condFirst i) (hc1 : ¬condLast i)
    (x0 x1 : Vec F S8x1024x2 .f32) (xs0 : Vec F S8x1024 .f32) (xs1 : Vec F S8x4096 .f32) :
    Σ' (LS0 : List (View.Piece (Elt F) S8x1024 .f32)), { LS1 : List (View.Piece (Elt F) S8x4096 .f32) //
      ∀ (xi2 : Vec F S8x1024 .f32) (xi3 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ arg7.view.loc (c : Thread nD τ) ↦[arg7.view.set]{fullShare} arg7.view.writes (Elt F) (harg7.unread xs1) LS1) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi2 xi3 E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.Kernel.Hand

end
-- ==== Proof.BitsRunLast.lean ====
/-
  The body at a point with j = 3. After the eight blocks' work the two running minima are complete for this tile of
  query rows; their square roots are stored, whole, into the two output blocks.
-/
import proofs.«151873_j40888088658143_2_alg».proof.Proof.BitsShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run where only the write-out branch is taken: each scratch buffer ends with the listed stores written
    over what it held, and each output block, whatever it held, with its listed stores written. -/
noncomputable def runLast (c : Dev nD) (i : grid0.Coords) (arg2 : Memref sig .tc .vmem S8x1024x2 .f32) (harg2 : arg2.IsWhole) (arg3 : Memref sig .tc .vmem S8x1024x2 .f32) (harg3 : arg3.IsWhole) (arg4 : Memref sig .tc .vmem S8x1024 .f32) (harg4 : arg4.IsWhole) (arg5 : Memref sig .tc .vmem S1x8x4096 .f32) (harg5 : arg5.IsWhole) (arg6 : Memref sig .tc .vmem S8x1024 .f32) (harg6 : arg6.IsWhole) (arg7 : Memref sig .tc .vmem S8x4096 .f32) (harg7 : arg7.IsWhole) (hc0 : ¬condFirst i) (hc1 : condLast i)
    (x0 x1 : Vec F S8x1024x2 .f32) (xs0 : Vec F S8x1024 .f32) (xs1 : Vec F S8x4096 .f32) :
    Σ' (L2 : List (View.Piece (Elt F) S8x1024 .f32)) (L3 : List (View.Piece (Elt F) S1x8x4096 .f32)) (LS0 : List (View.Piece (Elt F) S8x1024 .f32)), { LS1 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ arg7.view.loc (c : Thread nD τ) ↦[arg7.view.set]{fullShare} arg7.view.writes (Elt F) (harg7.unread xs1) LS1) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, ?_, fun E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexact HS1

end Cert.Kernel.Hand

end
-- ==== Proof.BitsFrame.lean ====
/-
  The frame of the kernel's program, the same argument as for its idealization, at any instance of the float operations. After the point t the two scratch buffers hold what the body's stores
  left: after a point with j = 0 the stores alone determine both (the reset covers them); after a later point the
  per-query-row buffer is again covered whole, while the per-target-row buffer keeps, outside the 1024 columns the
  point's eight blocks rewrite, what the point before left. The state after each point is therefore defined by
  recursion on the point, the region's invariant carries it from one point to the next, and the two output blocks
  are named where j = 3, the only points where they are stored and written back.
-/
import proofs.«151873_j40888088658143_2_alg».proof.Proof.BitsRunFirst
import proofs.«151873_j40888088658143_2_alg».proof.Proof.BitsRunMid
import proofs.«151873_j40888088658143_2_alg».proof.Proof.BitsRunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev wX : scX.IsWhole := Memref.isWhole_whole _
abbrev wT : scT.IsWhole := Memref.isWhole_whole _

/-! ## The three runs at a grid point, on the pipeline's memrefs and the two input blocks -/

abbrev rF (c : Dev nD) (t : Fin cfg0.N) (h0 : condFirst (grid0.coords t)) (h1 : ¬condLast (grid0.coords t)) :=
  runFirst (F := F) c (grid0.coords t) (ms0 t) (hs0 t) (ms1 t) (hs1 t) (ms2 t) (hs2 t) (ms3 t) (hs3 t) scX wX scT wT h0 h1 (iblk m c 0 t) (iblk m c 1 t)
abbrev rM (c : Dev nD) (t : Fin cfg0.N) (h0 : ¬condFirst (grid0.coords t)) (h1 : ¬condLast (grid0.coords t))
    (xs : Vec F S8x1024 .f32 × Vec F S8x4096 .f32) :=
  runMid (F := F) c (grid0.coords t) (ms0 t) (hs0 t) (ms1 t) (hs1 t) (ms2 t) (hs2 t) (ms3 t) (hs3 t) scX wX scT wT h0 h1 (iblk m c 0 t) (iblk m c 1 t) xs.1 xs.2
abbrev rL (c : Dev nD) (t : Fin cfg0.N) (h0 : ¬condFirst (grid0.coords t)) (h1 : condLast (grid0.coords t))
    (xs : Vec F S8x1024 .f32 × Vec F S8x4096 .f32) :=
  runLast (F := F) c (grid0.coords t) (ms0 t) (hs0 t) (ms1 t) (hs1 t) (ms2 t) (hs2 t) (ms3 t) (hs3 t) scX wX scT wT h0 h1 (iblk m c 0 t) (iblk m c 1 t) xs.1 xs.2

/-! ## Covers: which store lists determine a buffer whatever it held -/

theorem coverX_first (c : Dev nD) (t : Fin cfg0.N) (h0 : condFirst (grid0.coords t)) (h1 : ¬condLast (grid0.coords t)) (y : S8x1024.Idx) : ∃ pc ∈ (rF m c t h0 h1).1, y ∈ pc.1.set :=
  View.cover_of_tiledL (rF m c t h0 h1).1 S8x1024.size (by sl_kernel_rfl) y
theorem coverX_mid (c : Dev nD) (t : Fin cfg0.N) (h0 : ¬condFirst (grid0.coords t)) (h1 : ¬condLast (grid0.coords t)) (xs : Vec F S8x1024 .f32 × Vec F S8x4096 .f32) (y : S8x1024.Idx) : ∃ pc ∈ (rM m c t h0 h1 xs).1, y ∈ pc.1.set :=
  View.cover_of_tiledL (rM m c t h0 h1 xs).1 S8x1024.size (by sl_kernel_rfl) y
theorem coverX_last (c : Dev nD) (t : Fin cfg0.N) (h0 : ¬condFirst (grid0.coords t)) (h1 : condLast (grid0.coords t)) (xs : Vec F S8x1024 .f32 × Vec F S8x4096 .f32) (y : S8x1024.Idx) : ∃ pc ∈ (rL m c t h0 h1 xs).2.2.1, y ∈ pc.1.set :=
  View.cover_of_tiledL (rL m c t h0 h1 xs).2.2.1 S8x1024.size (by sl_kernel_rfl) y
theorem cover2_last (c : Dev nD) (t : Fin cfg0.N) (h0 : ¬condFirst (grid0.coords t)) (h1 : condLast (grid0.coords t)) (xs : Vec F S8x1024 .f32 × Vec F S8x4096 .f32) (y : S8x1024.Idx) : ∃ pc ∈ (rL m c t h0 h1 xs).1, y ∈ pc.1.set :=
  View.cover_of_tiledL (rL m c t h0 h1 xs).1 S8x1024.size (by sl_kernel_rfl) y
theorem cover3_last (c : Dev nD) (t : Fin cfg0.N) (h0 : ¬condFirst (grid0.coords t)) (h1 : condLast (grid0.coords t)) (xs : Vec F S8x1024 .f32 × Vec F S8x4096 .f32) (y : S1x8x4096.Idx) : ∃ pc ∈ (rL m c t h0 h1 xs).2.1, y ∈ pc.1.set :=
  View.cover_of_tiledL (rL m c t h0 h1 xs).2.1 S1x8x4096.size (by sl_kernel_rfl) y
/-! ## What the scratch buffers and the output blocks hold after a point of each kind -/

def firstSc (c : Dev nD) (t : Fin cfg0.N) (h0 : condFirst (grid0.coords t)) (h1 : ¬condLast (grid0.coords t)) : Vec F S8x1024 .f32 × Vec F S8x4096 .f32 :=
  (scX.view.read (Elt F) (scX.view.writes (Elt F) scX.view.junk (rF m c t h0 h1).1),
   scT.view.read (Elt F) (scT.view.writes (Elt F) scT.view.junk (rF m c t h0 h1).2.1))
def midSc (c : Dev nD) (t : Fin cfg0.N) (h0 : ¬condFirst (grid0.coords t)) (h1 : ¬condLast (grid0.coords t)) (xs : Vec F S8x1024 .f32 × Vec F S8x4096 .f32) : Vec F S8x1024 .f32 × Vec F S8x4096 .f32 :=
  (scX.view.read (Elt F) (scX.view.writes (Elt F) scX.view.junk (rM m c t h0 h1 xs).1),
   scT.view.read (Elt F) (scT.view.writes (Elt F) (wT.unread xs.2) (rM m c t h0 h1 xs).2.1))
def lastSc (c : Dev nD) (t : Fin cfg0.N) (h0 : ¬condFirst (grid0.coords t)) (h1 : condLast (grid0.coords t)) (xs : Vec F S8x1024 .f32 × Vec F S8x4096 .f32) : Vec F S8x1024 .f32 × Vec F S8x4096 .f32 :=
  (scX.view.read (Elt F) (scX.view.writes (Elt F) scX.view.junk (rL m c t h0 h1 xs).2.2.1),
   scT.view.read (Elt F) (scT.view.writes (Elt F) (wT.unread xs.2) (rL m c t h0 h1 xs).2.2.2.1))
def lastOut (c : Dev nD) (t : Fin cfg0.N) (h0 : ¬condFirst (grid0.coords t)) (h1 : condLast (grid0.coords t)) (xs : Vec F S8x1024 .f32 × Vec F S8x4096 .f32) : Vec F S8x1024 .f32 × Vec F S1x8x4096 .f32 :=
  (scX.view.read (Elt F) (scX.view.writes (Elt F) scX.view.junk (rL m c t h0 h1 xs).1),
   (ms3 t).view.read (Elt F) ((ms3 t).view.writes (Elt F) (ms3 t).view.junk (rL m c t h0 h1 xs).2.1))

/-! ## The scratch buffers after each point, by recursion on the point -/

def scAt (c : Dev nD) : (n : ℕ) → n < cfg0.N → Vec F S8x1024 .f32 × Vec F S8x4096 .f32
  | 0, hn => firstSc m c ⟨0, hn⟩ ((condFirst_iff ⟨0, hn⟩).mpr (Nat.zero_mod _)) (fun h => by have := (condLast_iff ⟨0, hn⟩).mp h; dsimp only at this; omega)
  | n + 1, hn =>
    if h0 : (n + 1) % 4 = 0 then
      firstSc m c ⟨n + 1, hn⟩ ((condFirst_iff ⟨n + 1, hn⟩).mpr h0) (fun h => by have := (condLast_iff ⟨n + 1, hn⟩).mp h; dsimp only at this; omega)
    else if h3 : (n + 1) % 4 = 3 then
      lastSc m c ⟨n + 1, hn⟩ (fun h => h0 ((condFirst_iff ⟨n + 1, hn⟩).mp h)) ((condLast_iff ⟨n + 1, hn⟩).mpr h3) (scAt c n (Nat.lt_of_succ_lt hn))
    else
      midSc m c ⟨n + 1, hn⟩ (fun h => h0 ((condFirst_iff ⟨n + 1, hn⟩).mp h)) (fun h => h3 ((condLast_iff ⟨n + 1, hn⟩).mp h)) (scAt c n (Nat.lt_of_succ_lt hn))

theorem scAt_first (c : Dev nD) (t : Fin cfg0.N) (h0 : t.val % 4 = 0) :
    scAt m c t.val t.isLt = firstSc m c t ((condFirst_iff t).mpr h0) (fun h => by have := (condLast_iff t).mp h; omega) := by
  obtain ⟨n, hn⟩ := t
  cases n with
  | zero => rfl
  | succ n => exact dif_pos h0
theorem scAt_last (c : Dev nD) (t : Fin cfg0.N) (h0 : ¬t.val % 4 = 0) (h3 : t.val % 4 = 3) :
    scAt m c t.val t.isLt = lastSc m c t (fun h => h0 ((condFirst_iff t).mp h)) ((condLast_iff t).mpr h3)
      (scAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h3)
theorem scAt_mid (c : Dev nD) (t : Fin cfg0.N) (h0 : ¬t.val % 4 = 0) (h3 : ¬t.val % 4 = 3) :
    scAt m c t.val t.isLt = midSc m c t (fun h => h0 ((condFirst_iff t).mp h)) (fun h => h3 ((condLast_iff t).mp h))
      (scAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h3)

/-- The two output blocks after the point t: named where j = 3; elsewhere the windows are idle and nothing consults this. -/
def outAt (c : Dev nD) (t : Fin cfg0.N) : Vec F S8x1024 .f32 × Vec F S1x8x4096 .f32 :=
  if h3 : t.val % 4 = 3 then
    lastOut m c t (fun h => by have := (condFirst_iff t).mp h; omega) ((condLast_iff t).mpr h3)
      (scAt m c (t.val - 1) (Nat.lt_of_le_of_lt (Nat.sub_le _ _) t.isLt))
  else (scX.view.read (Elt F) scX.view.junk, (ms3 t).view.read (Elt F) (ms3 t).view.junk)

theorem outAt_last (c : Dev nD) (t : Fin cfg0.N) (h0 : ¬t.val % 4 = 0) (h3 : t.val % 4 = 3) :
    outAt m c t = lastOut m c t (fun h => h0 ((condFirst_iff t).mp h)) ((condLast_iff t).mpr h3)
      (scAt m c (t.val - 1) (Nat.lt_of_le_of_lt (Nat.sub_le _ _) t.isLt)) := dif_pos h3

/-! ## The region's invariant, point by point -/

def PhiS (c : Dev nD) : (n : ℕ) → n ≤ cfg0.N → sProp 𝕄
  | 0, _ => Pipeline.ΦA spec0 c
  | n + 1, hn => iprop(iprop(owns (c : Thread nD τ) scX fullShare (scAt m c n hn).1 ∗ owns (c : Thread nD τ) scT fullShare (scAt m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scX fullShare (scAt m c n hn).1 ∗ owns (c : Thread nD τ) scT fullShare (scAt m c n hn).2) ∗ (∃ r, prngReg c r)) := rfl
theorem PhiS_pos (c : Dev nD) (n : ℕ) (h : n ≤ cfg0.N) (hz : n ≠ 0) :
    PhiS m c n h = iprop(iprop(owns (c : Thread nD τ) scX fullShare (scAt m c (n - 1) (by omega)).1 ∗ owns (c : Thread nD τ) scT fullShare (scAt m c (n - 1) (by omega)).2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outAt m c t).1
    | ⟨3, _⟩ => (outAt m c t).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outAt m c t).1 := by dsimp only [dats]
theorem after3 (c : Dev nD) (t : Fin cfg0.N) : (dats m 0 c).after 3 t = (outAt m c t).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option maxHeartbeats 4800000 in
/-- The body at any point: the inputs' buffers hold their blocks; the residue of the point modulo 4 says which of the
    three runs applies; the invariant hands over the two scratch buffers at what the point before left (at anything
    before the very first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · have hF : condFirst (grid0.coords t) := (condFirst_iff t).mpr h0
    have hL : ¬condLast (grid0.coords t) := fun h => by have := (condLast_iff t).mp h; omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [Dat.leavesExact_idle (dats m 0 c) 2 t (idle2 t hL) (noFlush2 t hL)]
    rw [Dat.leavesExact_idle (dats m 0 c) 3 t (idle3 t hL) (noFlush3 t hL)]
    rw [scAt_first m c t h0]
    unfold firstSc; dsimp only
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩⟩
      iapply ((rF m c t hF hL).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_first m c t hF hL)
          · unfold owns; iexists _; isplitr
            swap; · iexact HS1
            ipureintro; rfl
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((rF m c t hF hL).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_first m c t hF hL)
          · unfold owns; iexists _; isplitr
            swap; · iexact HS1
            ipureintro; rfl
        iexact Hg
      isplitl [Ho]; · iexact Ho
      isplitl [H0]; · iexact H0
      isplitl [H1]; · iexact H1
      isplitl [H2]; · iexists _; iexact H2
      iexists _; iexact H3
  · have hF : ¬condFirst (grid0.coords t) := fun h => h0 ((condFirst_iff t).mp h)
    have hz : t.val ≠ 0 := fun h => h0 (by rw [h])
    by_cases h3 : t.val % 4 = 3
    · have hL : condLast (grid0.coords t) := (condLast_iff t).mpr h3
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t hL], after2]
      rw [show (dats m 0 c).leavesExact 3 t = owns (c : Thread nD τ) (ms3 t) fullShare ((dats m 0 c).after 3 t) from by
        unfold Dat.leavesExact; rw [live3 t hL], after3]
      rw [scAt_last m c t h0 h3, outAt_last m c t h0 h3]
      unfold lastSc lastOut; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((rL m c t hF hL _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_last m c t hF hL _)
          · unfold owns; iexists _; isplitr
            swap; · iexact HS1
            ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_last m c t hF hL _)
      unfold owns; iexists _; isplitr
      swap; · iexact H3
      ipureintro; exact View.read_writes_of_cover _ _ _ _ _ (cover3_last m c t hF hL _)
    · have hL : ¬condLast (grid0.coords t) := fun h => h3 ((condLast_iff t).mp h)
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [Dat.leavesExact_idle (dats m 0 c) 2 t (idle2 t hL) (noFlush2 t hL)]
      rw [Dat.leavesExact_idle (dats m 0 c) 3 t (idle3 t hL) (noFlush3 t hL)]
      rw [scAt_mid m c t h0 h3]
      unfold midSc; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((rM m c t hF hL _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_mid m c t hF hL _)
          · unfold owns; iexists _; isplitr
            swap; · iexact HS1
            ipureintro; rfl
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates without a fault; at the end each array of the pipeline is
    what the proof data says, and the host lines after the region have run on them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim of the program, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealShared.lean ====
/-
  The grid is 4 × 4, point t = 4·i + j (i the tile of query rows, j the tile of target rows). The body keeps two
  running minima in scratch: per query row over the target rows seen so far, and per target row over the query rows of
  tile i. Both are reset to +∞ where j = 0 and written out (after a square root) where j = 3. This module decides
  the two branch conditions over the grid, records where the two output windows are idle, and opens the region's
  invariant on the two scratch buffers.
-/
import proofs.«151873_j40888088658143_2_alg».proof.Proof.Gen.KernelIdeal.Frame
import proofs.«151873_j40888088658143_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- The reset branch's condition: the inner coordinate j is 0. -/
abbrev condFirst (i : grid0.Coords) : Prop :=
  (Scalar.cmpi .ne (Scalar.extui (Scalar.cmpi .eq (BitVec.ofNat 32 (i 1).val) 0#32)) 0#32) = 1#1
/-- It holds exactly at the points t ≡ 0 (mod 4). -/
theorem condFirst_iff : ∀ t : Fin cfg0.N, condFirst (grid0.coords t) ↔ t.val % 4 = 0 :=
  (by decide +kernel : ∀ t : Fin grid0.N, condFirst (grid0.coords t) ↔ t.val % 4 = 0)

/-- The write-out branch's condition: the inner coordinate j is 3. -/
abbrev condLast (i : grid0.Coords) : Prop := k0_cond2 i = 1#1
/-- It holds exactly at the points t ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from j = 3 the two outputs are idle and not written back. -/
theorem idle2 : ∀ t : Fin cfg0.N, ¬condLast (grid0.coords t) → cfg0.idle 2 (grid0.coords t) = true := by decide +kernel
theorem idle3 : ∀ t : Fin cfg0.N, ¬condLast (grid0.coords t) → cfg0.idle 3 (grid0.coords t) = true := by decide +kernel
theorem noFlush2 : ∀ t : Fin cfg0.N, ¬condLast (grid0.coords t) → (cfg0.win 2).flush t = false := by decide +kernel
theorem noFlush3 : ∀ t : Fin cfg0.N, ¬condLast (grid0.coords t) → (cfg0.win 3).flush t = false := by decide +kernel
/-- At j = 3 they are live. -/
theorem live2 : ∀ t : Fin cfg0.N, condLast (grid0.coords t) → cfg0.idle 2 (grid0.coords t) = false := by decide +kernel
theorem live3 : ∀ t : Fin cfg0.N, condLast (grid0.coords t) → cfg0.idle 3 (grid0.coords t) = false := by decide +kernel

/-! ## The memrefs the body is called with -/

abbrev ms0 (t : Fin cfg0.N) : Memref sig .tc .vmem S8x1024x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x4096 .f32 := win0_3.stage (cfg0.slots t 3)
abbrev hs3 (t : Fin cfg0.N) : (ms3 t).IsWhole := hstage0_3 ((cfg0.slots t 3).cast nbuf0_3)
/-- The two scratch buffers: the running minimum per query row, and per target row. -/
abbrev scX : Memref sig .tc .vmem S8x1024 .f32 := Memref.whole cc0_scratch0
abbrev scT : Memref sig .tc .vmem S8x4096 .f32 := Memref.whole cc0_scratch1

/-- The region's invariant, with the two scratch buffers as whole memrefs owned at some contents. -/
theorem PhiA_eq (c : Dev nD) :
    (Pipeline.ΦA spec0 c : sProp 𝕄)
      = iprop(iprop((∃ d, owns (c : Thread nD τ) scX fullShare d) ∗ (∃ d, owns (c : Thread nD τ) scT fullShare d)) ∗ (∃ r, prngReg c r)) := by
  unfold Pipeline.ΦA; rw [scopedRest0_eq]; simp only [scX, scT, owns_whole]; try rfl

end Cert.KernelIdeal.Hand

end
-- ==== Proof.IdealRunFirst.lean ====
/-
  The body at a point with j = 0. It first overwrites both scratch buffers with +∞ (what they held before is read
  once and discarded), then does the eight blocks' work as at every point. Nothing is written out.
-/
import proofs.«151873_j40888088658143_2_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where only the reset branch is taken: whatever the scratch buffers held, each ends with the listed
    stores written; inputs and (idle) outputs are handed back as they were. -/
noncomputable def runFirst (c : Dev nD) (i : grid0.Coords) (arg2 : Memref sig .tc .vmem S8x1024x2 .f32) (harg2 : arg2.IsWhole) (arg3 : Memref sig .tc .vmem S8x1024x2 .f32) (harg3 : arg3.IsWhole) (arg4 : Memref sig .tc .vmem S8x1024 .f32) (harg4 : arg4.IsWhole) (arg5 : Memref sig .tc .vmem S1x8x4096 .f32) (harg5 : arg5.IsWhole) (arg6 : Memref sig .tc .vmem S8x1024 .f32) (harg6 : arg6.IsWhole) (arg7 : Memref sig .tc .vmem S8x4096 .f32) (harg7 : arg7.IsWhole) (hc0 : condFirst i) (hc1 : ¬condLast i)
    (x0 x1 : Vec F S8x1024x2 .f32) :
    Σ' (LS0 : List (View.Piece (Elt F) S8x1024 .f32)), { LS1 : List (View.Piece (Elt F) S8x4096 .f32) //
      ∀ (xi2 : Vec F S8x1024 .f32) (xi3 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ arg7.view.loc (c : Thread nD τ) ↦[arg7.view.set]{fullShare} arg7.view.writes (Elt F) arg7.view.junk LS1) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi2 xi3 E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.KernelIdeal.Hand

end
-- ==== Proof.IdealRunMid.lean ====
/-
  The body at a point with 0 < j < 3: no reset, no write-out. Eight times over (once per block of 128 target rows)
  it forms the squared distances of the tile's query rows to the block's target rows, lowers the per-query-row
  running minimum by the block's row minima, and lowers the block's slice of the per-target-row running minimum by
  the block's column minima. What the two scratch buffers end with is found as the list of the body's stores.
-/
import proofs.«151873_j40888088658143_2_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where neither branch is taken: the two inputs and the two (idle) outputs are handed back as they
    were, and each scratch buffer ends with the listed stores written over what it held. -/
noncomputable def runMid (c : Dev nD) (i : grid0.Coords) (arg2 : Memref sig .tc .vmem S8x1024x2 .f32) (harg2 : arg2.IsWhole) (arg3 : Memref sig .tc .vmem S8x1024x2 .f32) (harg3 : arg3.IsWhole) (arg4 : Memref sig .tc .vmem S8x1024 .f32) (harg4 : arg4.IsWhole) (arg5 : Memref sig .tc .vmem S1x8x4096 .f32) (harg5 : arg5.IsWhole) (arg6 : Memref sig .tc .vmem S8x1024 .f32) (harg6 : arg6.IsWhole) (arg7 : Memref sig .tc .vmem S8x4096 .f32) (harg7 : arg7.IsWhole) (hc0 : ¬condFirst i) (hc1 : ¬condLast i)
    (x0 x1 : Vec F S8x1024x2 .f32) (xs0 : Vec F S8x1024 .f32) (xs1 : Vec F S8x4096 .f32) :
    Σ' (LS0 : List (View.Piece (Elt F) S8x1024 .f32)), { LS1 : List (View.Piece (Elt F) S8x4096 .f32) //
      ∀ (xi2 : Vec F S8x1024 .f32) (xi3 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ arg7.view.loc (c : Thread nD τ) ↦[arg7.view.set]{fullShare} arg7.view.writes (Elt F) (harg7.unread xs1) LS1) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi2 xi3 E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.KernelIdeal.Hand

end
-- ==== Proof.IdealRunLast.lean ====
/-
  The body at a point with j = 3. After the eight blocks' work the two running minima are complete for this tile of
  query rows; their square roots are stored, whole, into the two output blocks.
-/
import proofs.«151873_j40888088658143_2_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where only the write-out branch is taken: each scratch buffer ends with the listed stores written
    over what it held, and each output block, whatever it held, with its listed stores written. -/
noncomputable def runLast (c : Dev nD) (i : grid0.Coords) (arg2 : Memref sig .tc .vmem S8x1024x2 .f32) (harg2 : arg2.IsWhole) (arg3 : Memref sig .tc .vmem S8x1024x2 .f32) (harg3 : arg3.IsWhole) (arg4 : Memref sig .tc .vmem S8x1024 .f32) (harg4 : arg4.IsWhole) (arg5 : Memref sig .tc .vmem S1x8x4096 .f32) (harg5 : arg5.IsWhole) (arg6 : Memref sig .tc .vmem S8x1024 .f32) (harg6 : arg6.IsWhole) (arg7 : Memref sig .tc .vmem S8x4096 .f32) (harg7 : arg7.IsWhole) (hc0 : ¬condFirst i) (hc1 : condLast i)
    (x0 x1 : Vec F S8x1024x2 .f32) (xs0 : Vec F S8x1024 .f32) (xs1 : Vec F S8x4096 .f32) :
    Σ' (L2 : List (View.Piece (Elt F) S8x1024 .f32)) (L3 : List (View.Piece (Elt F) S1x8x4096 .f32)) (LS0 : List (View.Piece (Elt F) S8x1024 .f32)), { LS1 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ arg7.view.loc (c : Thread nD τ) ↦[arg7.view.set]{fullShare} arg7.view.writes (Elt F) (harg7.unread xs1) LS1) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, ?_, fun E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexact HS1

end Cert.KernelIdeal.Hand

end
-- ==== Proof.IdealFrame.lean ====
/-
  The frame of the idealized kernel's program. After the point t the two scratch buffers hold what the body's stores
  left: after a point with j = 0 the stores alone determine both (the reset covers them); after a later point the
  per-query-row buffer is again covered whole, while the per-target-row buffer keeps, outside the 1024 columns the
  point's eight blocks rewrite, what the point before left. The state after each point is therefore defined by
  recursion on the point, the region's invariant carries it from one point to the next, and the two output blocks
  are named where j = 3, the only points where they are stored and written back.
-/
import proofs.«151873_j40888088658143_2_alg».proof.Proof.IdealRunFirst
import proofs.«151873_j40888088658143_2_alg».proof.Proof.IdealRunMid
import proofs.«151873_j40888088658143_2_alg».proof.Proof.IdealRunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev wX : scX.IsWhole := Memref.isWhole_whole _
abbrev wT : scT.IsWhole := Memref.isWhole_whole _

/-! ## The three runs at a grid point, on the pipeline's memrefs and the two input blocks -/

abbrev rF (c : Dev nD) (t : Fin cfg0.N) (h0 : condFirst (grid0.coords t)) (h1 : ¬condLast (grid0.coords t)) :=
  runFirst (F := F) c (grid0.coords t) (ms0 t) (hs0 t) (ms1 t) (hs1 t) (ms2 t) (hs2 t) (ms3 t) (hs3 t) scX wX scT wT h0 h1 (iblk m c 0 t) (iblk m c 1 t)
abbrev rM (c : Dev nD) (t : Fin cfg0.N) (h0 : ¬condFirst (grid0.coords t)) (h1 : ¬condLast (grid0.coords t))
    (xs : Vec F S8x1024 .f32 × Vec F S8x4096 .f32) :=
  runMid (F := F) c (grid0.coords t) (ms0 t) (hs0 t) (ms1 t) (hs1 t) (ms2 t) (hs2 t) (ms3 t) (hs3 t) scX wX scT wT h0 h1 (iblk m c 0 t) (iblk m c 1 t) xs.1 xs.2
abbrev rL (c : Dev nD) (t : Fin cfg0.N) (h0 : ¬condFirst (grid0.coords t)) (h1 : condLast (grid0.coords t))
    (xs : Vec F S8x1024 .f32 × Vec F S8x4096 .f32) :=
  runLast (F := F) c (grid0.coords t) (ms0 t) (hs0 t) (ms1 t) (hs1 t) (ms2 t) (hs2 t) (ms3 t) (hs3 t) scX wX scT wT h0 h1 (iblk m c 0 t) (iblk m c 1 t) xs.1 xs.2

/-! ## Covers: which store lists determine a buffer whatever it held -/

theorem coverX_first (c : Dev nD) (t : Fin cfg0.N) (h0 : condFirst (grid0.coords t)) (h1 : ¬condLast (grid0.coords t)) (y : S8x1024.Idx) : ∃ pc ∈ (rF m c t h0 h1).1, y ∈ pc.1.set :=
  View.cover_of_tiledL (rF m c t h0 h1).1 S8x1024.size (by sl_kernel_rfl) y
theorem coverX_mid (c : Dev nD) (t : Fin cfg0.N) (h0 : ¬condFirst (grid0.coords t)) (h1 : ¬condLast (grid0.coords t)) (xs : Vec F S8x1024 .f32 × Vec F S8x4096 .f32) (y : S8x1024.Idx) : ∃ pc ∈ (rM m c t h0 h1 xs).1, y ∈ pc.1.set :=
  View.cover_of_tiledL (rM m c t h0 h1 xs).1 S8x1024.size (by sl_kernel_rfl) y
theorem coverX_last (c : Dev nD) (t : Fin cfg0.N) (h0 : ¬condFirst (grid0.coords t)) (h1 : condLast (grid0.coords t)) (xs : Vec F S8x1024 .f32 × Vec F S8x4096 .f32) (y : S8x1024.Idx) : ∃ pc ∈ (rL m c t h0 h1 xs).2.2.1, y ∈ pc.1.set :=
  View.cover_of_tiledL (rL m c t h0 h1 xs).2.2.1 S8x1024.size (by sl_kernel_rfl) y
theorem cover2_last (c : Dev nD) (t : Fin cfg0.N) (h0 : ¬condFirst (grid0.coords t)) (h1 : condLast (grid0.coords t)) (xs : Vec F S8x1024 .f32 × Vec F S8x4096 .f32) (y : S8x1024.Idx) : ∃ pc ∈ (rL m c t h0 h1 xs).1, y ∈ pc.1.set :=
  View.cover_of_tiledL (rL m c t h0 h1 xs).1 S8x1024.size (by sl_kernel_rfl) y
theorem cover3_last (c : Dev nD) (t : Fin cfg0.N) (h0 : ¬condFirst (grid0.coords t)) (h1 : condLast (grid0.coords t)) (xs : Vec F S8x1024 .f32 × Vec F S8x4096 .f32) (y : S1x8x4096.Idx) : ∃ pc ∈ (rL m c t h0 h1 xs).2.1, y ∈ pc.1.set :=
  View.cover_of_tiledL (rL m c t h0 h1 xs).2.1 S1x8x4096.size (by sl_kernel_rfl) y
/-! ## What the scratch buffers and the output blocks hold after a point of each kind -/

def firstSc (c : Dev nD) (t : Fin cfg0.N) (h0 : condFirst (grid0.coords t)) (h1 : ¬condLast (grid0.coords t)) : Vec F S8x1024 .f32 × Vec F S8x4096 .f32 :=
  (scX.view.read (Elt F) (scX.view.writes (Elt F) scX.view.junk (rF m c t h0 h1).1),
   scT.view.read (Elt F) (scT.view.writes (Elt F) scT.view.junk (rF m c t h0 h1).2.1))
def midSc (c : Dev nD) (t : Fin cfg0.N) (h0 : ¬condFirst (grid0.coords t)) (h1 : ¬condLast (grid0.coords t)) (xs : Vec F S8x1024 .f32 × Vec F S8x4096 .f32) : Vec F S8x1024 .f32 × Vec F S8x4096 .f32 :=
  (scX.view.read (Elt F) (scX.view.writes (Elt F) scX.view.junk (rM m c t h0 h1 xs).1),
   scT.view.read (Elt F) (scT.view.writes (Elt F) (wT.unread xs.2) (rM m c t h0 h1 xs).2.1))
def lastSc (c : Dev nD) (t : Fin cfg0.N) (h0 : ¬condFirst (grid0.coords t)) (h1 : condLast (grid0.coords t)) (xs : Vec F S8x1024 .f32 × Vec F S8x4096 .f32) : Vec F S8x1024 .f32 × Vec F S8x4096 .f32 :=
  (scX.view.read (Elt F) (scX.view.writes (Elt F) scX.view.junk (rL m c t h0 h1 xs).2.2.1),
   scT.view.read (Elt F) (scT.view.writes (Elt F) (wT.unread xs.2) (rL m c t h0 h1 xs).2.2.2.1))
def lastOut (c : Dev nD) (t : Fin cfg0.N) (h0 : ¬condFirst (grid0.coords t)) (h1 : condLast (grid0.coords t)) (xs : Vec F S8x1024 .f32 × Vec F S8x4096 .f32) : Vec F S8x1024 .f32 × Vec F S1x8x4096 .f32 :=
  (scX.view.read (Elt F) (scX.view.writes (Elt F) scX.view.junk (rL m c t h0 h1 xs).1),
   (ms3 t).view.read (Elt F) ((ms3 t).view.writes (Elt F) (ms3 t).view.junk (rL m c t h0 h1 xs).2.1))

/-! ## The scratch buffers after each point, by recursion on the point -/

def scAt (c : Dev nD) : (n : ℕ) → n < cfg0.N → Vec F S8x1024 .f32 × Vec F S8x4096 .f32
  | 0, hn => firstSc m c ⟨0, hn⟩ ((condFirst_iff ⟨0, hn⟩).mpr (Nat.zero_mod _)) (fun h => by have := (condLast_iff ⟨0, hn⟩).mp h; dsimp only at this; omega)
  | n + 1, hn =>
    if h0 : (n + 1) % 4 = 0 then
      firstSc m c ⟨n + 1, hn⟩ ((condFirst_iff ⟨n + 1, hn⟩).mpr h0) (fun h => by have := (condLast_iff ⟨n + 1, hn⟩).mp h; dsimp only at this; omega)
    else if h3 : (n + 1) % 4 = 3 then
      lastSc m c ⟨n + 1, hn⟩ (fun h => h0 ((condFirst_iff ⟨n + 1, hn⟩).mp h)) ((condLast_iff ⟨n + 1, hn⟩).mpr h3) (scAt c n (Nat.lt_of_succ_lt hn))
    else
      midSc m c ⟨n + 1, hn⟩ (fun h => h0 ((condFirst_iff ⟨n + 1, hn⟩).mp h)) (fun h => h3 ((condLast_iff ⟨n + 1, hn⟩).mp h)) (scAt c n (Nat.lt_of_succ_lt hn))

theorem scAt_first (c : Dev nD) (t : Fin cfg0.N) (h0 : t.val % 4 = 0) :
    scAt m c t.val t.isLt = firstSc m c t ((condFirst_iff t).mpr h0) (fun h => by have := (condLast_iff t).mp h; omega) := by
  obtain ⟨n, hn⟩ := t
  cases n with
  | zero => rfl
  | succ n => exact dif_pos h0
theorem scAt_last (c : Dev nD) (t : Fin cfg0.N) (h0 : ¬t.val % 4 = 0) (h3 : t.val % 4 = 3) :
    scAt m c t.val t.isLt = lastSc m c t (fun h => h0 ((condFirst_iff t).mp h)) ((condLast_iff t).mpr h3)
      (scAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h3)
theorem scAt_mid (c : Dev nD) (t : Fin cfg0.N) (h0 : ¬t.val % 4 = 0) (h3 : ¬t.val % 4 = 3) :
    scAt m c t.val t.isLt = midSc m c t (fun h => h0 ((condFirst_iff t).mp h)) (fun h => h3 ((condLast_iff t).mp h))
      (scAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h3)

/-- The two output blocks after the point t: named where j = 3; elsewhere the windows are idle and nothing consults this. -/
def outAt (c : Dev nD) (t : Fin cfg0.N) : Vec F S8x1024 .f32 × Vec F S1x8x4096 .f32 :=
  if h3 : t.val % 4 = 3 then
    lastOut m c t (fun h => by have := (condFirst_iff t).mp h; omega) ((condLast_iff t).mpr h3)
      (scAt m c (t.val - 1) (Nat.lt_of_le_of_lt (Nat.sub_le _ _) t.isLt))
  else (scX.view.read (Elt F) scX.view.junk, (ms3 t).view.read (Elt F) (ms3 t).view.junk)

theorem outAt_last (c : Dev nD) (t : Fin cfg0.N) (h0 : ¬t.val % 4 = 0) (h3 : t.val % 4 = 3) :
    outAt m c t = lastOut m c t (fun h => h0 ((condFirst_iff t).mp h)) ((condLast_iff t).mpr h3)
      (scAt m c (t.val - 1) (Nat.lt_of_le_of_lt (Nat.sub_le _ _) t.isLt)) := dif_pos h3

/-! ## The region's invariant, point by point -/

def PhiS (c : Dev nD) : (n : ℕ) → n ≤ cfg0.N → sProp 𝕄
  | 0, _ => Pipeline.ΦA spec0 c
  | n + 1, hn => iprop(iprop(owns (c : Thread nD τ) scX fullShare (scAt m c n hn).1 ∗ owns (c : Thread nD τ) scT fullShare (scAt m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scX fullShare (scAt m c n hn).1 ∗ owns (c : Thread nD τ) scT fullShare (scAt m c n hn).2) ∗ (∃ r, prngReg c r)) := rfl
theorem PhiS_pos (c : Dev nD) (n : ℕ) (h : n ≤ cfg0.N) (hz : n ≠ 0) :
    PhiS m c n h = iprop(iprop(owns (c : Thread nD τ) scX fullShare (scAt m c (n - 1) (by omega)).1 ∗ owns (c : Thread nD τ) scT fullShare (scAt m c (n - 1) (by omega)).2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outAt m c t).1
    | ⟨3, _⟩ => (outAt m c t).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outAt m c t).1 := by dsimp only [dats]
theorem after3 (c : Dev nD) (t : Fin cfg0.N) : (dats m 0 c).after 3 t = (outAt m c t).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option maxHeartbeats 4800000 in
/-- The body at any point: the inputs' buffers hold their blocks; the residue of the point modulo 4 says which of the
    three runs applies; the invariant hands over the two scratch buffers at what the point before left (at anything
    before the very first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · have hF : condFirst (grid0.coords t) := (condFirst_iff t).mpr h0
    have hL : ¬condLast (grid0.coords t) := fun h => by have := (condLast_iff t).mp h; omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [Dat.leavesExact_idle (dats m 0 c) 2 t (idle2 t hL) (noFlush2 t hL)]
    rw [Dat.leavesExact_idle (dats m 0 c) 3 t (idle3 t hL) (noFlush3 t hL)]
    rw [scAt_first m c t h0]
    unfold firstSc; dsimp only
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩⟩
      iapply ((rF m c t hF hL).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_first m c t hF hL)
          · unfold owns; iexists _; isplitr
            swap; · iexact HS1
            ipureintro; rfl
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((rF m c t hF hL).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_first m c t hF hL)
          · unfold owns; iexists _; isplitr
            swap; · iexact HS1
            ipureintro; rfl
        iexact Hg
      isplitl [Ho]; · iexact Ho
      isplitl [H0]; · iexact H0
      isplitl [H1]; · iexact H1
      isplitl [H2]; · iexists _; iexact H2
      iexists _; iexact H3
  · have hF : ¬condFirst (grid0.coords t) := fun h => h0 ((condFirst_iff t).mp h)
    have hz : t.val ≠ 0 := fun h => h0 (by rw [h])
    by_cases h3 : t.val % 4 = 3
    · have hL : condLast (grid0.coords t) := (condLast_iff t).mpr h3
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t hL], after2]
      rw [show (dats m 0 c).leavesExact 3 t = owns (c : Thread nD τ) (ms3 t) fullShare ((dats m 0 c).after 3 t) from by
        unfold Dat.leavesExact; rw [live3 t hL], after3]
      rw [scAt_last m c t h0 h3, outAt_last m c t h0 h3]
      unfold lastSc lastOut; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((rL m c t hF hL _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_last m c t hF hL _)
          · unfold owns; iexists _; isplitr
            swap; · iexact HS1
            ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_last m c t hF hL _)
      unfold owns; iexists _; isplitr
      swap; · iexact H3
      ipureintro; exact View.read_writes_of_cover _ _ _ _ _ (cover3_last m c t hF hL _)
    · have hL : ¬condLast (grid0.coords t) := fun h => h3 ((condLast_iff t).mp h)
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [Dat.leavesExact_idle (dats m 0 c) 2 t (idle2 t hL) (noFlush2 t hL)]
      rw [Dat.leavesExact_idle (dats m 0 c) 3 t (idle3 t hL) (noFlush3 t hL)]
      rw [scAt_mid m c t h0 h3]
      unfold midSc; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((rM m c t hF hL _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (coverX_mid m c t hF hL _)
          · unfold owns; iexists _; isplitr
            swap; · iexact HS1
            ipureintro; rfl
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates without a fault; at the end each array of the pipeline is
    what the proof data says, and the host lines after the region have run on them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim of the program, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.TileIndex.lean ====
/-
  The body's layout operations and its two minimum reductions, read at coordinates, over the extended reals.
  A tile of squared distances has shape 8 × 1024 × 128: batch b, query row r of the tile, target row l of the block.
  The query coordinates come in as an 8 × 1024 × 1 column broadcast along l; the block's target coordinates as an
  8 × 128 × 1 column re-laid as 8 × 1 × 128 and broadcast along r. A minimum over l (resp. over r) from +∞ is the
  infimum over that axis.
-/
import Idealize.ShloMosaic.Lib.ValueIdx
import Idealize.ShloMosaic.Lib.Pipeline.Value
import Idealize.ShloMosaic.PureOps.Ideal.Laws
import Idealize.ShloMosaic.Lib.WritesUnit
import Idealize.ShloMosaic.Lib.Pipeline.FrameBody

noncomputable section

namespace Cert.TileIndex

open Idealize.ShloMosaic Idealize.ShloMosaic.ValueIdx

abbrev Sbrl : Shape := ⟨3, ![8, 1024, 128]⟩
abbrev Sbr1 : Shape := ⟨3, ![8, 1024, 1]⟩
abbrev Sb1l : Shape := ⟨3, ![8, 1, 128]⟩
abbrev Sbl1 : Shape := ⟨3, ![8, 128, 1]⟩
abbrev Sbl : Shape := ⟨2, ![8, 128]⟩
abbrev Sbr : Shape := ⟨2, ![8, 1024]⟩
abbrev Sbr2 : Shape := ⟨3, ![8, 1024, 2]⟩

variable {α : Type}

/-- A column over the query rows, broadcast along the block's target rows. -/
theorem bcast_query (v : Sbr1.Idx → α) (h : Sbr1.Broadcasts Sbrl) (b : Fin 8) (r : Fin 1024) (l : Fin 128) :
    broadcastTo Sbrl v h (ix3 b r l) = v (ix3 b r 0) :=
  broadcastTo_apply v h _ _ (fun a => match a with | ⟨0, _⟩ => rfl | ⟨1, _⟩ => rfl | ⟨2, _⟩ => rfl)

/-- A row over the block's target rows, broadcast along the query rows. -/
theorem bcast_target (w : Sb1l.Idx → α) (h : Sb1l.Broadcasts Sbrl) (b : Fin 8) (r : Fin 1024) (l : Fin 128) :
    broadcastTo Sbrl w h (ix3 b r l) = w (ix3 b 0 l) :=
  broadcastTo_apply w h _ _ (fun a => match a with | ⟨0, _⟩ => rfl | ⟨1, _⟩ => rfl | ⟨2, _⟩ => rfl)

/-- The block's column of one target coordinate, re-laid as a row. -/
theorem relay_target (u : Sbl1.Idx → α) (h1 : Sbl1.ShapeCasts Sbl) (h2 : Sbl.ShapeCasts Sb1l) (b : Fin 8) (l : Fin 128) :
    shapeCast Sb1l (shapeCast Sbl u h1) h2 (ix3 b 0 l) = u (ix3 b l 0) := by
  rw [shapeCast_apply _ h2 (ix3 b 0 l) (ix2 b l) (by rw [Shape.rowMajor_val_two, Shape.rowMajor_val_three]; simp),
    shapeCast_apply u h1 (ix2 b l) (ix3 b l 0) (by rw [Shape.rowMajor_val_two, Shape.rowMajor_val_three]; simp)]

/-- Coordinate k of the block's 128 target rows starting at row o of the tile's 1024. -/
theorem slice_target (o : Nat) (k : Fin 2) (v : Sbr2.Idx → α) (h : Sbr2.Slices ![0, o, k.val] Sbl1) (b : Fin 8) (l : Fin 128)
    (ho : o + l.val < 1024) :
    extractStridedSlice Sbl1 ![0, o, k.val] v h (ix3 b l 0) = v (ix3 b ⟨o + l.val, ho⟩ k) :=
  extractStridedSlice_apply _ v h _ _ (fun a => match a with
    | ⟨0, _⟩ => by show b.val = 0 + b.val; omega
    | ⟨1, _⟩ => by show o + l.val = o + l.val; rfl
    | ⟨2, _⟩ => by show k.val = k.val + 0; omega)

/-- Coordinate k of the tile's query rows. -/
theorem slice_query (k : Fin 2) (v : Sbr2.Idx → α) (h : Sbr2.Slices ![0, 0, k.val] Sbr1) (b : Fin 8) (r : Fin 1024) :
    extractStridedSlice Sbr1 ![0, 0, k.val] v h (ix3 b r 0) = v (ix3 b r k) :=
  extractStridedSlice_apply _ v h _ _ (fun a => match a with
    | ⟨0, _⟩ => by show b.val = 0 + b.val; omega
    | ⟨1, _⟩ => by show r.val = 0 + r.val; omega
    | ⟨2, _⟩ => by show k.val = k.val + 0; omega)

theorem top_f32 : Ideal.ofBits .f32 0x7F800000#32 = (⊤ : EReal) := by simp [Ideal.ofBits, Ideal.ieee]

/-- The minimum over the block's target rows, from +∞. -/
theorem min_over_targets (src : FVec Ideal Sbrl .f32) (h : Sbrl.Reduces [2] Sbr) (hφ : FKind.Formats .f32)
    (hacc : (0x7F800000#32 : BitVec 32) = 0x7F800000#32) (b : Fin 8) (r : Fin 1024) :
    multiReduction .minimumf [2] Sbr src 0x7F800000#32 h hφ hacc (ix2 b r)
      = (Finset.univ : Finset (Fin 128)).inf fun l => src (ix3 b r l) := by
  refine (multiReduction_minimumf_eq_fold src 0x7F800000#32 h hφ hacc (ix2 b r)).trans ?_
  rw [h.fold_filter_drop_single]
  show Finset.fold min (Ideal.ofBits .f32 0x7F800000#32) _ _ = _
  rw [top_f32, Finset.inf_def]
  show Finset.fold min ⊤ (src ∘ h.lift (ix2 b r)) Finset.univ = Multiset.inf (Multiset.map (fun l => src (ix3 b r l)) Finset.univ.val)
  have e : (src ∘ h.lift (ix2 b r)) = fun l : Fin 128 => src (ix3 b r l) := funext fun l => congrArg src (funext fun a => Fin.ext (by
    match a with
    | ⟨0, _⟩ => rfl
    | ⟨1, _⟩ => rfl
    | ⟨2, _⟩ => rfl))
  rw [e]; rfl

/-- The minimum over the tile's query rows, from +∞. -/
theorem min_over_queries (src : FVec Ideal Sbrl .f32) (h : Sbrl.Reduces [1] Sbl) (hφ : FKind.Formats .f32)
    (hacc : (0x7F800000#32 : BitVec 32) = 0x7F800000#32) (b : Fin 8) (l : Fin 128) :
    multiReduction .minimumf [1] Sbl src 0x7F800000#32 h hφ hacc (ix2 b l)
      = (Finset.univ : Finset (Fin 1024)).inf fun r => src (ix3 b r l) := by
  refine (multiReduction_minimumf_eq_fold src 0x7F800000#32 h hφ hacc (ix2 b l)).trans ?_
  rw [h.fold_filter_drop_single]
  show Finset.fold min (Ideal.ofBits .f32 0x7F800000#32) _ _ = _
  rw [top_f32, Finset.inf_def]
  have e : (src ∘ h.lift (ix2 b l)) = fun r : Fin 1024 => src (ix3 b r l) := funext fun r => congrArg src (funext fun a => Fin.ext (by
    match a with
    | ⟨0, _⟩ => rfl
    | ⟨1, _⟩ => rfl
    | ⟨2, _⟩ => rfl))
  rw [e]; rfl

/-- Eight infima over consecutive blocks of 128 make the infimum over all 1024. -/
theorem inf_blocks (f : Fin 1024 → EReal) :
    (Finset.univ : Finset (Fin 1024)).inf f
      = min ((Finset.univ : Finset (Fin 128)).inf fun l => f ⟨0 + l.val, by omega⟩) (min ((Finset.univ : Finset (Fin 128)).inf fun l => f ⟨128 + l.val, by omega⟩) (min ((Finset.univ : Finset (Fin 128)).inf fun l => f ⟨256 + l.val, by omega⟩) (min ((Finset.univ : Finset (Fin 128)).inf fun l => f ⟨384 + l.val, by omega⟩) (min ((Finset.univ : Finset (Fin 128)).inf fun l => f ⟨512 + l.val, by omega⟩) (min ((Finset.univ : Finset (Fin 128)).inf fun l => f ⟨640 + l.val, by omega⟩) (min ((Finset.univ : Finset (Fin 128)).inf fun l => f ⟨768 + l.val, by omega⟩) (((Finset.univ : Finset (Fin 128)).inf fun l => f ⟨896 + l.val, by omega⟩)))))))) := by
  have hB : ∀ (o : Nat) (ho : o ≤ 896), (Finset.univ : Finset (Fin 1024)).inf f ≤ (Finset.univ : Finset (Fin 128)).inf fun l => f ⟨o + l.val, by omega⟩ :=
    fun o ho => Finset.le_inf fun l _ => Finset.inf_le (Finset.mem_univ _)
  have hq : ∀ (o : Nat) (ho : o ≤ 896) (q : Fin 1024), o ≤ q.val → q.val < o + 128 →
      ((Finset.univ : Finset (Fin 128)).inf fun l => f ⟨o + l.val, by omega⟩) ≤ f q := fun o ho q h1 h2 =>
    (Finset.inf_le (f := fun l : Fin 128 => f ⟨o + l.val, by omega⟩) (Finset.mem_univ ⟨q.val - o, by omega⟩)).trans
      (le_of_eq (congrArg f (Fin.ext (by show o + (q.val - o) = q.val; omega))))
  apply le_antisymm
  · simp only [le_min_iff]
    exact ⟨hB 0 (by omega), hB 128 (by omega), hB 256 (by omega), hB 384 (by omega), hB 512 (by omega), hB 640 (by omega), hB 768 (by omega), hB 896 (by omega)⟩
  · refine Finset.le_inf fun q _ => ?_
    by_cases c0 : q.val < 128
    · exact (min_le_left _ _).trans (hq 0 (by omega) q (by omega) (by omega))
    by_cases c1 : q.val < 256
    · exact (min_le_right _ _).trans ((min_le_left _ _).trans (hq 128 (by omega) q (by omega) (by omega)))
    by_cases c2 : q.val < 384
    · exact (min_le_right _ _).trans ((min_le_right _ _).trans ((min_le_left _ _).trans (hq 256 (by omega) q (by omega) (by omega))))
    by_cases c3 : q.val < 512
    · exact (min_le_right _ _).trans ((min_le_right _ _).trans ((min_le_right _ _).trans ((min_le_left _ _).trans (hq 384 (by omega) q (by omega) (by omega)))))
    by_cases c4 : q.val < 640
    · exact (min_le_right _ _).trans ((min_le_right _ _).trans ((min_le_right _ _).trans ((min_le_right _ _).trans ((min_le_left _ _).trans (hq 512 (by omega) q (by omega) (by omega))))))
    by_cases c5 : q.val < 768
    · exact (min_le_right _ _).trans ((min_le_right _ _).trans ((min_le_right _ _).trans ((min_le_right _ _).trans ((min_le_right _ _).trans ((min_le_left _ _).trans (hq 640 (by omega) q (by omega) (by omega)))))))
    by_cases c6 : q.val < 896
    · exact (min_le_right _ _).trans ((min_le_right _ _).trans ((min_le_right _ _).trans ((min_le_right _ _).trans ((min_le_right _ _).trans ((min_le_right _ _).trans ((min_le_left _ _).trans (hq 768 (by omega) q (by omega) (by omega))))))))
    exact (min_le_right _ _).trans ((min_le_right _ _).trans ((min_le_right _ _).trans ((min_le_right _ _).trans ((min_le_right _ _).trans ((min_le_right _ _).trans ((min_le_right _ _).trans ((hq 896 (by omega) q (by omega) (by omega)))))))))

/-- So eight successive lowerings of a value by the blocks' infima lower it by the infimum over all 1024. -/
theorem min_blocks (f : Fin 1024 → EReal) (v : EReal) :
    min (min (min (min (min (min (min (min (v) ((Finset.univ : Finset (Fin 128)).inf fun l => f ⟨0 + l.val, by omega⟩)) ((Finset.univ : Finset (Fin 128)).inf fun l => f ⟨128 + l.val, by omega⟩)) ((Finset.univ : Finset (Fin 128)).inf fun l => f ⟨256 + l.val, by omega⟩)) ((Finset.univ : Finset (Fin 128)).inf fun l => f ⟨384 + l.val, by omega⟩)) ((Finset.univ : Finset (Fin 128)).inf fun l => f ⟨512 + l.val, by omega⟩)) ((Finset.univ : Finset (Fin 128)).inf fun l => f ⟨640 + l.val, by omega⟩)) ((Finset.univ : Finset (Fin 128)).inf fun l => f ⟨768 + l.val, by omega⟩)) ((Finset.univ : Finset (Fin 128)).inf fun l => f ⟨896 + l.val, by omega⟩) = min v ((Finset.univ : Finset (Fin 1024)).inf f) := by
  rw [inf_blocks f]; simp only [min_assoc]

/-! ## A block of 128 columns of the 8 × 4096 buffer, at column offset o -/

abbrev Sbc : Shape := ⟨2, ![8, 4096]⟩

section Columns
variable {sig : RefSig} {κ : Kind} {sp : Space} {e : EltTy} {Val : EltTy → Type}
variable (v : View sig κ sp Sbc e) (f : v.ty.Contents Val)

/-- A column outside the newest store's 128 columns reads what the earlier stores left. -/
theorem read_cols_skip (o : Nat) (off : Fin 2 → Nat) (inb : ∀ a, off a + Sbl.size a ≤ Sbc.size a)
    (w : (Rect.unit (s := Sbc) off Sbl.size inb).shape.Idx → Val e) (L : List (View.Piece Val Sbc e)) (b : Fin 8) (col : Fin 4096)
    (heq : off = ![0, o]) (h : col.val < o ∨ o + 128 ≤ col.val) :
    v.read Val (v.writes Val f ((⟨Rect.unit (s := Sbc) off Sbl.size inb, w⟩ : View.Piece Val Sbc e) :: L)) (ix2 b col)
      = v.read Val (v.writes Val f L) (ix2 b col) :=
  View.read_writes_cons_unit_of_not_mem v f inb w L _ heq 1 h

/-- A column inside them reads the store's payload at the column's place in the block. -/
theorem read_cols_hit (o : Nat) (off : Fin 2 → Nat) (inb : ∀ a, off a + Sbl.size a ≤ Sbc.size a)
    (w : (Rect.unit (s := Sbc) off Sbl.size inb).shape.Idx → Val e) (L : List (View.Piece Val Sbc e)) (b : Fin 8) (col : Fin 4096) (l : Fin 128)
    (heq : off = ![0, o]) (hc : col.val = o + l.val) :
    v.read Val (v.writes Val f ((⟨Rect.unit (s := Sbc) off Sbl.size inb, w⟩ : View.Piece Val Sbc e) :: L)) (ix2 b col)
      = w (ix2 b l) :=
  View.read_writes_cons_unit_of_mem v f inb w L _ (ix2 b l) heq (fun a => match a with
    | ⟨0, _⟩ => by show b.val = 0 + b.val; omega
    | ⟨1, _⟩ => hc)

/-- A load of those 128 columns reads the buffer's contents at them. -/
theorem ld_cols {α : Type} (X : Sbc.Idx → α) (o : Nat) (off : Fin 2 → Nat) (inb : ∀ a, off a + Sbl.size a ≤ Sbc.size a)
    (b : Fin 8) (col : Fin 4096) (l : Fin 128) (heq : off = ![0, o]) (hc : col.val = o + l.val) :
    X ((Rect.unit (s := Sbc) off Sbl.size inb).idx (ix2 b l)) = X (ix2 b col) := by
  subst heq
  refine congrArg X (funext fun a => Fin.ext ?_)
  match a with
  | ⟨0, _⟩ => show 0 + 1 * b.val = b.val; omega
  | ⟨1, _⟩ => show o + 1 * l.val = col.val; omega

end Columns

/-- A store through the whole shape, newest, leaves its payload at every index. -/
theorem read_whole {sig : RefSig} {κ : Kind} {sp : Space} {e : EltTy} {Val : EltTy → Type} {S : Shape}
    (v : View sig κ sp S e) (f : v.ty.Contents Val) {off : Fin S.rank → Nat} (h : off = fun _ => 0)
    (inb : ∀ a, off a + S.size a ≤ S.size a) (w : S.Idx → Val e) (L : List (View.Piece Val S e)) (y : S.Idx) :
    v.read Val (v.writes Val f ((⟨Rect.unit off S.size inb, w⟩ : View.Piece Val S e) :: L)) y = w y := by
  subst h
  have e := View.read_writes_cons_emb v f (Rect.whole S) w L y
  rw [Rect.emb_whole_apply] at e
  exact e

/-! ## Infima over an initial segment of the 4096 target rows, and the square root -/

/-- The infimum over the first 1024·j rows, lowered by the infimum over the next 1024, is the infimum over the first 1024·(j+1). -/
theorem inf_extend (f : Fin 4096 → EReal) (j : Nat) (hj : j < 4) :
    min ((Finset.univ.filter fun mm : Fin 4096 => mm.val < 1024 * j).inf f)
        ((Finset.univ : Finset (Fin 1024)).inf fun q => f ⟨1024 * j + q.val, by omega⟩)
      = (Finset.univ.filter fun mm : Fin 4096 => mm.val < 1024 * (j + 1)).inf f := by
  apply le_antisymm
  · refine Finset.le_inf fun mm hmm => ?_
    have hlt : mm.val < 1024 * (j + 1) := (Finset.mem_filter.mp hmm).2
    by_cases h : mm.val < 1024 * j
    · exact (min_le_left _ _).trans (Finset.inf_le (Finset.mem_filter.mpr ⟨Finset.mem_univ _, h⟩))
    · refine (min_le_right _ _).trans ?_
      refine (Finset.inf_le (f := fun q : Fin 1024 => f ⟨1024 * j + q.val, by omega⟩) (Finset.mem_univ ⟨mm.val - 1024 * j, by omega⟩)).trans ?_
      exact le_of_eq (congrArg f (Fin.ext (by show 1024 * j + (mm.val - 1024 * j) = mm.val; omega)))
  · refine le_min ?_ ?_
    · refine Finset.le_inf fun mm hmm => Finset.inf_le (Finset.mem_filter.mpr ⟨Finset.mem_univ _, ?_⟩)
      have := (Finset.mem_filter.mp hmm).2; omega
    · refine Finset.le_inf fun q _ => Finset.inf_le (Finset.mem_filter.mpr ⟨Finset.mem_univ _, ?_⟩)
      show 1024 * j + q.val < 1024 * (j + 1); omega

theorem inf_none (f : Fin 4096 → EReal) : (Finset.univ.filter fun mm : Fin 4096 => mm.val < 1024 * 0).inf f = ⊤ := by
  rw [show (Finset.univ.filter fun mm : Fin 4096 => mm.val < 1024 * 0) = ∅ from Finset.filter_eq_empty_iff.mpr fun mm _ => by omega]
  exact Finset.inf_empty

theorem inf_all (f : Fin 4096 → EReal) : (Finset.univ.filter fun mm : Fin 4096 => mm.val < 1024 * (3 + 1)).inf f = Finset.univ.inf f := by
  rw [show (Finset.univ.filter fun mm : Fin 4096 => mm.val < 1024 * (3 + 1)) = Finset.univ from Finset.filter_true_of_mem fun mm _ => by omega]

theorem sqrt_mono : Monotone Ideal.sqrt := by
  intro x y hxy
  induction x using EReal.rec with
  | bot => rw [Ideal.sqrt_bot]; exact bot_le
  | top => have : y = ⊤ := top_le_iff.mp hxy; subst this; exact le_rfl
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := by intro h; exact hr (lt_of_le_of_lt hrs h)
        rw [if_neg hr, if_neg hs]; exact EReal.coe_le_coe_iff.mpr (Real.sqrt_le_sqrt hrs)

theorem sqrt_min (a b : EReal) : Ideal.sqrt (min a b) = min (Ideal.sqrt a) (Ideal.sqrt b) := sqrt_mono.map_min

theorem sqrt_inf {ι : Type} (s : Finset ι) (f : ι → EReal) : Ideal.sqrt (s.inf f) = s.inf fun i => Ideal.sqrt (f i) := by
  classical
  induction s using Finset.induction_on with
  | empty => rw [Finset.inf_empty, Finset.inf_empty]; exact Ideal.sqrt_top
  | insert a s ha ih => rw [Finset.inf_insert, Finset.inf_insert, ← ih]; exact sqrt_min _ _

end Cert.TileIndex

end
-- ==== Proof.IdealTile.lean ====
/-
  The body's arithmetic over the extended reals, block by block. For the tile's query rows (x0, an 8 × 1024 × 2 block)
  and target rows (x1, likewise) the entry (b, r, l) of the k-th block's tile is the squared distance between query row
  r and target row 128·k + l of batch b. Each block then lowers the per-query-row running minimum at (b, r) by the
  infimum over l, and the block's 128 entries of the per-target-row running minimum at (b, l) by the infimum over r.
-/
import proofs.«151873_j40888088658143_2_alg».proof.Proof.Gen.KernelIdeal.Skeleton
import proofs.«151873_j40888088658143_2_alg».proof.Proof.TileIndex

noncomputable section

namespace Cert.KernelIdeal.Tile

open Idealize.ShloMosaic Idealize.ShloMosaic.ValueIdx Cert.KernelIdeal Cert.KernelIdeal.Gen Cert.TileIndex

/-- The squared distance of the points (a0, a1) and (t0, t1), as the body computes it. -/
def dq (a0 a1 t0 t1 : EReal) : EReal := (a0 - t0) * (a0 - t0) + (a1 - t1) * (a1 - t1)

/-- Between query row r of the block x0 and target row q of the block x1, batch b. -/
def dTile (x0 x1 : Vec Ideal S8x1024x2 .f32) (b : Fin 8) (r q : Fin 1024) : EReal :=
  dq (x0 (ix3 b r 0)) (x0 (ix3 b r 1)) (x1 (ix3 b q 0)) (x1 (ix3 b q 1))

theorem slice_query0 {α : Type} (v : Sbr2.Idx → α) (h : Sbr2.Slices ![0, 0, 0] Sbr1) (b : Fin 8) (r : Fin 1024) :
    extractStridedSlice Sbr1 ![0, 0, 0] v h (ix3 b r 0) = v (ix3 b r 0) := slice_query 0 v h b r
theorem slice_query1 {α : Type} (v : Sbr2.Idx → α) (h : Sbr2.Slices ![0, 0, 1] Sbr1) (b : Fin 8) (r : Fin 1024) :
    extractStridedSlice Sbr1 ![0, 0, 1] v h (ix3 b r 0) = v (ix3 b r 1) := slice_query 1 v h b r
theorem slice_target0 {α : Type} (o : Nat) (v : Sbr2.Idx → α) (h : Sbr2.Slices ![0, o, 0] Sbl1) (b : Fin 8) (l : Fin 128) (ho : o + l.val < 1024) :
    extractStridedSlice Sbl1 ![0, o, 0] v h (ix3 b l 0) = v (ix3 b ⟨o + l.val, ho⟩ 0) := slice_target o 0 v h b l ho
theorem slice_target1 {α : Type} (o : Nat) (v : Sbr2.Idx → α) (h : Sbr2.Slices ![0, o, 1] Sbl1) (b : Fin 8) (l : Fin 128) (ho : o + l.val < 1024) :
    extractStridedSlice Sbl1 ![0, o, 1] v h (ix3 b l 0) = v (ix3 b ⟨o + l.val, ho⟩ 1) := slice_target o 1 v h b l ho

variable (x0 x1 : Vec Ideal S8x1024x2 .f32)

/-- The block of target rows 0 … 127: its tile at (b, r, l). -/
theorem tile_0 (b : Fin 8) (r : Fin 1024) (l : Fin 128) :
    (k0_pay7 (F := Ideal) x0 x1) (ix3 b r l) = dTile x0 x1 b r ⟨0 + l.val, by omega⟩ := by
  unfold k0_pay7 k0_pay5 k0_pay6 dTile dq
  simp only [addf_apply, mulf_apply, subf_apply, bcast_query, bcast_target, relay_target, slice_query0, slice_query1]
  rw [slice_target0 0 x1 _ b l (by omega), slice_target1 0 x1 _ b l (by omega)]

/-- Its update of the per-query-row minimum. -/
theorem rowmin_0 (v : Vec Ideal S8x1024 .f32) (b : Fin 8) (r : Fin 1024) :
    (k0_pay8 (F := Ideal) x0 x1 v) (ix2 b r)
      = min (v (ix2 b r)) ((Finset.univ : Finset (Fin 128)).inf fun l => dTile x0 x1 b r ⟨0 + l.val, by omega⟩) := by
  unfold k0_pay8
  simp only [shapeCast_self, minimumf_apply]
  refine congrArg (min (v (ix2 b r))) ?_
  refine (min_over_targets _ _ _ _ b r).trans ?_
  simp only [tile_0]

/-- Its update of the per-target-row minimum. -/
theorem colmin_0 (v : Vec Ideal S8x128 .f32) (b : Fin 8) (l : Fin 128) :
    (k0_pay10 (F := Ideal) (k0_pay9 x0 x1 v)) (ix2 b l)
      = min (v (ix2 b l)) ((Finset.univ : Finset (Fin 1024)).inf fun r => dTile x0 x1 b r ⟨0 + l.val, by omega⟩) := by
  unfold k0_pay10 k0_pay9
  simp only [shapeCast_self, minimumf_apply]
  refine congrArg (min (v (ix2 b l))) ?_
  refine (min_over_queries _ _ _ _ b l).trans ?_
  simp only [tile_0]

/-- The block of target rows 128 … 255: its tile at (b, r, l). -/
theorem tile_128 (b : Fin 8) (r : Fin 1024) (l : Fin 128) :
    (k0_pay11 (F := Ideal) x1 (k0_pay5 x0) (k0_pay6 x0)) (ix3 b r l) = dTile x0 x1 b r ⟨128 + l.val, by omega⟩ := by
  unfold k0_pay11 k0_pay5 k0_pay6 dTile dq
  simp only [addf_apply, mulf_apply, subf_apply, bcast_query, bcast_target, relay_target, slice_query0, slice_query1]
  rw [slice_target0 128 x1 _ b l (by omega), slice_target1 128 x1 _ b l (by omega)]

/-- Its update of the per-query-row minimum. -/
theorem rowmin_128 (v : Vec Ideal S8x1024 .f32) (b : Fin 8) (r : Fin 1024) :
    (k0_pay12 (F := Ideal) x1 (k0_pay5 x0) (k0_pay6 x0) v) (ix2 b r)
      = min (v (ix2 b r)) ((Finset.univ : Finset (Fin 128)).inf fun l => dTile x0 x1 b r ⟨128 + l.val, by omega⟩) := by
  unfold k0_pay12
  simp only [shapeCast_self, minimumf_apply]
  refine congrArg (min (v (ix2 b r))) ?_
  refine (min_over_targets _ _ _ _ b r).trans ?_
  simp only [tile_128]

/-- Its update of the per-target-row minimum. -/
theorem colmin_128 (v : Vec Ideal S8x128 .f32) (b : Fin 8) (l : Fin 128) :
    (k0_pay13 (F := Ideal) x1 (k0_pay5 x0) (k0_pay6 x0) v) (ix2 b l)
      = min (v (ix2 b l)) ((Finset.univ : Finset (Fin 1024)).inf fun r => dTile x0 x1 b r ⟨128 + l.val, by omega⟩) := by
  unfold k0_pay13
  simp only [shapeCast_self, minimumf_apply]
  refine congrArg (min (v (ix2 b l))) ?_
  refine (min_over_queries _ _ _ _ b l).trans ?_
  simp only [tile_128]

/-- The block of target rows 256 … 383: its tile at (b, r, l). -/
theorem tile_256 (b : Fin 8) (r : Fin 1024) (l : Fin 128) :
    (k0_pay14 (F := Ideal) x1 (k0_pay5 x0) (k0_pay6 x0)) (ix3 b r l) = dTile x0 x1 b r ⟨256 + l.val, by omega⟩ := by
  unfold k0_pay14 k0_pay5 k0_pay6 dTile dq
  simp only [addf_apply, mulf_apply, subf_apply, bcast_query, bcast_target, relay_target, slice_query0, slice_query1]
  rw [slice_target0 256 x1 _ b l (by omega), slice_target1 256 x1 _ b l (by omega)]

/-- Its update of the per-query-row minimum. -/
theorem rowmin_256 (v : Vec Ideal S8x1024 .f32) (b : Fin 8) (r : Fin 1024) :
    (k0_pay15 (F := Ideal) (k0_pay14 x1 (k0_pay5 x0) (k0_pay6 x0)) v) (ix2 b r)
      = min (v (ix2 b r)) ((Finset.univ : Finset (Fin 128)).inf fun l => dTile x0 x1 b r ⟨256 + l.val, by omega⟩) := by
  unfold k0_pay15
  simp only [shapeCast_self, minimumf_apply]
  refine congrArg (min (v (ix2 b r))) ?_
  refine (min_over_targets _ _ _ _ b r).trans ?_
  simp only [tile_256]

/-- Its update of the per-target-row minimum. -/
theorem colmin_256 (v : Vec Ideal S8x128 .f32) (b : Fin 8) (l : Fin 128) :
    (k0_pay16 (F := Ideal) (k0_pay14 x1 (k0_pay5 x0) (k0_pay6 x0)) v) (ix2 b l)
      = min (v (ix2 b l)) ((Finset.univ : Finset (Fin 1024)).inf fun r => dTile x0 x1 b r ⟨256 + l.val, by omega⟩) := by
  unfold k0_pay16
  simp only [shapeCast_self, minimumf_apply]
  refine congrArg (min (v (ix2 b l))) ?_
  refine (min_over_queries _ _ _ _ b l).trans ?_
  simp only [tile_256]

/-- The block of target rows 384 … 511: its tile at (b, r, l). -/
theorem tile_384 (b : Fin 8) (r : Fin 1024) (l : Fin 128) :
    (k0_pay17 (F := Ideal) x1 (k0_pay5 x0) (k0_pay6 x0)) (ix3 b r l) = dTile x0 x1 b r ⟨384 + l.val, by omega⟩ := by
  unfold k0_pay17 k0_pay5 k0_pay6 dTile dq
  simp only [addf_apply, mulf_apply, subf_apply, bcast_query, bcast_target, relay_target, slice_query0, slice_query1]
  rw [slice_target0 384 x1 _ b l (by omega), slice_target1 384 x1 _ b l (by omega)]

/-- Its update of the per-query-row minimum. -/
theorem rowmin_384 (v : Vec Ideal S8x1024 .f32) (b : Fin 8) (r : Fin 1024) :
    (k0_pay18 (F := Ideal) x1 (k0_pay5 x0) (k0_pay6 x0) v) (ix2 b r)
      = min (v (ix2 b r)) ((Finset.univ : Finset (Fin 128)).inf fun l => dTile x0 x1 b r ⟨384 + l.val, by omega⟩) := by
  unfold k0_pay18
  simp only [shapeCast_self, minimumf_apply]
  refine congrArg (min (v (ix2 b r))) ?_
  refine (min_over_targets _ _ _ _ b r).trans ?_
  simp only [tile_384]

/-- Its update of the per-target-row minimum. -/
theorem colmin_384 (v : Vec Ideal S8x128 .f32) (b : Fin 8) (l : Fin 128) :
    (k0_pay20 (F := Ideal) (k0_pay19 x1 (k0_pay5 x0) (k0_pay6 x0)) v) (ix2 b l)
      = min (v (ix2 b l)) ((Finset.univ : Finset (Fin 1024)).inf fun r => dTile x0 x1 b r ⟨384 + l.val, by omega⟩) := by
  unfold k0_pay20 k0_pay19
  simp only [shapeCast_self, minimumf_apply]
  refine congrArg (min (v (ix2 b l))) ?_
  refine (min_over_queries _ _ _ _ b l).trans ?_
  simp only [tile_384]

/-- The block of target rows 512 … 639: its tile at (b, r, l). -/
theorem tile_512 (b : Fin 8) (r : Fin 1024) (l : Fin 128) :
    (k0_pay21 (F := Ideal) x1 (k0_pay5 x0) (k0_pay6 x0)) (ix3 b r l) = dTile x0 x1 b r ⟨512 + l.val, by omega⟩ := by
  unfold k0_pay21 k0_pay5 k0_pay6 dTile dq
  simp only [addf_apply, mulf_apply, subf_apply, bcast_query, bcast_target, relay_target, slice_query0, slice_query1]
  rw [slice_target0 512 x1 _ b l (by omega), slice_target1 512 x1 _ b l (by omega)]

/-- Its update of the per-query-row minimum. -/
theorem rowmin_512 (v : Vec Ideal S8x1024 .f32) (b : Fin 8) (r : Fin 1024) :
    (k0_pay22 (F := Ideal) x1 (k0_pay5 x0) (k0_pay6 x0) v) (ix2 b r)
      = min (v (ix2 b r)) ((Finset.univ : Finset (Fin 128)).inf fun l => dTile x0 x1 b r ⟨512 + l.val, by omega⟩) := by
  unfold k0_pay22
  simp only [shapeCast_self, minimumf_apply]
  refine congrArg (min (v (ix2 b r))) ?_
  refine (min_over_targets _ _ _ _ b r).trans ?_
  simp only [tile_512]

/-- Its update of the per-target-row minimum. -/
theorem colmin_512 (v : Vec Ideal S8x128 .f32) (b : Fin 8) (l : Fin 128) :
    (k0_pay23 (F := Ideal) x1 (k0_pay5 x0) (k0_pay6 x0) v) (ix2 b l)
      = min (v (ix2 b l)) ((Finset.univ : Finset (Fin 1024)).inf fun r => dTile x0 x1 b r ⟨512 + l.val, by omega⟩) := by
  unfold k0_pay23
  simp only [shapeCast_self, minimumf_apply]
  refine congrArg (min (v (ix2 b l))) ?_
  refine (min_over_queries _ _ _ _ b l).trans ?_
  simp only [tile_512]

/-- The block of target rows 640 … 767: its tile at (b, r, l). -/
theorem tile_640 (b : Fin 8) (r : Fin 1024) (l : Fin 128) :
    (k0_pay26 (F := Ideal) (k0_pay6 x0) (k0_pay24 x1) (k0_pay25 x1 (k0_pay5 x0))) (ix3 b r l) = dTile x0 x1 b r ⟨640 + l.val, by omega⟩ := by
  unfold k0_pay26 k0_pay24 k0_pay25 k0_pay5 k0_pay6 dTile dq
  simp only [addf_apply, mulf_apply, subf_apply, bcast_query, bcast_target, relay_target, slice_query0, slice_query1]
  rw [slice_target0 640 x1 _ b l (by omega), slice_target1 640 x1 _ b l (by omega)]

/-- Its update of the per-query-row minimum. -/
theorem rowmin_640 (v : Vec Ideal S8x1024 .f32) (b : Fin 8) (r : Fin 1024) :
    (k0_pay27 (F := Ideal) (k0_pay6 x0) (k0_pay24 x1) (k0_pay25 x1 (k0_pay5 x0)) v) (ix2 b r)
      = min (v (ix2 b r)) ((Finset.univ : Finset (Fin 128)).inf fun l => dTile x0 x1 b r ⟨640 + l.val, by omega⟩) := by
  unfold k0_pay27
  simp only [shapeCast_self, minimumf_apply]
  refine congrArg (min (v (ix2 b r))) ?_
  refine (min_over_targets _ _ _ _ b r).trans ?_
  simp only [tile_640]

/-- Its update of the per-target-row minimum. -/
theorem colmin_640 (v : Vec Ideal S8x128 .f32) (b : Fin 8) (l : Fin 128) :
    (k0_pay28 (F := Ideal) (k0_pay6 x0) (k0_pay24 x1) (k0_pay25 x1 (k0_pay5 x0)) v) (ix2 b l)
      = min (v (ix2 b l)) ((Finset.univ : Finset (Fin 1024)).inf fun r => dTile x0 x1 b r ⟨640 + l.val, by omega⟩) := by
  unfold k0_pay28
  simp only [shapeCast_self, minimumf_apply]
  refine congrArg (min (v (ix2 b l))) ?_
  refine (min_over_queries _ _ _ _ b l).trans ?_
  simp only [tile_640]

/-- The block of target rows 768 … 895: its tile at (b, r, l). -/
theorem tile_768 (b : Fin 8) (r : Fin 1024) (l : Fin 128) :
    (k0_pay29 (F := Ideal) x1 (k0_pay5 x0) (k0_pay6 x0)) (ix3 b r l) = dTile x0 x1 b r ⟨768 + l.val, by omega⟩ := by
  unfold k0_pay29 k0_pay5 k0_pay6 dTile dq
  simp only [addf_apply, mulf_apply, subf_apply, bcast_query, bcast_target, relay_target, slice_query0, slice_query1]
  rw [slice_target0 768 x1 _ b l (by omega), slice_target1 768 x1 _ b l (by omega)]

/-- Its update of the per-query-row minimum. -/
theorem rowmin_768 (v : Vec Ideal S8x1024 .f32) (b : Fin 8) (r : Fin 1024) :
    (k0_pay30 (F := Ideal) x1 (k0_pay5 x0) (k0_pay6 x0) v) (ix2 b r)
      = min (v (ix2 b r)) ((Finset.univ : Finset (Fin 128)).inf fun l => dTile x0 x1 b r ⟨768 + l.val, by omega⟩) := by
  unfold k0_pay30
  simp only [shapeCast_self, minimumf_apply]
  refine congrArg (min (v (ix2 b r))) ?_
  refine (min_over_targets _ _ _ _ b r).trans ?_
  simp only [tile_768]

/-- Its update of the per-target-row minimum. -/
theorem colmin_768 (v : Vec Ideal S8x128 .f32) (b : Fin 8) (l : Fin 128) :
    (k0_pay31 (F := Ideal) (k0_pay29 x1 (k0_pay5 x0) (k0_pay6 x0)) v) (ix2 b l)
      = min (v (ix2 b l)) ((Finset.univ : Finset (Fin 1024)).inf fun r => dTile x0 x1 b r ⟨768 + l.val, by omega⟩) := by
  unfold k0_pay31
  simp only [shapeCast_self, minimumf_apply]
  refine congrArg (min (v (ix2 b l))) ?_
  refine (min_over_queries _ _ _ _ b l).trans ?_
  simp only [tile_768]

/-- The block of target rows 896 … 1023: its tile at (b, r, l). -/
theorem tile_896 (b : Fin 8) (r : Fin 1024) (l : Fin 128) :
    (k0_pay32 (F := Ideal) x1 (k0_pay5 x0) (k0_pay6 x0)) (ix3 b r l) = dTile x0 x1 b r ⟨896 + l.val, by omega⟩ := by
  unfold k0_pay32 k0_pay5 k0_pay6 dTile dq
  simp only [addf_apply, mulf_apply, subf_apply, bcast_query, bcast_target, relay_target, slice_query0, slice_query1]
  rw [slice_target0 896 x1 _ b l (by omega), slice_target1 896 x1 _ b l (by omega)]

/-- Its update of the per-query-row minimum. -/
theorem rowmin_896 (v : Vec Ideal S8x1024 .f32) (b : Fin 8) (r : Fin 1024) :
    (k0_pay33 (F := Ideal) x1 (k0_pay5 x0) (k0_pay6 x0) v) (ix2 b r)
      = min (v (ix2 b r)) ((Finset.univ : Finset (Fin 128)).inf fun l => dTile x0 x1 b r ⟨896 + l.val, by omega⟩) := by
  unfold k0_pay33
  simp only [shapeCast_self, minimumf_apply]
  refine congrArg (min (v (ix2 b r))) ?_
  refine (min_over_targets _ _ _ _ b r).trans ?_
  simp only [tile_896]

/-- Its update of the per-target-row minimum. -/
theorem colmin_896 (v : Vec Ideal S8x128 .f32) (b : Fin 8) (l : Fin 128) :
    (k0_pay34 (F := Ideal) x1 (k0_pay5 x0) (k0_pay6 x0) v) (ix2 b l)
      = min (v (ix2 b l)) ((Finset.univ : Finset (Fin 1024)).inf fun r => dTile x0 x1 b r ⟨896 + l.val, by omega⟩) := by
  unfold k0_pay34
  simp only [shapeCast_self, minimumf_apply]
  refine congrArg (min (v (ix2 b l))) ?_
  refine (min_over_queries _ _ _ _ b l).trans ?_
  simp only [tile_896]

end Cert.KernelIdeal.Tile

end
-- ==== Proof.IdealRead.lean ====
/-
  What the body's stores leave in the two scratch buffers, read back as functions of the two input blocks and of what
  the buffers held before the point. The per-query-row buffer is lowered eight times, whole; the per-target-row buffer
  only on the 1024 columns of the point's target tile, 128 at a time.
-/
import proofs.«151873_j40888088658143_2_alg».proof.Proof.IdealFrame
import proofs.«151873_j40888088658143_2_alg».proof.Proof.IdealTile

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.TileIndex Cert.KernelIdeal.Tile

/-- The per-query-row minimum after the eight blocks of one point, from its value a before them. -/
def chainX (x0 x1 : Vec F S8x1024x2 .f32) (a : Vec F S8x1024 .f32) : Vec F S8x1024 .f32 :=
  (k0_pay33 x1 (k0_pay5 x0) (k0_pay6 x0) (k0_pay30 x1 (k0_pay5 x0) (k0_pay6 x0) (k0_pay27 (k0_pay6 x0) (k0_pay24 x1) (k0_pay25 x1 (k0_pay5 x0)) (k0_pay22 x1 (k0_pay5 x0) (k0_pay6 x0) (k0_pay18 x1 (k0_pay5 x0) (k0_pay6 x0) (k0_pay15 (k0_pay14 x1 (k0_pay5 x0) (k0_pay6 x0)) (k0_pay12 x1 (k0_pay5 x0) (k0_pay6 x0) (k0_pay8 x0 x1 a))))))))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The column offsets of the eight blocks at the point t: 1024·j + 128·k, with j = t mod 4 -/
theorem offT_0 : ∀ t : Fin cfg0.N, k0_off1 (grid0.coords t) 0#32 = ![0, 1024 * (t.val % 4) + 0] :=
  (by decide +kernel : ∀ t : Fin grid0.N, k0_off1 (grid0.coords t) 0#32 = ![0, 1024 * (t.val % 4) + 0])
theorem offT_128 : ∀ t : Fin cfg0.N, k0_off1 (grid0.coords t) 128#32 = ![0, 1024 * (t.val % 4) + 128] :=
  (by decide +kernel : ∀ t : Fin grid0.N, k0_off1 (grid0.coords t) 128#32 = ![0, 1024 * (t.val % 4) + 128])
theorem offT_256 : ∀ t : Fin cfg0.N, k0_off1 (grid0.coords t) 256#32 = ![0, 1024 * (t.val % 4) + 256] :=
  (by decide +kernel : ∀ t : Fin grid0.N, k0_off1 (grid0.coords t) 256#32 = ![0, 1024 * (t.val % 4) + 256])
theorem offT_384 : ∀ t : Fin cfg0.N, k0_off1 (grid0.coords t) 384#32 = ![0, 1024 * (t.val % 4) + 384] :=
  (by decide +kernel : ∀ t : Fin grid0.N, k0_off1 (grid0.coords t) 384#32 = ![0, 1024 * (t.val % 4) + 384])
theorem offT_512 : ∀ t : Fin cfg0.N, k0_off1 (grid0.coords t) 512#32 = ![0, 1024 * (t.val % 4) + 512] :=
  (by decide +kernel : ∀ t : Fin grid0.N, k0_off1 (grid0.coords t) 512#32 = ![0, 1024 * (t.val % 4) + 512])
theorem offT_640 : ∀ t : Fin cfg0.N, k0_off1 (grid0.coords t) 640#32 = ![0, 1024 * (t.val % 4) + 640] :=
  (by decide +kernel : ∀ t : Fin grid0.N, k0_off1 (grid0.coords t) 640#32 = ![0, 1024 * (t.val % 4) + 640])
theorem offT_768 : ∀ t : Fin cfg0.N, k0_off1 (grid0.coords t) 768#32 = ![0, 1024 * (t.val % 4) + 768] :=
  (by decide +kernel : ∀ t : Fin grid0.N, k0_off1 (grid0.coords t) 768#32 = ![0, 1024 * (t.val % 4) + 768])
theorem offT_896 : ∀ t : Fin cfg0.N, k0_off1 (grid0.coords t) 896#32 = ![0, 1024 * (t.val % 4) + 896] :=
  (by decide +kernel : ∀ t : Fin grid0.N, k0_off1 (grid0.coords t) 896#32 = ![0, 1024 * (t.val % 4) + 896])

section Structural
variable (m : (ℓ : Loc nD τ sig) → Buf (Elt F) ℓ)

theorem midX_eq (c : Dev nD) (t : Fin cfg0.N) (h0 : ¬condFirst (grid0.coords t)) (h1 : ¬condLast (grid0.coords t))
    (xs : Vec F S8x1024 .f32 × Vec F S8x4096 .f32) :
    (midSc m c t h0 h1 xs).1 = chainX (iblk m c 0 t) (iblk m c 1 t) xs.1 := by
  unfold midSc; dsimp only
  rw [View.read_writes_eq_canon _ _ _ (coverX_mid m c t h0 h1 xs)]
  unfold rM runMid; dsimp only
  sl_unfold_words
  rw [View.canon_cons_unit_zero hz2]
  simp only [View.readCov_cons_toLoadRect, View.readAt_eq_ld, Memref.IsWhole.read_unread, View.ld_unit_zero (S := S8x1024x2) hz3, View.ld_unit_zero (S := S8x1024) hz2]
  rw [show View.read (Elt F) (View.whole cc0_scratch0) (wX.unread xs.1) = xs.1 from wX.read_unread xs.1]
  unfold chainX
  rfl

theorem lastX_eq (c : Dev nD) (t : Fin cfg0.N) (h0 : ¬condFirst (grid0.coords t)) (h1 : condLast (grid0.coords t))
    (xs : Vec F S8x1024 .f32 × Vec F S8x4096 .f32) :
    (lastSc m c t h0 h1 xs).1 = chainX (iblk m c 0 t) (iblk m c 1 t) xs.1 := by
  unfold lastSc; dsimp only
  rw [View.read_writes_eq_canon _ _ _ (coverX_last m c t h0 h1 xs)]
  unfold rL runLast; dsimp only
  sl_unfold_words
  rw [View.canon_cons_unit_zero hz2]
  simp only [View.readCov_cons_toLoadRect, View.readAt_eq_ld, Memref.IsWhole.read_unread, View.ld_unit_zero (S := S8x1024x2) hz3, View.ld_unit_zero (S := S8x1024) hz2]
  rw [show View.read (Elt F) (View.whole cc0_scratch0) (wX.unread xs.1) = xs.1 from wX.read_unread xs.1]
  unfold chainX
  rfl

theorem firstX_eq (c : Dev nD) (t : Fin cfg0.N) (h0 : condFirst (grid0.coords t)) (h1 : ¬condLast (grid0.coords t)) :
    (firstSc m c t h0 h1).1 = chainX (iblk m c 0 t) (iblk m c 1 t) (k0_pay3 (F := F)) := by
  unfold firstSc; dsimp only
  rw [View.read_writes_eq_canon _ _ _ (coverX_first m c t h0 h1)]
  unfold rF runFirst; dsimp only
  sl_unfold_words
  rw [View.canon_cons_unit_zero hz2]
  simp only [View.readCov_cons_toLoadRect, View.readAt_eq_ld, Memref.IsWhole.read_unread, View.ld_unit_zero (S := S8x1024x2) hz3, View.ld_unit_zero (S := S8x1024) hz2]
  unfold chainX
  rfl

end Structural

end Cert.KernelIdeal.Hand

end
-- ==== Proof.IdealReadT.lean ====
/-
  The two scratch buffers after a point, at coordinates, over the extended reals: the per-query-row minimum is lowered
  by the infimum over the tile's 1024 target rows; the per-target-row minimum, on the 1024 columns of the point's target
  tile only, by the infimum over the tile's 1024 query rows.
-/
import proofs.«151873_j40888088658143_2_alg».proof.Proof.IdealRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.TileIndex Cert.KernelIdeal.Tile

/-- The least squared distance from query row r of the tile to the tile's target rows. -/
def rowInf (x0 x1 : Vec Ideal S8x1024x2 .f32) (b : Fin 8) (r : Fin 1024) : EReal :=
  (Finset.univ : Finset (Fin 1024)).inf fun q => dTile x0 x1 b r q
/-- The least squared distance from target row q of the tile to the tile's query rows. -/
def colInf (x0 x1 : Vec Ideal S8x1024x2 .f32) (b : Fin 8) (q : Fin 1024) : EReal :=
  (Finset.univ : Finset (Fin 1024)).inf fun r => dTile x0 x1 b r q

theorem chainX_apply (x0 x1 : Vec Ideal S8x1024x2 .f32) (a : Vec Ideal S8x1024 .f32) (b : Fin 8) (r : Fin 1024) :
    chainX (F := Ideal) x0 x1 a (ix2 b r) = min (a (ix2 b r)) (rowInf x0 x1 b r) := by
  unfold chainX
  simp only [rowmin_896, rowmin_768, rowmin_640, rowmin_512, rowmin_384, rowmin_256, rowmin_128, rowmin_0]
  exact min_blocks (dTile x0 x1 b r) (a (ix2 b r))

/-- The per-target-row minimum after the point whose target tile is the j-th: lowered on columns 1024·j … 1024·j + 1023. -/
def bandMin (x0 x1 : Vec Ideal S8x1024x2 .f32) (old : Vec Ideal S8x4096 .f32) (j : Nat) (b : Fin 8) (col : Fin 4096) : EReal :=
  if h : 1024 * j ≤ col.val ∧ col.val < 1024 * j + 1024 then min (old (ix2 b col)) (colInf x0 x1 b ⟨col.val - 1024 * j, by omega⟩)
  else old (ix2 b col)

/-- Eight stores of 128 columns each, at columns 1024·j + 128·k, each of what was loaded there lowered by the block's column
    minima, over contents old: read back at (b, col). -/
theorem read_band {sig : RefSig} {κ : Kind} {sp : Space} (v : View sig κ sp S8x4096 .f32) (f : v.ty.Contents (Elt Ideal))
    (old : Vec Ideal S8x4096 .f32) (hf : v.read (Elt Ideal) f = old) (x0 x1 : Vec Ideal S8x1024x2 .f32) (j : Nat) (hj : j < 4)
    (off0 : Fin 2 → Nat) (inb0 : ∀ a, off0 a + S8x128.size a ≤ S8x4096.size a) (heq0 : off0 = ![0, 1024 * j + 0])
    (off128 : Fin 2 → Nat) (inb128 : ∀ a, off128 a + S8x128.size a ≤ S8x4096.size a) (heq128 : off128 = ![0, 1024 * j + 128])
    (off256 : Fin 2 → Nat) (inb256 : ∀ a, off256 a + S8x128.size a ≤ S8x4096.size a) (heq256 : off256 = ![0, 1024 * j + 256])
    (off384 : Fin 2 → Nat) (inb384 : ∀ a, off384 a + S8x128.size a ≤ S8x4096.size a) (heq384 : off384 = ![0, 1024 * j + 384])
    (off512 : Fin 2 → Nat) (inb512 : ∀ a, off512 a + S8x128.size a ≤ S8x4096.size a) (heq512 : off512 = ![0, 1024 * j + 512])
    (off640 : Fin 2 → Nat) (inb640 : ∀ a, off640 a + S8x128.size a ≤ S8x4096.size a) (heq640 : off640 = ![0, 1024 * j + 640])
    (off768 : Fin 2 → Nat) (inb768 : ∀ a, off768 a + S8x128.size a ≤ S8x4096.size a) (heq768 : off768 = ![0, 1024 * j + 768])
    (off896 : Fin 2 → Nat) (inb896 : ∀ a, off896 a + S8x128.size a ≤ S8x4096.size a) (heq896 : off896 = ![0, 1024 * j + 896])
    (b : Fin 8) (col : Fin 4096) :
    v.read (Elt Ideal) (v.writes (Elt Ideal) f
      [⟨Rect.unit (s := S8x4096) off896 S8x128.size inb896, k0_pay34 (F := Ideal) x1 (k0_pay5 x0) (k0_pay6 x0) (View.ld old (Rect.unit (s := S8x4096) off896 S8x128.size inb896))⟩,
        ⟨Rect.unit (s := S8x4096) off768 S8x128.size inb768, k0_pay31 (F := Ideal) (k0_pay29 x1 (k0_pay5 x0) (k0_pay6 x0)) (View.ld old (Rect.unit (s := S8x4096) off768 S8x128.size inb768))⟩,
        ⟨Rect.unit (s := S8x4096) off640 S8x128.size inb640, k0_pay28 (F := Ideal) (k0_pay6 x0) (k0_pay24 x1) (k0_pay25 x1 (k0_pay5 x0)) (View.ld old (Rect.unit (s := S8x4096) off640 S8x128.size inb640))⟩,
        ⟨Rect.unit (s := S8x4096) off512 S8x128.size inb512, k0_pay23 (F := Ideal) x1 (k0_pay5 x0) (k0_pay6 x0) (View.ld old (Rect.unit (s := S8x4096) off512 S8x128.size inb512))⟩,
        ⟨Rect.unit (s := S8x4096) off384 S8x128.size inb384, k0_pay20 (F := Ideal) (k0_pay19 x1 (k0_pay5 x0) (k0_pay6 x0)) (View.ld old (Rect.unit (s := S8x4096) off384 S8x128.size inb384))⟩,
        ⟨Rect.unit (s := S8x4096) off256 S8x128.size inb256, k0_pay16 (F := Ideal) (k0_pay14 x1 (k0_pay5 x0) (k0_pay6 x0)) (View.ld old (Rect.unit (s := S8x4096) off256 S8x128.size inb256))⟩,
        ⟨Rect.unit (s := S8x4096) off128 S8x128.size inb128, k0_pay13 (F := Ideal) x1 (k0_pay5 x0) (k0_pay6 x0) (View.ld old (Rect.unit (s := S8x4096) off128 S8x128.size inb128))⟩,
        ⟨Rect.unit (s := S8x4096) off0 S8x128.size inb0, k0_pay10 (F := Ideal) (k0_pay9 x0 x1 (View.ld old (Rect.unit (s := S8x4096) off0 S8x128.size inb0)))⟩]) (ix2 b col)
      = bandMin x0 x1 old j b col := by
  unfold bandMin
  by_cases hb : 1024 * j ≤ col.val ∧ col.val < 1024 * j + 1024
  · rw [dif_pos hb]
    by_cases c896 : 1024 * j + 896 ≤ col.val
    · refine (read_cols_hit v f (1024 * j + 896) _ _ _ _ b col ⟨col.val - (1024 * j + 896), by omega⟩ heq896 (by show col.val = 1024 * j + 896 + (col.val - (1024 * j + 896)); omega)).trans ?_
      refine (colmin_896 x0 x1 _ b _).trans ?_
      refine congr (congrArg min (ld_cols old (1024 * j + 896) _ _ b col _ heq896 (by show col.val = 1024 * j + 896 + (col.val - (1024 * j + 896)); omega))) ?_
      unfold colInf
      exact congrArg (Finset.inf Finset.univ) (funext fun r => congrArg (dTile x0 x1 b r) (Fin.ext (by show 896 + (col.val - (1024 * j + 896)) = col.val - 1024 * j; omega)))
    by_cases c768 : 1024 * j + 768 ≤ col.val
    · refine (read_cols_skip v f (1024 * j + 896) _ _ _ _ b col heq896 (by omega)).trans ?_
      refine (read_cols_hit v f (1024 * j + 768) _ _ _ _ b col ⟨col.val - (1024 * j + 768), by omega⟩ heq768 (by show col.val = 1024 * j + 768 + (col.val - (1024 * j + 768)); omega)).trans ?_
      refine (colmin_768 x0 x1 _ b _).trans ?_
      refine congr (congrArg min (ld_cols old (1024 * j + 768) _ _ b col _ heq768 (by show col.val = 1024 * j + 768 + (col.val - (1024 * j + 768)); omega))) ?_
      unfold colInf
      exact congrArg (Finset.inf Finset.univ) (funext fun r => congrArg (dTile x0 x1 b r) (Fin.ext (by show 768 + (col.val - (1024 * j + 768)) = col.val - 1024 * j; omega)))
    by_cases c640 : 1024 * j + 640 ≤ col.val
    · refine (read_cols_skip v f (1024 * j + 896) _ _ _ _ b col heq896 (by omega)).trans ?_
      refine (read_cols_skip v f (1024 * j + 768) _ _ _ _ b col heq768 (by omega)).trans ?_
      refine (read_cols_hit v f (1024 * j + 640) _ _ _ _ b col ⟨col.val - (1024 * j + 640), by omega⟩ heq640 (by show col.val = 1024 * j + 640 + (col.val - (1024 * j + 640)); omega)).trans ?_
      refine (colmin_640 x0 x1 _ b _).trans ?_
      refine congr (congrArg min (ld_cols old (1024 * j + 640) _ _ b col _ heq640 (by show col.val = 1024 * j + 640 + (col.val - (1024 * j + 640)); omega))) ?_
      unfold colInf
      exact congrArg (Finset.inf Finset.univ) (funext fun r => congrArg (dTile x0 x1 b r) (Fin.ext (by show 640 + (col.val - (1024 * j + 640)) = col.val - 1024 * j; omega)))
    by_cases c512 : 1024 * j + 512 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_hit v f (1024 * j + 512) _ _ _ _ b col ⟨col.val - (1024 * j + 512), by omega⟩ heq512 (by show col.val = 1024 * j + 512 + (col.val - (1024 * j + 512)); omega)).trans ?_
      refine (colmin_512 x0 x1 _ b _).trans ?_
      refine congr (congrArg min (ld_cols old (1024 * j + 512) _ _ b col _ heq512 (by show col.val = 1024 * j + 512 + (col.val - (1024 * j + 512)); omega))) ?_
      unfold colInf
      exact congrArg (Finset.inf Finset.univ) (funext fun r => congrArg (dTile x0 x1 b r) (Fin.ext (by show 512 + (col.val - (1024 * j + 512)) = col.val - 1024 * j; omega)))
    by_cases c384 : 1024 * j + 384 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_hit v f (1024 * j + 384) _ _ _ _ b col ⟨col.val - (1024 * j + 384), by omega⟩ heq384 (by show col.val = 1024 * j + 384 + (col.val - (1024 * j + 384)); omega)).trans ?_
      refine (colmin_384 x0 x1 _ b _).trans ?_
      refine congr (congrArg min (ld_cols old (1024 * j + 384) _ _ b col _ heq384 (by show col.val = 1024 * j + 384 + (col.val - (1024 * j + 384)); omega))) ?_
      unfold colInf
      exact congrArg (Finset.inf Finset.univ) (funext fun r => congrArg (dTile x0 x1 b r) (Fin.ext (by show 384 + (col.val - (1024 * j + 384)) = col.val - 1024 * j; omega)))
    by_cases c256 : 1024 * j + 256 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_skip v f (1024 * j + 384) _ _ _ _ b col heq384 (by omega)).trans ?_
      refine (read_cols_hit v f (1024 * j + 256) _ _ _ _ b col ⟨col.val - (1024 * j + 256), by omega⟩ heq256 (by show col.val = 1024 * j + 256 + (col.val - (1024 * j + 256)); omega)).trans ?_
      refine (colmin_256 x0 x1 _ b _).trans ?_
      refine congr (congrArg min (ld_cols old (1024 * j + 256) _ _ b col _ heq256 (by show col.val = 1024 * j + 256 + (col.val - (1024 * j + 256)); omega))) ?_
      unfold colInf
      exact congrArg (Finset.inf Finset.univ) (funext fun r => congrArg (dTile x0 x1 b r) (Fin.ext (by show 256 + (col.val - (1024 * j + 256)) = col.val - 1024 * j; omega)))
    by_cases c128 : 1024 * j + 128 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_skip v f (1024 * j + 384) _ _ _ _ b col heq384 (by omega)).trans ?_
      refine (read_cols_skip v f (1024 * j + 256) _ _ _ _ b col heq256 (by omega)).trans ?_
      refine (read_cols_hit v f (1024 * j + 128) _ _ _ _ b col ⟨col.val - (1024 * j + 128), by omega⟩ heq128 (by show col.val = 1024 * j + 128 + (col.val - (1024 * j + 128)); omega)).trans ?_
      refine (colmin_128 x0 x1 _ b _).trans ?_
      refine congr (congrArg min (ld_cols old (1024 * j + 128) _ _ b col _ heq128 (by show col.val = 1024 * j + 128 + (col.val - (1024 * j + 128)); omega))) ?_
      unfold colInf
      exact congrArg (Finset.inf Finset.univ) (funext fun r => congrArg (dTile x0 x1 b r) (Fin.ext (by show 128 + (col.val - (1024 * j + 128)) = col.val - 1024 * j; omega)))
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_skip v f (1024 * j + 384) _ _ _ _ b col heq384 (by omega)).trans ?_
      refine (read_cols_skip v f (1024 * j + 256) _ _ _ _ b col heq256 (by omega)).trans ?_
      refine (read_cols_skip v f (1024 * j + 128) _ _ _ _ b col heq128 (by omega)).trans ?_
      refine (read_cols_hit v f (1024 * j + 0) _ _ _ _ b col ⟨col.val - (1024 * j + 0), by omega⟩ heq0 (by show col.val = 1024 * j + 0 + (col.val - (1024 * j + 0)); omega)).trans ?_
      refine (colmin_0 x0 x1 _ b _).trans ?_
      refine congr (congrArg min (ld_cols old (1024 * j + 0) _ _ b col _ heq0 (by show col.val = 1024 * j + 0 + (col.val - (1024 * j + 0)); omega))) ?_
      unfold colInf
      exact congrArg (Finset.inf Finset.univ) (funext fun r => congrArg (dTile x0 x1 b r) (Fin.ext (by show 0 + (col.val - (1024 * j + 0)) = col.val - 1024 * j; omega)))
  · rw [dif_neg hb]
    refine (read_cols_skip v f (1024 * j + 896) _ _ _ _ b col heq896 (by omega)).trans ?_
    refine (read_cols_skip v f (1024 * j + 768) _ _ _ _ b col heq768 (by omega)).trans ?_
    refine (read_cols_skip v f (1024 * j + 640) _ _ _ _ b col heq640 (by omega)).trans ?_
    refine (read_cols_skip v f (1024 * j + 512) _ _ _ _ b col heq512 (by omega)).trans ?_
    refine (read_cols_skip v f (1024 * j + 384) _ _ _ _ b col heq384 (by omega)).trans ?_
    refine (read_cols_skip v f (1024 * j + 256) _ _ _ _ b col heq256 (by omega)).trans ?_
    refine (read_cols_skip v f (1024 * j + 128) _ _ _ _ b col heq128 (by omega)).trans ?_
    refine (read_cols_skip v f (1024 * j + 0) _ _ _ _ b col heq0 (by omega)).trans ?_
    rw [View.writes_nil, hf]

/-- The same when what each block loaded is only known to agree with old on the block's own 128 columns. -/
theorem read_band' {sig : RefSig} {κ : Kind} {sp : Space} (v : View sig κ sp S8x4096 .f32) (f : v.ty.Contents (Elt Ideal))
    (old : Vec Ideal S8x4096 .f32) (hf : v.read (Elt Ideal) f = old) (x0 x1 : Vec Ideal S8x1024x2 .f32) (j : Nat) (hj : j < 4)
    (off0 : Fin 2 → Nat) (inb0 : ∀ a, off0 a + S8x128.size a ≤ S8x4096.size a) (heq0 : off0 = ![0, 1024 * j + 0])
    (l0 : Vec Ideal S8x128 .f32) (hl0 : ∀ (b : Fin 8) (l : Fin 128), l0 (ix2 b l) = old (ix2 b ⟨1024 * j + 0 + l.val, by omega⟩))
    (off128 : Fin 2 → Nat) (inb128 : ∀ a, off128 a + S8x128.size a ≤ S8x4096.size a) (heq128 : off128 = ![0, 1024 * j + 128])
    (l128 : Vec Ideal S8x128 .f32) (hl128 : ∀ (b : Fin 8) (l : Fin 128), l128 (ix2 b l) = old (ix2 b ⟨1024 * j + 128 + l.val, by omega⟩))
    (off256 : Fin 2 → Nat) (inb256 : ∀ a, off256 a + S8x128.size a ≤ S8x4096.size a) (heq256 : off256 = ![0, 1024 * j + 256])
    (l256 : Vec Ideal S8x128 .f32) (hl256 : ∀ (b : Fin 8) (l : Fin 128), l256 (ix2 b l) = old (ix2 b ⟨1024 * j + 256 + l.val, by omega⟩))
    (off384 : Fin 2 → Nat) (inb384 : ∀ a, off384 a + S8x128.size a ≤ S8x4096.size a) (heq384 : off384 = ![0, 1024 * j + 384])
    (l384 : Vec Ideal S8x128 .f32) (hl384 : ∀ (b : Fin 8) (l : Fin 128), l384 (ix2 b l) = old (ix2 b ⟨1024 * j + 384 + l.val, by omega⟩))
    (off512 : Fin 2 → Nat) (inb512 : ∀ a, off512 a + S8x128.size a ≤ S8x4096.size a) (heq512 : off512 = ![0, 1024 * j + 512])
    (l512 : Vec Ideal S8x128 .f32) (hl512 : ∀ (b : Fin 8) (l : Fin 128), l512 (ix2 b l) = old (ix2 b ⟨1024 * j + 512 + l.val, by omega⟩))
    (off640 : Fin 2 → Nat) (inb640 : ∀ a, off640 a + S8x128.size a ≤ S8x4096.size a) (heq640 : off640 = ![0, 1024 * j + 640])
    (l640 : Vec Ideal S8x128 .f32) (hl640 : ∀ (b : Fin 8) (l : Fin 128), l640 (ix2 b l) = old (ix2 b ⟨1024 * j + 640 + l.val, by omega⟩))
    (off768 : Fin 2 → Nat) (inb768 : ∀ a, off768 a + S8x128.size a ≤ S8x4096.size a) (heq768 : off768 = ![0, 1024 * j + 768])
    (l768 : Vec Ideal S8x128 .f32) (hl768 : ∀ (b : Fin 8) (l : Fin 128), l768 (ix2 b l) = old (ix2 b ⟨1024 * j + 768 + l.val, by omega⟩))
    (off896 : Fin 2 → Nat) (inb896 : ∀ a, off896 a + S8x128.size a ≤ S8x4096.size a) (heq896 : off896 = ![0, 1024 * j + 896])
    (l896 : Vec Ideal S8x128 .f32) (hl896 : ∀ (b : Fin 8) (l : Fin 128), l896 (ix2 b l) = old (ix2 b ⟨1024 * j + 896 + l.val, by omega⟩))
    (b : Fin 8) (col : Fin 4096) :
    v.read (Elt Ideal) (v.writes (Elt Ideal) f
      [⟨Rect.unit (s := S8x4096) off896 S8x128.size inb896, k0_pay34 (F := Ideal) x1 (k0_pay5 x0) (k0_pay6 x0) l896⟩,
        ⟨Rect.unit (s := S8x4096) off768 S8x128.size inb768, k0_pay31 (F := Ideal) (k0_pay29 x1 (k0_pay5 x0) (k0_pay6 x0)) l768⟩,
        ⟨Rect.unit (s := S8x4096) off640 S8x128.size inb640, k0_pay28 (F := Ideal) (k0_pay6 x0) (k0_pay24 x1) (k0_pay25 x1 (k0_pay5 x0)) l640⟩,
        ⟨Rect.unit (s := S8x4096) off512 S8x128.size inb512, k0_pay23 (F := Ideal) x1 (k0_pay5 x0) (k0_pay6 x0) l512⟩,
        ⟨Rect.unit (s := S8x4096) off384 S8x128.size inb384, k0_pay20 (F := Ideal) (k0_pay19 x1 (k0_pay5 x0) (k0_pay6 x0)) l384⟩,
        ⟨Rect.unit (s := S8x4096) off256 S8x128.size inb256, k0_pay16 (F := Ideal) (k0_pay14 x1 (k0_pay5 x0) (k0_pay6 x0)) l256⟩,
        ⟨Rect.unit (s := S8x4096) off128 S8x128.size inb128, k0_pay13 (F := Ideal) x1 (k0_pay5 x0) (k0_pay6 x0) l128⟩,
        ⟨Rect.unit (s := S8x4096) off0 S8x128.size inb0, k0_pay10 (F := Ideal) (k0_pay9 x0 x1 l0)⟩]) (ix2 b col)
      = bandMin x0 x1 old j b col := by
  unfold bandMin
  by_cases hb : 1024 * j ≤ col.val ∧ col.val < 1024 * j + 1024
  · rw [dif_pos hb]
    by_cases c896 : 1024 * j + 896 ≤ col.val
    · refine (read_cols_hit v f (1024 * j + 896) _ _ _ _ b col ⟨col.val - (1024 * j + 896), by omega⟩ heq896 (by show col.val = 1024 * j + 896 + (col.val - (1024 * j + 896)); omega)).trans ?_
      refine (colmin_896 x0 x1 _ b _).trans ?_
      refine congr (congrArg min ((hl896 b _).trans (congrArg old (congrArg (ix2 b) (Fin.ext (by show 1024 * j + 896 + (col.val - (1024 * j + 896)) = col.val; omega)))))) ?_
      unfold colInf
      exact congrArg (Finset.inf Finset.univ) (funext fun r => congrArg (dTile x0 x1 b r) (Fin.ext (by show 896 + (col.val - (1024 * j + 896)) = col.val - 1024 * j; omega)))
    by_cases c768 : 1024 * j + 768 ≤ col.val
    · refine (read_cols_skip v f (1024 * j + 896) _ _ _ _ b col heq896 (by omega)).trans ?_
      refine (read_cols_hit v f (1024 * j + 768) _ _ _ _ b col ⟨col.val - (1024 * j + 768), by omega⟩ heq768 (by show col.val = 1024 * j + 768 + (col.val - (1024 * j + 768)); omega)).trans ?_
      refine (colmin_768 x0 x1 _ b _).trans ?_
      refine congr (congrArg min ((hl768 b _).trans (congrArg old (congrArg (ix2 b) (Fin.ext (by show 1024 * j + 768 + (col.val - (1024 * j + 768)) = col.val; omega)))))) ?_
      unfold colInf
      exact congrArg (Finset.inf Finset.univ) (funext fun r => congrArg (dTile x0 x1 b r) (Fin.ext (by show 768 + (col.val - (1024 * j + 768)) = col.val - 1024 * j; omega)))
    by_cases c640 : 1024 * j + 640 ≤ col.val
    · refine (read_cols_skip v f (1024 * j + 896) _ _ _ _ b col heq896 (by omega)).trans ?_
      refine (read_cols_skip v f (1024 * j + 768) _ _ _ _ b col heq768 (by omega)).trans ?_
      refine (read_cols_hit v f (1024 * j + 640) _ _ _ _ b col ⟨col.val - (1024 * j + 640), by omega⟩ heq640 (by show col.val = 1024 * j + 640 + (col.val - (1024 * j + 640)); omega)).trans ?_
      refine (colmin_640 x0 x1 _ b _).trans ?_
      refine congr (congrArg min ((hl640 b _).trans (congrArg old (congrArg (ix2 b) (Fin.ext (by show 1024 * j + 640 + (col.val - (1024 * j + 640)) = col.val; omega)))))) ?_
      unfold colInf
      exact congrArg (Finset.inf Finset.univ) (funext fun r => congrArg (dTile x0 x1 b r) (Fin.ext (by show 640 + (col.val - (1024 * j + 640)) = col.val - 1024 * j; omega)))
    by_cases c512 : 1024 * j + 512 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_hit v f (1024 * j + 512) _ _ _ _ b col ⟨col.val - (1024 * j + 512), by omega⟩ heq512 (by show col.val = 1024 * j + 512 + (col.val - (1024 * j + 512)); omega)).trans ?_
      refine (colmin_512 x0 x1 _ b _).trans ?_
      refine congr (congrArg min ((hl512 b _).trans (congrArg old (congrArg (ix2 b) (Fin.ext (by show 1024 * j + 512 + (col.val - (1024 * j + 512)) = col.val; omega)))))) ?_
      unfold colInf
      exact congrArg (Finset.inf Finset.univ) (funext fun r => congrArg (dTile x0 x1 b r) (Fin.ext (by show 512 + (col.val - (1024 * j + 512)) = col.val - 1024 * j; omega)))
    by_cases c384 : 1024 * j + 384 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_hit v f (1024 * j + 384) _ _ _ _ b col ⟨col.val - (1024 * j + 384), by omega⟩ heq384 (by show col.val = 1024 * j + 384 + (col.val - (1024 * j + 384)); omega)).trans ?_
      refine (colmin_384 x0 x1 _ b _).trans ?_
      refine congr (congrArg min ((hl384 b _).trans (congrArg old (congrArg (ix2 b) (Fin.ext (by show 1024 * j + 384 + (col.val - (1024 * j + 384)) = col.val; omega)))))) ?_
      unfold colInf
      exact congrArg (Finset.inf Finset.univ) (funext fun r => congrArg (dTile x0 x1 b r) (Fin.ext (by show 384 + (col.val - (1024 * j + 384)) = col.val - 1024 * j; omega)))
    by_cases c256 : 1024 * j + 256 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_skip v f (1024 * j + 384) _ _ _ _ b col heq384 (by omega)).trans ?_
      refine (read_cols_hit v f (1024 * j + 256) _ _ _ _ b col ⟨col.val - (1024 * j + 256), by omega⟩ heq256 (by show col.val = 1024 * j + 256 + (col.val - (1024 * j + 256)); omega)).trans ?_
      refine (colmin_256 x0 x1 _ b _).trans ?_
      refine congr (congrArg min ((hl256 b _).trans (congrArg old (congrArg (ix2 b) (Fin.ext (by show 1024 * j + 256 + (col.val - (1024 * j + 256)) = col.val; omega)))))) ?_
      unfold colInf
      exact congrArg (Finset.inf Finset.univ) (funext fun r => congrArg (dTile x0 x1 b r) (Fin.ext (by show 256 + (col.val - (1024 * j + 256)) = col.val - 1024 * j; omega)))
    by_cases c128 : 1024 * j + 128 ≤ col.val
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_skip v f (1024 * j + 384) _ _ _ _ b col heq384 (by omega)).trans ?_
      refine (read_cols_skip v f (1024 * j + 256) _ _ _ _ b col heq256 (by omega)).trans ?_
      refine (read_cols_hit v f (1024 * j + 128) _ _ _ _ b col ⟨col.val - (1024 * j + 128), by omega⟩ heq128 (by show col.val = 1024 * j + 128 + (col.val - (1024 * j + 128)); omega)).trans ?_
      refine (colmin_128 x0 x1 _ b _).trans ?_
      refine congr (congrArg min ((hl128 b _).trans (congrArg old (congrArg (ix2 b) (Fin.ext (by show 1024 * j + 128 + (col.val - (1024 * j + 128)) = col.val; omega)))))) ?_
      unfold colInf
      exact congrArg (Finset.inf Finset.univ) (funext fun r => congrArg (dTile x0 x1 b r) (Fin.ext (by show 128 + (col.val - (1024 * j + 128)) = col.val - 1024 * j; omega)))
    · refine (read_cols_skip v f (1024 * j + 896) _ _ _ _ b col heq896 (by omega)).trans ?_
      refine (read_cols_skip v f (1024 * j + 768) _ _ _ _ b col heq768 (by omega)).trans ?_
      refine (read_cols_skip v f (1024 * j + 640) _ _ _ _ b col heq640 (by omega)).trans ?_
      refine (read_cols_skip v f (1024 * j + 512) _ _ _ _ b col heq512 (by omega)).trans ?_
      refine (read_cols_skip v f (1024 * j + 384) _ _ _ _ b col heq384 (by omega)).trans ?_
      refine (read_cols_skip v f (1024 * j + 256) _ _ _ _ b col heq256 (by omega)).trans ?_
      refine (read_cols_skip v f (1024 * j + 128) _ _ _ _ b col heq128 (by omega)).trans ?_
      refine (read_cols_hit v f (1024 * j + 0) _ _ _ _ b col ⟨col.val - (1024 * j + 0), by omega⟩ heq0 (by show col.val = 1024 * j + 0 + (col.val - (1024 * j + 0)); omega)).trans ?_
      refine (colmin_0 x0 x1 _ b _).trans ?_
      refine congr (congrArg min ((hl0 b _).trans (congrArg old (congrArg (ix2 b) (Fin.ext (by show 1024 * j + 0 + (col.val - (1024 * j + 0)) = col.val; omega)))))) ?_
      unfold colInf
      exact congrArg (Finset.inf Finset.univ) (funext fun r => congrArg (dTile x0 x1 b r) (Fin.ext (by show 0 + (col.val - (1024 * j + 0)) = col.val - 1024 * j; omega)))
  · rw [dif_neg hb]
    refine (read_cols_skip v f (1024 * j + 896) _ _ _ _ b col heq896 (by omega)).trans ?_
    refine (read_cols_skip v f (1024 * j + 768) _ _ _ _ b col heq768 (by omega)).trans ?_
    refine (read_cols_skip v f (1024 * j + 640) _ _ _ _ b col heq640 (by omega)).trans ?_
    refine (read_cols_skip v f (1024 * j + 512) _ _ _ _ b col heq512 (by omega)).trans ?_
    refine (read_cols_skip v f (1024 * j + 384) _ _ _ _ b col heq384 (by omega)).trans ?_
    refine (read_cols_skip v f (1024 * j + 256) _ _ _ _ b col heq256 (by omega)).trans ?_
    refine (read_cols_skip v f (1024 * j + 128) _ _ _ _ b col heq128 (by omega)).trans ?_
    refine (read_cols_skip v f (1024 * j + 0) _ _ _ _ b col heq0 (by omega)).trans ?_
    rw [View.writes_nil, hf]

end Cert.KernelIdeal.Hand

end
-- ==== Proof.IdealPoint.lean ====
/-
  The two scratch buffers after each kind of point, at coordinates.
-/
import proofs.«151873_j40888088658143_2_alg».proof.Proof.IdealReadT

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.TileIndex Cert.KernelIdeal.Tile

variable (m : (ℓ : Loc nD τ sig) → Buf (Elt Ideal) ℓ)

theorem midT_apply (c : Dev nD) (t : Fin cfg0.N) (h0 : ¬condFirst (grid0.coords t)) (h1 : ¬condLast (grid0.coords t))
    (xs : Vec Ideal S8x1024 .f32 × Vec Ideal S8x4096 .f32) (b : Fin 8) (col : Fin 4096) :
    (midSc m c t h0 h1 xs).2 (ix2 b col) = bandMin (iblk m c 0 t) (iblk m c 1 t) xs.2 (t.val % 4) b col := by
  unfold midSc; dsimp only
  unfold rM runMid; dsimp only
  sl_unfold_words
  simp only [View.readAt_eq_ld, Memref.IsWhole.read_unread, View.ld_unit_zero (S := S8x1024x2) hz3]
  simp only [show ∀ X, View.read (Elt Ideal) (View.whole cc0_scratch1) (wT.unread X) = X from fun X => wT.read_unread X]
  exact read_band _ _ xs.2 (wT.read_unread xs.2) (iblk m c 0 t) (iblk m c 1 t) (t.val % 4) (by omega) _ _ (offT_0 t) _ _ (offT_128 t) _ _ (offT_256 t) _ _ (offT_384 t) _ _ (offT_512 t) _ _ (offT_640 t) _ _ (offT_768 t) _ _ (offT_896 t) b col

theorem lastT_apply (c : Dev nD) (t : Fin cfg0.N) (h0 : ¬condFirst (grid0.coords t)) (h1 : condLast (grid0.coords t))
    (xs : Vec Ideal S8x1024 .f32 × Vec Ideal S8x4096 .f32) (b : Fin 8) (col : Fin 4096) :
    (lastSc m c t h0 h1 xs).2 (ix2 b col) = bandMin (iblk m c 0 t) (iblk m c 1 t) xs.2 (t.val % 4) b col := by
  unfold lastSc; dsimp only
  unfold rL runLast; dsimp only
  sl_unfold_words
  simp only [View.readAt_eq_ld, Memref.IsWhole.read_unread, View.ld_unit_zero (S := S8x1024x2) hz3]
  simp only [show ∀ X, View.read (Elt Ideal) (View.whole cc0_scratch1) (wT.unread X) = X from fun X => wT.read_unread X]
  exact read_band _ _ xs.2 (wT.read_unread xs.2) (iblk m c 0 t) (iblk m c 1 t) (t.val % 4) (by omega) _ _ (offT_0 t) _ _ (offT_128 t) _ _ (offT_256 t) _ _ (offT_384 t) _ _ (offT_512 t) _ _ (offT_640 t) _ _ (offT_768 t) _ _ (offT_896 t) b col

/-- Nine stores, the oldest one whole, are eight stores over what the whole one left. -/
theorem writes_snoc9 {sig : RefSig} {κ : Kind} {sp : Space} {s : Shape} {e : EltTy} {Val : EltTy → Type} (v : View sig κ sp s e) (f : v.ty.Contents Val)
    (a7 a6 a5 a4 a3 a2 a1 a0 w : View.Piece Val s e) :
    v.writes Val f [a7, a6, a5, a4, a3, a2, a1, a0, w] = v.writes Val (v.writes Val f [w]) [a7, a6, a5, a4, a3, a2, a1, a0] := rfl

theorem firstT_apply (c : Dev nD) (t : Fin cfg0.N) (h0 : condFirst (grid0.coords t)) (h1 : ¬condLast (grid0.coords t))
    (b : Fin 8) (col : Fin 4096) :
    (firstSc m c t h0 h1).2 (ix2 b col) = bandMin (iblk m c 0 t) (iblk m c 1 t) (k0_pay4 (F := Ideal)) (t.val % 4) b col := by
  have hj0 : t.val % 4 = 0 := (condFirst_iff t).mp h0
  unfold firstSc; dsimp only
  unfold rF runFirst; dsimp only
  sl_unfold_words
  simp only [View.readAt_eq_ld, Memref.IsWhole.read_unread, View.ld_unit_zero (S := S8x1024x2) hz3]
  rw [writes_snoc9]
  exact read_band' _ _ (k0_pay4 (F := Ideal)) (funext fun y => read_whole _ _ hz2 _ _ [] y) (iblk m c 0 t) (iblk m c 1 t) (t.val % 4) (by omega)
    _ _ (offT_0 t) _ (fun b l => by
      refine (ld_cols _ (1024 * (t.val % 4) + 0) _ _ b ⟨1024 * (t.val % 4) + 0 + l.val, by omega⟩ l (offT_0 t) rfl).trans ?_
      exact read_whole _ _ hz2 _ _ _ _)
    _ _ (offT_128 t) _ (fun b l => by
      refine (ld_cols _ (1024 * (t.val % 4) + 128) _ _ b ⟨1024 * (t.val % 4) + 128 + l.val, by omega⟩ l (offT_128 t) rfl).trans ?_
      refine (read_cols_skip _ _ (1024 * (t.val % 4) + 0) _ _ _ _ b _ (offT_0 t) (Or.inr (by show 1024 * (t.val % 4) + 0 + 128 ≤ 1024 * (t.val % 4) + 128 + l.val; omega))).trans ?_
      exact read_whole _ _ hz2 _ _ _ _)
    _ _ (offT_256 t) _ (fun b l => by
      refine (ld_cols _ (1024 * (t.val % 4) + 256) _ _ b ⟨1024 * (t.val % 4) + 256 + l.val, by omega⟩ l (offT_256 t) rfl).trans ?_
      refine (read_cols_skip _ _ (1024 * (t.val % 4) + 128) _ _ _ _ b _ (offT_128 t) (Or.inr (by show 1024 * (t.val % 4) + 128 + 128 ≤ 1024 * (t.val % 4) + 256 + l.val; omega))).trans ?_
      refine (read_cols_skip _ _ (1024 * (t.val % 4) + 0) _ _ _ _ b _ (offT_0 t) (Or.inr (by show 1024 * (t.val % 4) + 0 + 128 ≤ 1024 * (t.val % 4) + 256 + l.val; omega))).trans ?_
      exact read_whole _ _ hz2 _ _ _ _)
    _ _ (offT_384 t) _ (fun b l => by
      refine (ld_cols _ (1024 * (t.val % 4) + 384) _ _ b ⟨1024 * (t.val % 4) + 384 + l.val, by omega⟩ l (offT_384 t) rfl).trans ?_
      refine (read_cols_skip _ _ (1024 * (t.val % 4) + 256) _ _ _ _ b _ (offT_256 t) (Or.inr (by show 1024 * (t.val % 4) + 256 + 128 ≤ 1024 * (t.val % 4) + 384 + l.val; omega))).trans ?_
      refine (read_cols_skip _ _ (1024 * (t.val % 4) + 128) _ _ _ _ b _ (offT_128 t) (Or.inr (by show 1024 * (t.val % 4) + 128 + 128 ≤ 1024 * (t.val % 4) + 384 + l.val; omega))).trans ?_
      refine (read_cols_skip _ _ (1024 * (t.val % 4) + 0) _ _ _ _ b _ (offT_0 t) (Or.inr (by show 1024 * (t.val % 4) + 0 + 128 ≤ 1024 * (t.val % 4) + 384 + l.val; omega))).trans ?_
      exact read_whole _ _ hz2 _ _ _ _)
    _ _ (offT_512 t) _ (fun b l => by
      refine (ld_cols _ (1024 * (t.val % 4) + 512) _ _ b ⟨1024 * (t.val % 4) + 512 + l.val, by omega⟩ l (offT_512 t) rfl).trans ?_
      refine (read_cols_skip _ _ (1024 * (t.val % 4) + 384) _ _ _ _ b _ (offT_384 t) (Or.inr (by show 1024 * (t.val % 4) + 384 + 128 ≤ 1024 * (t.val % 4) + 512 + l.val; omega))).trans ?_
      refine (read_cols_skip _ _ (1024 * (t.val % 4) + 256) _ _ _ _ b _ (offT_256 t) (Or.inr (by show 1024 * (t.val % 4) + 256 + 128 ≤ 1024 * (t.val % 4) + 512 + l.val; omega))).trans ?_
      refine (read_cols_skip _ _ (1024 * (t.val % 4) + 128) _ _ _ _ b _ (offT_128 t) (Or.inr (by show 1024 * (t.val % 4) + 128 + 128 ≤ 1024 * (t.val % 4) + 512 + l.val; omega))).trans ?_
      refine (read_cols_skip _ _ (1024 * (t.val % 4) + 0) _ _ _ _ b _ (offT_0 t) (Or.inr (by show 1024 * (t.val % 4) + 0 + 128 ≤ 1024 * (t.val % 4) + 512 + l.val; omega))).trans ?_
      exact read_whole _ _ hz2 _ _ _ _)
    _ _ (offT_640 t) _ (fun b l => by
      refine (ld_cols _ (1024 * (t.val % 4) + 640) _ _ b ⟨1024 * (t.val % 4) + 640 + l.val, by omega⟩ l (offT_640 t) rfl).trans ?_
      refine (read_cols_skip _ _ (1024 * (t.val % 4) + 512) _ _ _ _ b _ (offT_512 t) (Or.inr (by show 1024 * (t.val % 4) + 512 + 128 ≤ 1024 * (t.val % 4) + 640 + l.val; omega))).trans ?_
      refine (read_cols_skip _ _ (1024 * (t.val % 4) + 384) _ _ _ _ b _ (offT_384 t) (Or.inr (by show 1024 * (t.val % 4) + 384 + 128 ≤ 1024 * (t.val % 4) + 640 + l.val; omega))).trans ?_
      refine (read_cols_skip _ _ (1024 * (t.val % 4) + 256) _ _ _ _ b _ (offT_256 t) (Or.inr (by show 1024 * (t.val % 4) + 256 + 128 ≤ 1024 * (t.val % 4) + 640 + l.val; omega))).trans ?_
      refine (read_cols_skip _ _ (1024 * (t.val % 4) + 128) _ _ _ _ b _ (offT_128 t) (Or.inr (by show 1024 * (t.val % 4) + 128 + 128 ≤ 1024 * (t.val % 4) + 640 + l.val; omega))).trans ?_
      refine (read_cols_skip _ _ (1024 * (t.val % 4) + 0) _ _ _ _ b _ (offT_0 t) (Or.inr (by show 1024 * (t.val % 4) + 0 + 128 ≤ 1024 * (t.val % 4) + 640 + l.val; omega))).trans ?_
      exact read_whole _ _ hz2 _ _ _ _)
    _ _ (offT_768 t) _ (fun b l => by
      refine (ld_cols _ (1024 * (t.val % 4) + 768) _ _ b ⟨1024 * (t.val % 4) + 768 + l.val, by omega⟩ l (offT_768 t) rfl).trans ?_
      refine (read_cols_skip _ _ (1024 * (t.val % 4) + 640) _ _ _ _ b _ (offT_640 t) (Or.inr (by show 1024 * (t.val % 4) + 640 + 128 ≤ 1024 * (t.val % 4) + 768 + l.val; omega))).trans ?_
      refine (read_cols_skip _ _ (1024 * (t.val % 4) + 512) _ _ _ _ b _ (offT_512 t) (Or.inr (by show 1024 * (t.val % 4) + 512 + 128 ≤ 1024 * (t.val % 4) + 768 + l.val; omega))).trans ?_
      refine (read_cols_skip _ _ (1024 * (t.val % 4) + 384) _ _ _ _ b _ (offT_384 t) (Or.inr (by show 1024 * (t.val % 4) + 384 + 128 ≤ 1024 * (t.val % 4) + 768 + l.val; omega))).trans ?_
      refine (read_cols_skip _ _ (1024 * (t.val % 4) + 256) _ _ _ _ b _ (offT_256 t) (Or.inr (by show 1024 * (t.val % 4) + 256 + 128 ≤ 1024 * (t.val % 4) + 768 + l.val; omega))).trans ?_
      refine (read_cols_skip _ _ (1024 * (t.val % 4) + 128) _ _ _ _ b _ (offT_128 t) (Or.inr (by show 1024 * (t.val % 4) + 128 + 128 ≤ 1024 * (t.val % 4) + 768 + l.val; omega))).trans ?_
      refine (read_cols_skip _ _ (1024 * (t.val % 4) + 0) _ _ _ _ b _ (offT_0 t) (Or.inr (by show 1024 * (t.val % 4) + 0 + 128 ≤ 1024 * (t.val % 4) + 768 + l.val; omega))).trans ?_
      exact read_whole _ _ hz2 _ _ _ _)
    _ _ (offT_896 t) _ (fun b l => by
      refine (ld_cols _ (1024 * (t.val % 4) + 896) _ _ b ⟨1024 * (t.val % 4) + 896 + l.val, by omega⟩ l (offT_896 t) rfl).trans ?_
      refine (read_cols_skip _ _ (1024 * (t.val % 4) + 768) _ _ _ _ b _ (offT_768 t) (Or.inr (by show 1024 * (t.val % 4) + 768 + 128 ≤ 1024 * (t.val % 4) + 896 + l.val; omega))).trans ?_
      refine (read_cols_skip _ _ (1024 * (t.val % 4) + 640) _ _ _ _ b _ (offT_640 t) (Or.inr (by show 1024 * (t.val % 4) + 640 + 128 ≤ 1024 * (t.val % 4) + 896 + l.val; omega))).trans ?_
      refine (read_cols_skip _ _ (1024 * (t.val % 4) + 512) _ _ _ _ b _ (offT_512 t) (Or.inr (by show 1024 * (t.val % 4) + 512 + 128 ≤ 1024 * (t.val % 4) + 896 + l.val; omega))).trans ?_
      refine (read_cols_skip _ _ (1024 * (t.val % 4) + 384) _ _ _ _ b _ (offT_384 t) (Or.inr (by show 1024 * (t.val % 4) + 384 + 128 ≤ 1024 * (t.val % 4) + 896 + l.val; omega))).trans ?_
      refine (read_cols_skip _ _ (1024 * (t.val % 4) + 256) _ _ _ _ b _ (offT_256 t) (Or.inr (by show 1024 * (t.val % 4) + 256 + 128 ≤ 1024 * (t.val % 4) + 896 + l.val; omega))).trans ?_
      refine (read_cols_skip _ _ (1024 * (t.val % 4) + 128) _ _ _ _ b _ (offT_128 t) (Or.inr (by show 1024 * (t.val % 4) + 128 + 128 ≤ 1024 * (t.val % 4) + 896 + l.val; omega))).trans ?_
      refine (read_cols_skip _ _ (1024 * (t.val % 4) + 0) _ _ _ _ b _ (offT_0 t) (Or.inr (by show 1024 * (t.val % 4) + 0 + 128 ≤ 1024 * (t.val % 4) + 896 + l.val; omega))).trans ?_
      exact read_whole _ _ hz2 _ _ _ _)
    b col

end Cert.KernelIdeal.Hand

end
-- ==== Proof.IdealInvariant.lean ====
/-
  The two running minima after every grid point, in terms of the argument arrays. With the point t = 4·i + j, query tile i
  and target tile j: the per-query-row buffer holds, at (b, r), the least squared distance from query row 1024·i + r to
  the target rows below 1024·(j+1); the per-target-row buffer holds, at (b, col) with col below 1024·(j+1), the least squared
  distance from target row col to the query rows of tile i, and +∞ at the later columns.
-/
import proofs.«151873_j40888088658143_2_alg».proof.Proof.IdealPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.TileIndex Cert.KernelIdeal.Tile

variable (m : (ℓ : Loc nD τ sig) → Buf (Elt Ideal) ℓ)

theorem N16 : cfg0.N = 16 := N_0

/-- The windows' block indices at the point t, decided over the grid. -/
theorem idx_facts : ∀ t : Fin cfg0.N,
    win0_0.index t (0 : Fin 3) = 0 ∧ win0_0.index t (1 : Fin 3) = t.val / 4 ∧ win0_0.index t (2 : Fin 3) = 0
    ∧ win0_1.index t (0 : Fin 3) = 0 ∧ win0_1.index t (1 : Fin 3) = t.val % 4 ∧ win0_1.index t (2 : Fin 3) = 0
    ∧ win0_2.index t (0 : Fin 2) = 0 ∧ win0_2.index t (1 : Fin 2) = t.val / 4
    ∧ win0_3.index t (0 : Fin 3) = t.val / 4 ∧ win0_3.index t (1 : Fin 3) = 0 ∧ win0_3.index t (2 : Fin 3) = 0 :=
  (by decide +kernel : ∀ t : Fin grid0.N, _)

/-- The query block at the point t is rows 1024·i … of the first argument. -/
theorem iblk0_apply (c : Dev nD) (t : Fin cfg0.N) (b : Fin 8) (r : Fin 1024) (k : Fin 2) :
    iblk m c 0 t (ix3 b r k) = V m c main_arg0 (ix3 b ⟨1024 * (t.val / 4) + r.val, by have := t.isLt; have := N16; omega⟩ k) := by
  obtain ⟨e0, e1, e2, -⟩ := idx_facts t
  show V m c main_arg0 (((cfg0.win 0).blk t).view.emb (ix3 b r k)) = _
  refine congrArg _ (funext fun a => Fin.ext ?_)
  match a with
  | ⟨0, _⟩ => show win0_0.index t (0 : Fin 3) * 8 + 1 * b.val = b.val; omega
  | ⟨1, _⟩ => show win0_0.index t (1 : Fin 3) * 1024 + 1 * r.val = 1024 * (t.val / 4) + r.val; omega
  | ⟨2, _⟩ => show win0_0.index t (2 : Fin 3) * 2 + 1 * k.val = k.val; omega

/-- The target block at the point t is rows 1024·j … of the second argument. -/
theorem iblk1_apply (c : Dev nD) (t : Fin cfg0.N) (b : Fin 8) (q : Fin 1024) (k : Fin 2) :
    iblk m c 1 t (ix3 b q k) = V m c main_arg1 (ix3 b ⟨1024 * (t.val % 4) + q.val, by omega⟩ k) := by
  obtain ⟨-, -, -, e0, e1, e2, -⟩ := idx_facts t
  show V m c main_arg1 (((cfg0.win 1).blk t).view.emb (ix3 b q k)) = _
  refine congrArg _ (funext fun a => Fin.ext ?_)
  match a with
  | ⟨0, _⟩ => show win0_1.index t (0 : Fin 3) * 8 + 1 * b.val = b.val; omega
  | ⟨1, _⟩ => show win0_1.index t (1 : Fin 3) * 1024 + 1 * q.val = 1024 * (t.val % 4) + q.val; omega
  | ⟨2, _⟩ => show win0_1.index t (2 : Fin 3) * 2 + 1 * k.val = k.val; omega

/-- The squared distance between query row n and target row mm of batch b, of the argument arrays. -/
def Dg (c : Dev nD) (b : Fin 8) (n mm : Fin 4096) : EReal :=
  dq (V m c main_arg0 (ix3 b n 0)) (V m c main_arg0 (ix3 b n 1)) (V m c main_arg1 (ix3 b mm 0)) (V m c main_arg1 (ix3 b mm 1))

theorem dTile_blk (c : Dev nD) (t : Fin cfg0.N) (b : Fin 8) (r q : Fin 1024) :
    dTile (iblk m c 0 t) (iblk m c 1 t) b r q
      = Dg m c b ⟨1024 * (t.val / 4) + r.val, by have := t.isLt; have := N16; omega⟩ ⟨1024 * (t.val % 4) + q.val, by omega⟩ := by
  unfold dTile Dg
  rw [iblk0_apply, iblk0_apply, iblk1_apply, iblk1_apply]

/-! ## The invariant -/

theorem fill3_apply (y : S8x1024.Idx) : k0_pay3 (F := Ideal) y = ⊤ := by
  unfold k0_pay3; rw [shapeCast_self]; exact top_f32
theorem fill4_apply (y : S8x4096.Idx) : k0_pay4 (F := Ideal) y = ⊤ := by
  unfold k0_pay4; rw [shapeCast_self]; exact top_f32

/-- The least squared distance from query row n to the target rows below K. -/
def rowPart (c : Dev nD) (b : Fin 8) (n : Fin 4096) (K : Nat) : EReal :=
  (Finset.univ.filter fun mm : Fin 4096 => mm.val < K).inf fun mm => Dg m c b n mm
/-- The least squared distance from target row col to the query rows of tile i. -/
def colPart (c : Dev nD) (b : Fin 8) (i : Nat) (hi : i < 4) (col : Fin 4096) : EReal :=
  (Finset.univ : Finset (Fin 1024)).inf fun r => Dg m c b ⟨1024 * i + r.val, by omega⟩ col

/-- One point's eight blocks extend the per-query-row minimum from the target rows below 1024·j to those below 1024·(j+1). -/
theorem row_step (c : Dev nD) (t : Fin cfg0.N) (i j : Nat) (ht : t.val = 4 * i + j) (hj : j < 4) (hi : i < 4)
    (a : Vec Ideal S8x1024 .f32)
    (ha : ∀ (b : Fin 8) (r : Fin 1024), a (ix2 b r) = rowPart m c b ⟨1024 * i + r.val, by omega⟩ (1024 * j))
    (b : Fin 8) (r : Fin 1024) :
    chainX (F := Ideal) (iblk m c 0 t) (iblk m c 1 t) a (ix2 b r) = rowPart m c b ⟨1024 * i + r.val, by omega⟩ (1024 * (j + 1)) := by
  rw [chainX_apply, ha]
  unfold rowInf rowPart
  simp only [dTile_blk]
  have e1 : t.val / 4 = i := by omega
  have e2 : t.val % 4 = j := by omega
  have := inf_extend (fun mm => Dg m c b ⟨1024 * i + r.val, by omega⟩ mm) j hj
  refine Eq.trans ?_ this
  refine congrArg (min _) (congrArg (Finset.inf Finset.univ) (funext fun q => ?_))
  exact congr (congrArg (Dg m c b) (Fin.ext (by show 1024 * (t.val / 4) + r.val = 1024 * i + r.val; rw [e1]))) (Fin.ext (by show 1024 * (t.val % 4) + q.val = 1024 * j + q.val; rw [e2]))

/-- and fill the per-target-row minimum on the columns of target tile j. -/
theorem band_step (c : Dev nD) (t : Fin cfg0.N) (i j : Nat) (ht : t.val = 4 * i + j) (hj : j < 4) (hi : i < 4)
    (old : Vec Ideal S8x4096 .f32)
    (hold : ∀ (b : Fin 8) (col : Fin 4096), old (ix2 b col) = if col.val < 1024 * j then colPart m c b i hi col else ⊤)
    (b : Fin 8) (col : Fin 4096) :
    bandMin (iblk m c 0 t) (iblk m c 1 t) old (t.val % 4) b col = if col.val < 1024 * (j + 1) then colPart m c b i hi col else ⊤ := by
  have e1 : t.val / 4 = i := by omega
  have e2 : t.val % 4 = j := by omega
  unfold bandMin
  rw [hold]
  by_cases hb : 1024 * (t.val % 4) ≤ col.val ∧ col.val < 1024 * (t.val % 4) + 1024
  · rw [dif_pos hb, if_neg (by omega), if_pos (by omega), min_eq_right le_top]
    unfold colInf colPart
    simp only [dTile_blk]
    refine congrArg (Finset.inf Finset.univ) (funext fun r => ?_)
    exact congr (congrArg (Dg m c b) (Fin.ext (by show 1024 * (t.val / 4) + r.val = 1024 * i + r.val; rw [e1]))) (Fin.ext (by show 1024 * (t.val % 4) + (col.val - 1024 * (t.val % 4)) = col.val; omega))
  · rw [dif_neg hb]
    by_cases hc : col.val < 1024 * j
    · rw [if_pos hc, if_pos (by omega)]
    · rw [if_neg hc, if_neg (by omega)]

/-- What the two buffers hold after the point n = 4·i + j. -/
def InvAt (c : Dev nD) (n : ℕ) (hn : n < cfg0.N) : Prop :=
  ∀ (i j : Nat) (hnij : n = 4 * i + j) (hj : j < 4) (hi : i < 4),
    (∀ (b : Fin 8) (r : Fin 1024), (scAt m c n hn).1 (ix2 b r) = rowPart m c b ⟨1024 * i + r.val, by omega⟩ (1024 * (j + 1)))
    ∧ (∀ (b : Fin 8) (col : Fin 4096), (scAt m c n hn).2 (ix2 b col) = if col.val < 1024 * (j + 1) then colPart m c b i hi col else ⊤)

theorem inv_first (c : Dev nD) (t : Fin cfg0.N) (h0 : t.val % 4 = 0) : InvAt m c t.val t.isLt := by
  intro i j hnij hj hi
  have hj0 : j = 0 := by omega
  subst hj0
  rw [scAt_first m c t h0]
  constructor
  · intro b r
    rw [firstX_eq]
    exact row_step m c t i 0 hnij hj hi _ (fun b r => (fill3_apply _).trans (inf_none _).symm) b r
  · intro b col
    rw [firstT_apply]
    exact band_step m c t i 0 hnij hj hi _ (fun b col => (fill4_apply _).trans (if_neg (by omega)).symm) b col

theorem inv_step (c : Dev nD) (t : Fin cfg0.N) (h0 : ¬t.val % 4 = 0)
    (hprev : InvAt m c (t.val - 1) (Nat.lt_of_le_of_lt (Nat.sub_le _ _) t.isLt)) : InvAt m c t.val t.isLt := by
  intro i j hnij hj hi
  obtain ⟨hX, hT⟩ := hprev i (j - 1) (by omega) (by omega) hi
  have ej : j - 1 + 1 = j := by omega
  rw [ej] at hX hT
  by_cases h3 : t.val % 4 = 3
  · rw [scAt_last m c t h0 h3]
    constructor
    · intro b r
      rw [lastX_eq]
      exact row_step m c t i j hnij hj hi _ hX b r
    · intro b col
      rw [lastT_apply]
      exact band_step m c t i j hnij hj hi _ hT b col
  · rw [scAt_mid m c t h0 h3]
    constructor
    · intro b r
      rw [midX_eq]
      exact row_step m c t i j hnij hj hi _ hX b r
    · intro b col
      rw [midT_apply]
      exact band_step m c t i j hnij hj hi _ hT b col

theorem inv_all (c : Dev nD) : ∀ (n : ℕ) (hn : n < cfg0.N), InvAt m c n hn := by
  intro n
  induction n with
  | zero => intro hn; exact inv_first m c ⟨0, hn⟩ rfl
  | succ n ih =>
    intro hn
    by_cases h0 : (n + 1) % 4 = 0
    · exact inv_first m c ⟨n + 1, hn⟩ h0
    · exact inv_step m c ⟨n + 1, hn⟩ h0 (ih (Nat.lt_of_succ_lt hn))

end Cert.KernelIdeal.Hand

end
-- ==== Proof.IdealOutputs.lean ====
/-
  The two result arrays after the run. The output blocks are stored only where j = 3, as the square roots of the two
  completed running minima of query tile i; so the first result holds, at (b, n), the root of the least squared distance
  from query row n to all target rows, and the second, at (i, b, col), the root of the least squared distance from target
  row col to the query rows of tile i.
-/
import proofs.«151873_j40888088658143_2_alg».proof.Proof.IdealInvariant

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.TileIndex Cert.KernelIdeal.Tile

section Structural
variable {F : FTy → Type} [FloatOps F] (m : (ℓ : Loc nD τ sig) → Buf (Elt F) ℓ)

theorem lastOut1_eq (c : Dev nD) (t : Fin cfg0.N) (h0 : ¬condFirst (grid0.coords t)) (h1 : condLast (grid0.coords t))
    (xs : Vec F S8x1024 .f32 × Vec F S8x4096 .f32) :
    (lastOut m c t h0 h1 xs).1 = k0_pay1 (chainX (iblk m c 0 t) (iblk m c 1 t) xs.1) := by
  unfold lastOut; dsimp only
  rw [View.read_writes_eq_canon _ _ _ (cover2_last m c t h0 h1 xs)]
  unfold rL runLast; dsimp only
  sl_unfold_words
  rw [View.canon_unit_zero hz2]
  simp only [View.readCov_cons_toLoadRect, View.readAt_eq_ld, Memref.IsWhole.read_unread, View.ld_unit_zero (S := S8x1024x2) hz3, View.ld_unit_zero (S := S8x1024) hz2]
  rw [show View.read (Elt F) (View.whole cc0_scratch0) (wX.unread xs.1) = xs.1 from wX.read_unread xs.1]
  unfold chainX
  rfl

theorem lastOut2_eq (c : Dev nD) (t : Fin cfg0.N) (h0 : ¬condFirst (grid0.coords t)) (h1 : condLast (grid0.coords t))
    (xs : Vec F S8x1024 .f32 × Vec F S8x4096 .f32) :
    (lastOut m c t h0 h1 xs).2 = k0_pay2 ((lastSc m c t h0 h1 xs).2) := by
  unfold lastOut lastSc; dsimp only
  rw [View.read_writes_eq_canon _ _ _ (cover3_last m c t h0 h1 xs)]
  unfold rL runLast; dsimp only
  sl_unfold_words
  rw [View.canon_unit_zero hz3]
  simp only [View.readAt_eq_ld, View.ld_unit_zero (S := S8x4096) hz2]

end Structural

variable (m : (ℓ : Loc nD τ sig) → Buf (Elt Ideal) ℓ)

theorem root1_apply (v : Vec Ideal S8x1024 .f32) (y : S8x1024.Idx) : k0_pay1 (F := Ideal) v y = Ideal.sqrt (v y) := rfl

theorem root2_apply (v : Vec Ideal S8x4096 .f32) (z : Fin 1) (b : Fin 8) (col : Fin 4096) :
    k0_pay2 (F := Ideal) v (ix3 z b col) = Ideal.sqrt (v (ix2 b col)) := by
  unfold k0_pay2
  refine (shapeCast_apply _ _ (ix3 z b col) (ix2 b col) ?_).trans rfl
  rw [Shape.rowMajor_val_two, Shape.rowMajor_val_three]
  show b.val * 4096 + col.val = (z.val * 8 + b.val) * 4096 + col.val
  have hz : z.val = 0 := by omega
  rw [hz]; omega

/-- The least squared distance from query row n to all target rows, and its root. -/
def rowAll (c : Dev nD) (b : Fin 8) (n : Fin 4096) : EReal := (Finset.univ : Finset (Fin 4096)).inf fun mm => Dg m c b n mm

/-- The first output block at a point with j = 3. -/
theorem out2_apply (c : Dev nD) (t : Fin cfg0.N) (i : Nat) (ht : t.val = 4 * i + 3) (hi : i < 4) (b : Fin 8) (r : Fin 1024) :
    (outAt m c t).1 (ix2 b r) = Ideal.sqrt (rowAll m c b ⟨1024 * i + r.val, by omega⟩) := by
  have h0 : ¬t.val % 4 = 0 := by omega
  have h3 : t.val % 4 = 3 := by omega
  obtain ⟨hX, -⟩ := inv_all m c t.val t.isLt i 3 ht (by omega) hi
  rw [scAt_last m c t h0 h3, lastX_eq] at hX
  rw [outAt_last m c t h0 h3, lastOut1_eq, root1_apply, hX b r]
  unfold rowPart rowAll
  rw [inf_all]

/-- The second output block at a point with j = 3. -/
theorem out3_apply (c : Dev nD) (t : Fin cfg0.N) (i : Nat) (ht : t.val = 4 * i + 3) (hi : i < 4) (z : Fin 1) (b : Fin 8) (col : Fin 4096) :
    (outAt m c t).2 (ix3 z b col) = Ideal.sqrt (colPart m c b i hi col) := by
  have h0 : ¬t.val % 4 = 0 := by omega
  have h3 : t.val % 4 = 3 := by omega
  obtain ⟨-, hT⟩ := inv_all m c t.val t.isLt i 3 ht (by omega) hi
  rw [scAt_last m c t h0 h3] at hT
  rw [outAt_last m c t h0 h3, lastOut2_eq, root2_apply, hT b col, if_pos (by omega)]

end Cert.KernelIdeal.Hand

end
-- ==== Proof.IdealArrays.lean ====
/-
  From the blocks written back where j = 3 to the two result arrays after the run: the blocks of query tile i are rows
  1024·i … of the first result and slab i of the second, and the four tiles cover both arrays.
-/
import proofs.«151873_j40888088658143_2_alg».proof.Proof.IdealOutputs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.TileIndex Cert.KernelIdeal.Tile

variable (m : (ℓ : Loc nD τ sig) → Buf (Elt Ideal) ℓ)

/-- The first result: at (b, n) the root of the least squared distance from query row n to all target rows. -/
def res1 (c : Dev nD) : S8x4096.Idx → EReal := fun y => Ideal.sqrt (rowAll m c (y 0) (y 1))
/-- The second: at (i, b, col) the root of the least squared distance from target row col to the query rows of tile i. -/
def res2 (c : Dev nD) : S4x8x4096.Idx → EReal := fun y => Ideal.sqrt (colPart m c (y 1) (y 0).val (y 0).isLt (y 2))

theorem out2_gen (c : Dev nD) (t : Fin cfg0.N) (i : Nat) (ht : t.val = 4 * i + 3) (hi : i < 4) (y : S8x1024.Idx) :
    (outAt m c t).1 y = Ideal.sqrt (rowAll m c (y 0) ⟨1024 * i + (y 1).val, by have h1 : (y 1).val < 1024 := (y 1).isLt; omega⟩) :=
  (congrArg (outAt m c t).1 (eq_ix2 y)).trans (out2_apply m c t i ht hi (y 0) (y 1))
theorem out3_gen (c : Dev nD) (t : Fin cfg0.N) (i : Nat) (ht : t.val = 4 * i + 3) (hi : i < 4) (y : S1x8x4096.Idx) :
    (outAt m c t).2 y = Ideal.sqrt (colPart m c (y 1) i hi (y 2)) :=
  (congrArg (outAt m c t).2 (eq_ix3 y)).trans (out3_apply m c t i ht hi (y 0) (y 1) (y 2))

theorem flushed2_eq (c : Dev nD) (t : Fin cfg0.N) (hf : (cfg0.win 2).flush t = true) :
    (dats m 0 c).flushed 2 t = ((cfg0.win 2).blk t).view.read (Elt Ideal) (res1 m c) := by
  have h3 : t.val % 4 = 3 := (flush0_2 t).mp hf
  have hN := t.isLt; have hN16 := N16
  obtain ⟨-, -, -, -, -, -, e0, e1, -⟩ := idx_facts t
  show (cfg0.win 2).cut (grid0.coords t) ((dats m 0 c).after 2 t) = _
  rw [after2]
  funext y
  refine (out2_gen m c t (t.val / 4) (by omega) (by omega) y).trans ?_
  show _ = res1 m c (((cfg0.win 2).blk t).view.emb y)
  unfold res1
  refine congrArg Ideal.sqrt (congr (congrArg (rowAll m c) (Fin.ext ?_)) (Fin.ext ?_))
  · show (y 0).val = win0_2.index t (0 : Fin 2) * 8 + 1 * (y 0).val; omega
  · show 1024 * (t.val / 4) + (y 1).val = win0_2.index t (1 : Fin 2) * 1024 + 1 * (y 1).val; omega

theorem flushed3_eq (c : Dev nD) (t : Fin cfg0.N) (hf : (cfg0.win 3).flush t = true) :
    (dats m 0 c).flushed 3 t = ((cfg0.win 3).blk t).view.read (Elt Ideal) (res2 m c) := by
  have h3 : t.val % 4 = 3 := (flush0_3 t).mp hf
  have hN := t.isLt; have hN16 := N16
  obtain ⟨-, -, -, -, -, -, -, -, e0, e1, e2⟩ := idx_facts t
  show (cfg0.win 3).cut (grid0.coords t) ((dats m 0 c).after 3 t) = _
  rw [after3]
  funext y
  refine (out3_gen m c t (t.val / 4) (by omega) (by omega) y).trans ?_
  show _ = res2 m c (((cfg0.win 3).blk t).view.emb y)
  unfold res2 colPart
  have hy0 : (y 0).val = 0 := by have h1 : (y 0).val < 1 := (y 0).isLt; omega
  refine congrArg Ideal.sqrt ?_
  refine congrArg (Finset.inf Finset.univ) (funext fun r => ?_)
  refine congr (congr (congrArg (Dg m c) (Fin.ext ?_)) (Fin.ext ?_)) (Fin.ext ?_)
  · show (y 1).val = win0_3.index t (1 : Fin 3) * 8 + 1 * (y 1).val; omega
  · show 1024 * (t.val / 4) + r.val = 1024 * (win0_3.index t (0 : Fin 3) * 1 + 1 * (y 0).val) + r.val; rw [hy0]; omega
  · show (y 2).val = win0_3.index t (2 : Fin 3) * 4096 + 1 * (y 2).val; omega

theorem mem_blk2 (t : Fin cfg0.N) (i : S8x4096.Idx) :
    i ∈ ((cfg0.win 2).blk t).view.set ↔ ∀ a : Fin 2, win0_2.index t a * S8x1024.size a ≤ (i a).val ∧ (i a).val < win0_2.index t a * S8x1024.size a + S8x1024.size a := by
  show i ∈ ((View.whole main_v0_0).slice (win0_2.rect t)).set ↔ _
  rw [View.set_slice_whole, Rect.mem_set_unit]
  exact Iff.rfl
theorem mem_blk3 (t : Fin cfg0.N) (i : S4x8x4096.Idx) :
    i ∈ ((cfg0.win 3).blk t).view.set ↔ ∀ a : Fin 3, win0_3.index t a * S1x8x4096.size a ≤ (i a).val ∧ (i a).val < win0_3.index t a * S1x8x4096.size a + S1x8x4096.size a := by
  show i ∈ ((View.whole main_v0_1).slice (win0_3.rect t)).set ↔ _
  rw [View.set_slice_whole, Rect.mem_set_unit]
  exact Iff.rfl

theorem cover2 (i : S8x4096.Idx) : ∃ t : Fin cfg0.N, (cfg0.win 2).flush t = true ∧ i ∈ ((cfg0.win 2).blk t).view.set := by
  have h0 : (i 0).val < 8 := (i 0).isLt
  have h1 : (i 1).val < 4096 := (i 1).isLt
  have hN16 := N16
  refine ⟨⟨4 * ((i 1).val / 1024) + 3, by omega⟩, (flush0_2 _).mpr (by show (4 * ((i 1).val / 1024) + 3) % 4 = 3; omega), ?_⟩
  obtain ⟨-, -, -, -, -, -, e0, e1, -⟩ := idx_facts ⟨4 * ((i 1).val / 1024) + 3, by omega⟩
  rw [mem_blk2]
  intro a
  match a with
  | ⟨0, _⟩ => show win0_2.index _ (0 : Fin 2) * 8 ≤ (i 0).val ∧ (i 0).val < win0_2.index _ (0 : Fin 2) * 8 + 8; rw [e0]; omega
  | ⟨1, _⟩ => show win0_2.index _ (1 : Fin 2) * 1024 ≤ (i 1).val ∧ (i 1).val < win0_2.index _ (1 : Fin 2) * 1024 + 1024; rw [e1]; show (4 * ((i 1).val / 1024) + 3) / 4 * 1024 ≤ _ ∧ _ < (4 * ((i 1).val / 1024) + 3) / 4 * 1024 + 1024; omega

theorem cover3 (i : S4x8x4096.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 4096 := (i 2).isLt
  have hN16 := N16
  refine ⟨⟨4 * (i 0).val + 3, by omega⟩, (flush0_3 _).mpr (by show (4 * (i 0).val + 3) % 4 = 3; omega), ?_⟩
  obtain ⟨-, -, -, -, -, -, -, -, e0, e1, e2⟩ := idx_facts ⟨4 * (i 0).val + 3, by omega⟩
  rw [mem_blk3]
  intro a
  match a with
  | ⟨0, _⟩ => show win0_3.index _ (0 : Fin 3) * 1 ≤ (i 0).val ∧ (i 0).val < win0_3.index _ (0 : Fin 3) * 1 + 1; rw [e0]; show (4 * (i 0).val + 3) / 4 * 1 ≤ _ ∧ _ < (4 * (i 0).val + 3) / 4 * 1 + 1; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 4096 ≤ (i 2).val ∧ (i 2).val < win0_3.index _ (2 : Fin 3) * 4096 + 4096; rw [e2]; omega

/-- The two result arrays after the run. -/
theorem final1 (c : Dev nD) : (dats m 0 c).arrAt 2 cfg0.N = res1 m c :=
  (dats m 0 c).arrAt_eq_of_cover 2 (res1 m c) (fun t hf => flushed2_eq m c t hf) cover2
theorem final2 (c : Dev nD) : (dats m 0 c).arrAt 3 cfg0.N = res2 m c :=
  (dats m 0 c).arrAt_eq_of_cover 3 (res2 m c) (fun t hf => flushed3_eq m c t hf) cover3

end Cert.KernelIdeal.Hand

end
-- ==== Proof.IdealRun.lean ====
/-
  The idealized kernel's program, run: its result is the host lines after the region applied to the two result arrays —
  the minimum over the four query tiles of the second, both summed and divided by their common count, the two means added.
-/
import proofs.«151873_j40888088658143_2_alg».proof.Proof.IdealArrays

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.TileIndex Cert.KernelIdeal.Tile

variable (m : (ℓ : Loc nD τ sig) → Buf (Elt Ideal) ℓ) (ρ : Dev nD → PrngReg)

/-- The host lines after the region, as a function of the two result arrays. -/
def tailVal (a1 : Vec Ideal S4x8x4096 .f32) (a0 : Vec Ideal S8x4096 .f32) : Vec Ideal S_ .f32 :=
  addf (Host.divf (Host.reduceAdd (Host.reduce FloatOps.minimumf a1 (constant (F := Ideal) S_ .f32 0x7F800000#32) reducesTo_S4x8x4096_S8x4096_d0 h_S_)
      (constant (F := Ideal) S_ .f32 0x00000000#32) reducesTo_S8x4096_S_d0_1 h_S_) (constant (F := Ideal) S_ .f32 0x47000000#32))
    (Host.divf (Host.reduceAdd a0 (constant (F := Ideal) S_ .f32 0x00000000#32) reducesTo_S8x4096_S_d0_1 h_S_) (constant (F := Ideal) S_ .f32 0x47000000#32))

theorem main_v6_rest : main_v6 ∈ Pipeline.restRefs sig spec0 := Pipeline.mem_restRefs_of main_v6 rfl (by decide)

theorem tail_eq (c : Dev nD) :
    Pipeline.afterTail₀ cfgs (dats m) 0 (V0 m) [hostOps1] c main_v6 = tailVal (res2 m c) (res1 m c) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v0_1) = res2 m c from
        (Pipeline.withArrays_arr spec0 winFacts0.arr_inj c _ _ 3).trans (final2 m c),
      show Pipeline.withArrays (cfgs 0).spec c (V0 m c) (fun w => (dats m 0 c).arrAt w (cfgs 0).N) (Proc.devRef .tc main_v0_0) = res1 m c from
        (Pipeline.withArrays_arr spec0 winFacts0.arr_inj c _ _ 2).trans (final1 m c)]
  rfl

/-- Every weakly fair execution of the idealized kernel's program terminates with this result, the arguments unchanged. -/
theorem kernel_run : θ_run defs (onTc (τ := τ) (main (F := Ideal))) ⟨m, fun _ => 0, ρ⟩ (fun r => ∀ c : Dev nD,
      r.2.mem ((c.tc : Thread nD τ).loc main_v6) = tailVal (res2 m c) (res1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v6 main_v6_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Hand

end
-- ==== Proof.Bridge.lean ====
/-
  The facts that join the two programs' values. The kernel takes, per target row, the minimum over the four query tiles
  of the roots of the tiles' least squared distances; the reference the root of the least over all query rows: the root
  is monotone, so these agree. The kernel squares coordinate differences; the reference expands the square, and floors
  the result at 0: over finite coordinates the two are one real number, which is nonnegative.
-/
import proofs.«151873_j40888088658143_2_alg».proof.Proof.TileIndex

noncomputable section

namespace Cert.Bridge

open Idealize.ShloMosaic Idealize.ShloMosaic.ValueIdx Cert.TileIndex

abbrev S4bc : Shape := ⟨3, ![4, 8, 4096]⟩
abbrev Sbnm : Shape := ⟨3, ![8, 4096, 4096]⟩
abbrev S0 : Shape := ⟨0, ![]⟩

/-- The host's minimum over the four query tiles, from +∞. -/
theorem host_min_tiles (x : FVec Ideal S4bc .f32) (init : FVec Ideal S0 .f32) (hinit : ∀ y, init y = ⊤)
    (h' : S4bc.ReducesTo [0] Sbc) (hu : 0 < S0.numel) (b : Fin 8) (col : Fin 4096) :
    Host.reduce (FloatOps.minimumf (F := Ideal) (φ := .f32)) x init h' hu (ix2 b col)
      = (Finset.univ : Finset (Fin 4)).inf fun k => x (ix3 k b col) := by
  have h : S4bc.Reduces [0] Sbc := by decide
  rw [Host.reduce_eq_fold_single _ x init h' h hu (ix2 b col), hinit, Finset.inf_def]
  have e : (x ∘ h.lift (ix2 b col)) = fun k : Fin 4 => x (ix3 k b col) := funext fun k => congrArg x (funext fun a => Fin.ext (by
    match a with
    | ⟨0, _⟩ => rfl
    | ⟨1, _⟩ => rfl
    | ⟨2, _⟩ => rfl))
  rw [e]; rfl

/-- The host's minimum over all query rows, from +∞. -/
theorem host_min_queries (x : FVec Ideal Sbnm .f32) (init : FVec Ideal S0 .f32) (hinit : ∀ y, init y = ⊤)
    (h' : Sbnm.ReducesTo [1] Sbc) (hu : 0 < S0.numel) (b : Fin 8) (mm : Fin 4096) :
    Host.reduce (FloatOps.minimumf (F := Ideal) (φ := .f32)) x init h' hu (ix2 b mm)
      = (Finset.univ : Finset (Fin 4096)).inf fun k => x (ix3 b k mm) := by
  have h : Sbnm.Reduces [1] Sbc := by decide
  rw [Host.reduce_eq_fold_single _ x init h' h hu (ix2 b mm), hinit, Finset.inf_def]
  have e : (x ∘ h.lift (ix2 b mm)) = fun k : Fin 4096 => x (ix3 b k mm) := funext fun k => congrArg x (funext fun a => Fin.ext (by
    match a with
    | ⟨0, _⟩ => rfl
    | ⟨1, _⟩ => rfl
    | ⟨2, _⟩ => rfl))
  rw [e]; rfl

/-- The host's minimum over all target rows, from +∞. -/
theorem host_min_targets (x : FVec Ideal Sbnm .f32) (init : FVec Ideal S0 .f32) (hinit : ∀ y, init y = ⊤)
    (h' : Sbnm.ReducesTo [2] Sbc) (hu : 0 < S0.numel) (b : Fin 8) (n : Fin 4096) :
    Host.reduce (FloatOps.minimumf (F := Ideal) (φ := .f32)) x init h' hu (ix2 b n)
      = (Finset.univ : Finset (Fin 4096)).inf fun k => x (ix3 b n k) := by
  have h : Sbnm.Reduces [2] Sbc := by decide
  rw [Host.reduce_eq_fold_single _ x init h' h hu (ix2 b n), hinit, Finset.inf_def]
  have e : (x ∘ h.lift (ix2 b n)) = fun k : Fin 4096 => x (ix3 b n k) := funext fun k => congrArg x (funext fun a => Fin.ext (by
    match a with
    | ⟨0, _⟩ => rfl
    | ⟨1, _⟩ => rfl
    | ⟨2, _⟩ => rfl))
  rw [e]; rfl

/-- Four tiles of 1024 query rows are all 4096. -/
theorem inf_tiles (f : Fin 4096 → EReal) :
    ((Finset.univ : Finset (Fin 4)).inf fun i => (Finset.univ : Finset (Fin 1024)).inf fun r => f ⟨1024 * i.val + r.val, by omega⟩)
      = (Finset.univ : Finset (Fin 4096)).inf f := by
  apply le_antisymm
  · refine Finset.le_inf fun q _ => ?_
    refine (Finset.inf_le (Finset.mem_univ (⟨q.val / 1024, by omega⟩ : Fin 4))).trans ?_
    refine (Finset.inf_le (f := fun r : Fin 1024 => f ⟨1024 * (q.val / 1024) + r.val, by omega⟩) (Finset.mem_univ (⟨q.val % 1024, by omega⟩ : Fin 1024))).trans ?_
    exact le_of_eq (congrArg f (Fin.ext (by show 1024 * (q.val / 1024) + q.val % 1024 = q.val; omega)))
  · exact Finset.le_inf fun i _ => Finset.le_inf fun r _ => Finset.inf_le (Finset.mem_univ _)

theorem ofBits_two : Ideal.ofBits .f32 0x40000000#32 = ((2 : ℝ) : EReal) := by
  simp [Ideal.ofBits, Ideal.ieee, -EReal.coe_mul]; norm_num

/-- The expanded square, floored at 0, is the sum of the squared coordinate differences. -/
theorem dist_expand (α0 α1 β0 β1 : ℝ) :
    max ((((0 : EReal) + ((α0 : EReal) * α0 + (α1 : EReal) * α1)) + ((0 : EReal) + ((β0 : EReal) * β0 + (β1 : EReal) * β1)))
          - ((2 : ℝ) : EReal) * ((α0 : EReal) * β0 + (α1 : EReal) * β1)) 0
      = ((α0 : EReal) - β0) * ((α0 : EReal) - β0) + ((α1 : EReal) - β1) * ((α1 : EReal) - β1) := by
  have h : (0 + (α0 * α0 + α1 * α1)) + (0 + (β0 * β0 + β1 * β1)) - 2 * (α0 * β0 + α1 * β1) = (α0 - β0) * (α0 - β0) + (α1 - β1) * (α1 - β1) := by ring
  have hn : (0 : ℝ) ≤ (α0 - β0) * (α0 - β0) + (α1 - β1) * (α1 - β1) := by nlinarith [mul_self_nonneg (α0 - β0), mul_self_nonneg (α1 - β1)]
  rw [← EReal.coe_zero]
  simp only [← EReal.coe_mul, ← EReal.coe_add, ← EReal.coe_sub]
  rw [h, max_eq_left (EReal.coe_le_coe_iff.mpr hn)]

/-- An element whose absolute value compares below +∞ is a real number. -/
theorem real_of_abs_lt_top (a : EReal) (h : Ideal.cmp .olt (max a (-a)) ⊤ = 1#1) : ∃ α : ℝ, a = (α : EReal) := by
  induction a using EReal.rec with
  | bot => simp [Ideal.cmp] at h
  | top => simp [Ideal.cmp] at h
  | coe r => exact ⟨r, rfl⟩

end Cert.Bridge

end
-- ==== Proof.RefValue.lean ====
/-
  The reference's two root-of-minimum arrays at coordinates. Its squared-distance tensor is the expanded square
  x² + t² − 2·x·t floored at 0; over finite inputs each entry is the sum of the squared coordinate differences.
-/
import proofs.«151873_j40888088658143_2_alg».proof.Proof.Gen.ReferenceIdeal.Read
import proofs.«151873_j40888088658143_2_alg».proof.Proof.Bridge

noncomputable section

namespace Cert.ReferenceIdeal.RefValue

open Cert.ReferenceIdeal Cert.ReferenceIdeal.Gen Cert.ReferenceIdeal.Read Idealize.ShloMosaic Idealize.ShloMosaic.ValueIdx Cert.TileIndex Cert.Bridge

variable (x0 x1 : (⟨S8x4096x2, .f32⟩ : BufTy).Contents (Elt Ideal))

/-- The squared distance between query row n and target row mm of batch b. -/
def sqDist (b : Fin 8) (n mm : Fin 4096) : EReal :=
  (x0 (ix3 b n 0) - x1 (ix3 b mm 0)) * (x0 (ix3 b n 0) - x1 (ix3 b mm 0)) + (x0 (ix3 b n 1) - x1 (ix3 b mm 1)) * (x0 (ix3 b n 1) - x1 (ix3 b mm 1))

theorem d2_apply (hx0 : ∀ y, ∃ α : ℝ, x0 y = (α : EReal)) (hx1 : ∀ y, ∃ β : ℝ, x1 y = (β : EReal)) (b : Fin 8) (n mm : Fin 4096) :
    val_main_v14 (F := Ideal) x0 x1 (ix3 b n mm) = sqDist x0 x1 b n mm := by
  obtain ⟨α0, h0⟩ := hx0 (ix3 b n 0)
  obtain ⟨α1, h1⟩ := hx0 (ix3 b n 1)
  obtain ⟨β0, g0⟩ := hx1 (ix3 b mm 0)
  obtain ⟨β1, g1⟩ := hx1 (ix3 b mm 1)
  have i1 : ∀ k : Fin 2, idx_main_v1 (idx_main_v5 (idx_main_v7 (ix3 b n mm))) k = ix3 b n k := fun k => funext fun a => Fin.ext (by
    match a with | ⟨0, _⟩ => rfl | ⟨1, _⟩ => rfl | ⟨2, _⟩ => rfl)
  have i3 : ∀ k : Fin 2, idx_main_v3 (idx_main_v6 (idx_main_v8 (ix3 b n mm))) k = ix3 b mm k := fun k => funext fun a => Fin.ext (by
    match a with | ⟨0, _⟩ => rfl | ⟨1, _⟩ => rfl | ⟨2, _⟩ => rfl)
  have il : ∀ k : Fin 2, lidx_main_v4 (ix3 b n mm) k = ix3 b n k := fun k => funext fun a => Fin.ext (by
    match a with | ⟨0, _⟩ => rfl | ⟨1, _⟩ => rfl | ⟨2, _⟩ => rfl)
  have ir : ∀ k : Fin 2, ridx_main_v4 (ix3 b n mm) k = ix3 b mm k := fun k => funext fun a => Fin.ext (by
    match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply, val_main_v13_apply]
  simp only [val_main_v0_apply, val_main_v2_apply, val_main_cst_apply, val_main_cst_0_apply, val_main_cst_1_apply, val_main_cst_2_apply,
    Fin.sum_univ_two, i1, i3, il, ir, Ideal.ofBits_def, Ideal.addf_def, Ideal.subf_def, Ideal.mulf_def, Ideal.maximumf_def]
  unfold sqDist
  rw [h0, h1, g0, g1, ofBits_two, Ideal.ofBits_zero_f32]
  exact dist_expand α0 α1 β0 β1

/-- The reference's distance from each target row to its nearest query row. -/
theorem v16_apply (hx0 : ∀ y, ∃ α : ℝ, x0 y = (α : EReal)) (hx1 : ∀ y, ∃ β : ℝ, x1 y = (β : EReal)) (b : Fin 8) (mm : Fin 4096) :
    val_main_v16 (F := Ideal) x0 x1 (ix2 b mm) = Ideal.sqrt ((Finset.univ : Finset (Fin 4096)).inf fun n => sqDist x0 x1 b n mm) := by
  rw [val_main_v16_apply, Ideal.hostUnary_sqrt_def]
  unfold val_main_v15
  refine (congrArg Ideal.sqrt (host_min_queries _ _ (fun y => top_f32) _ _ b mm)).trans ?_
  simp only [d2_apply x0 x1 hx0 hx1]

/-- The reference's distance from each query row to its nearest target row. -/
theorem v18_apply (hx0 : ∀ y, ∃ α : ℝ, x0 y = (α : EReal)) (hx1 : ∀ y, ∃ β : ℝ, x1 y = (β : EReal)) (b : Fin 8) (n : Fin 4096) :
    val_main_v18 (F := Ideal) x0 x1 (ix2 b n) = Ideal.sqrt ((Finset.univ : Finset (Fin 4096)).inf fun mm => sqDist x0 x1 b n mm) := by
  rw [val_main_v18_apply, Ideal.hostUnary_sqrt_def]
  unfold val_main_v17
  refine (congrArg Ideal.sqrt (host_min_targets _ _ (fun y => top_f32) _ _ b n)).trans ?_
  simp only [d2_apply x0 x1 hx0 hx1]

/-- The reference's result from those two arrays. -/
theorem v23_eq : val_main_v23 (F := Ideal) x0 x1
    = addf (Host.divf (Host.reduceAdd (val_main_v16 (F := Ideal) x0 x1) (constant (F := Ideal) S_ .f32 0x00000000#32) reducesTo_S8x4096_S_d0_1 h_S_) (constant (F := Ideal) S_ .f32 0x47000000#32))
        (Host.divf (Host.reduceAdd (val_main_v18 (F := Ideal) x0 x1) (constant (F := Ideal) S_ .f32 0x00000000#32) reducesTo_S8x4096_S_d0_1 h_S_) (constant (F := Ideal) S_ .f32 0x47000000#32)) := rfl

end Cert.ReferenceIdeal.RefValue

end
-- ==== Proof.Finite.lean ====
/-
  The precondition, read: every coordinate of both inputs is a real number.
-/
import proofs.«151873_j40888088658143_2_alg».proof.Pre_finite_inputs
import proofs.«151873_j40888088658143_2_alg».proof.Proof.Bridge
import Idealize.ShloMosaic.Lib.ReduceAll
import Idealize.ShloMosaic.Lib.Affine

noncomputable section

namespace Cert.Pre_finite_inputs.Finite

open Idealize.ShloMosaic Idealize.ShloMosaic.ValueIdx Cert.TileIndex Cert.Bridge Cert.Pre_finite_inputs

variable [Cert.Pre_finite_inputs.Facts]

theorem real_of_pre (x0 x1 : FVec Ideal S8x4096x2 .f32) (h : Cert.Pre_finite_inputs.fn (F := Ideal) x0 x1 = fun _ => 1#1) :
    (∀ y, ∃ α : ℝ, x0 y = (α : EReal)) ∧ (∀ y, ∃ β : ℝ, x1 y = (β : EReal)) := by
  have h0 := congrFun h ix0
  dsimp only [Cert.Pre_finite_inputs.fn] at h0
  obtain ⟨ha, hb⟩ := IntOp.andi_eq_one.mp h0
  haveI : Subsingleton S_.Idx := ⟨fun a b => funext fun d => d.elim0⟩
  constructor
  · intro y
    have e := Host.reduce_andi_all _ _ _ _ _ ha y
    exact real_of_abs_lt_top (x0 y) (by simpa [cmpf, Host.absf, broadcastInDim, constant, Ideal.cmpf_def, Ideal.absf_def, top_f32] using e)
  · intro y
    have e := Host.reduce_andi_all _ _ _ _ _ hb y
    exact real_of_abs_lt_top (x1 y) (by simpa [cmpf, Host.absf, broadcastInDim, constant, Ideal.cmpf_def, Ideal.absf_def, top_f32] using e)

end Cert.Pre_finite_inputs.Finite

end
-- ==== Proof.Algebraic.lean ====
/-
  The value claim. The idealized kernel's result is the host lines after the region applied to its two result arrays;
  the reference's is the same two means of its two root-of-minimum arrays. Per target row the kernel's minimum over the
  four query tiles of the tiles' roots is the root of the least over all query rows, the root being monotone; per query
  row the two arrays agree outright; and under the precondition the reference's floored expansion of the square is the
  kernel's sum of squared coordinate differences.
-/
import proofs.«151873_j40888088658143_2_alg».proof.Defs
import proofs.«151873_j40888088658143_2_alg».proof.Proof.Gen.ReferenceIdeal.Run
import proofs.«151873_j40888088658143_2_alg».proof.Proof.Gen.ReferenceIdeal.Read
import proofs.«151873_j40888088658143_2_alg».proof.Proof.IdealRun
import proofs.«151873_j40888088658143_2_alg».proof.Proof.RefValue
import proofs.«151873_j40888088658143_2_alg».proof.Proof.Finite

noncomputable section

namespace Cert.Proof.Value

open Idealize.ShloMosaic Idealize.ShloMosaic.TcCoe Idealize.SL.Sem Idealize.ShloMosaic.ValueIdx Cert.TileIndex Cert.Bridge
open Cert.KernelIdeal Cert.KernelIdeal.Gen Cert.KernelIdeal.Hand Cert.KernelIdeal.Tile

variable [Cert.KernelIdeal.Facts] [Cert.ReferenceIdeal.Facts] [Cert.Pre_finite_inputs.Facts]

/-- The two programs' results, as functions of the same argument arrays, are equal. -/
theorem value_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) = fun _ => 1#1) :
    Cert.ReferenceIdeal.Read.val_main_v23 (F := Ideal) (m ((c.tc : Thread nD τ).loc main_arg0)) (m ((c.tc : Thread nD τ).loc main_arg1))
      = tailVal (res2 m c) (res1 m c) := by
  obtain ⟨hx0, hx1⟩ := Cert.Pre_finite_inputs.Finite.real_of_pre _ _ hpre
  have e1 : Host.reduce FloatOps.minimumf (res2 m c) (constant (F := Ideal) S_ .f32 0x7F800000#32) reducesTo_S4x8x4096_S8x4096_d0 h_S_
      = Cert.ReferenceIdeal.Read.val_main_v16 (F := Ideal) (m ((c.tc : Thread nD τ).loc main_arg0)) (m ((c.tc : Thread nD τ).loc main_arg1)) := funext fun y => by
    obtain ⟨b, q, rfl⟩ : ∃ (b : Fin 8) (q : Fin 4096), y = ix2 b q := ⟨y 0, y 1, eq_ix2 y⟩
    refine (host_min_tiles _ _ (fun _ => top_f32) _ _ b q).trans ?_
    rw [Cert.ReferenceIdeal.RefValue.v16_apply _ _ hx0 hx1 b q]
    show ((Finset.univ : Finset (Fin 4)).inf fun k => Ideal.sqrt (colPart m c b k.val k.isLt q)) = _
    rw [← sqrt_inf]
    refine congrArg Ideal.sqrt ?_
    unfold colPart
    exact inf_tiles (fun n => Dg m c b n q)
  have e2 : res1 m c
      = Cert.ReferenceIdeal.Read.val_main_v18 (F := Ideal) (m ((c.tc : Thread nD τ).loc main_arg0)) (m ((c.tc : Thread nD τ).loc main_arg1)) := funext fun y => by
    obtain ⟨b, n, rfl⟩ : ∃ (b : Fin 8) (n : Fin 4096), y = ix2 b n := ⟨y 0, y 1, eq_ix2 y⟩
    rw [Cert.ReferenceIdeal.RefValue.v18_apply _ _ hx0 hx1 b n]
    rfl
  rw [Cert.ReferenceIdeal.RefValue.v23_eq]
  unfold tailVal
  rw [e1, e2]

end Cert.Proof.Value

namespace Cert.Proof

open Idealize.ShloMosaic Idealize.SL.Sem

theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.tailVal (Cert.KernelIdeal.Hand.res2 m c) (Cert.KernelIdeal.Hand.res1 m c),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v23_eq _ _).trans (Cert.Proof.Value.value_eq m c (hpre c))

end Cert.Proof

end
-- ==== Proof.lean ====
/-
  The certificate's claim. The two kernel programs' frames are runs of the body over the launch side, once per residue
  of the grid point modulo 4, with the two scratch buffers (the running minimum per query row, and per target row) carried
  from point to point by the region's invariant. The reference's frame is its run with the result dropped. The
  idealization rewrote nothing, so nothing is to be preserved. The value claim follows the two running minima through
  the sixteen grid points to the two result arrays, the host lines after the region to the result, and meets the
  reference's value there (Proof/Algebraic.lean).
-/
import proofs.«151873_j40888088658143_2_alg».proof.Defs
import proofs.«151873_j40888088658143_2_alg».proof.Proof.Gen.Kernel
import proofs.«151873_j40888088658143_2_alg».proof.Proof.Gen.KernelIdeal
import proofs.«151873_j40888088658143_2_alg».proof.Proof.Gen.ReferenceIdeal
import proofs.«151873_j40888088658143_2_alg».proof.Proof.Gen.Pre_finite_inputs
import proofs.«151873_j40888088658143_2_alg».proof.Proof.Gen.ReferenceIdeal.Run
import proofs.«151873_j40888088658143_2_alg».proof.Proof.Gen.ReferenceIdeal.Read
import proofs.«151873_j40888088658143_2_alg».proof.Proof.BitsFrame
import proofs.«151873_j40888088658143_2_alg».proof.Proof.IdealFrame
import proofs.«151873_j40888088658143_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
